-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)
  ∧ IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  main_v8
-- ==== Kernel.lean ====
abbrev S4096x128 : Shape := ⟨2, ![4096, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x1 : Shape := ⟨2, ![1, 1]⟩
abbrev S128x128 : Shape := ⟨2, ![128, 128]⟩
abbrev S128x8192 : Shape := ⟨2, ![128, 8192]⟩
abbrev S128 : Shape := ⟨1, ![128]⟩
abbrev S128x1 : Shape := ⟨2, ![128, 1]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 16
  | .vmem => 7
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S8192x128, .bf16⟩
  | .hbm, ⟨14, _⟩ => ⟨S1x1, .f32⟩
  | .hbm, ⟨15, _⟩ => ⟨S_, .f32⟩
  | .local _ .vmem, ⟨0, _⟩ => ⟨S8192x128, .bf16⟩
  | .local _ .vmem, ⟨1, _⟩ => ⟨S128x128, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S1x1, .f32⟩
  | .local _ .vmem, ⟨6, _⟩ => ⟨S1x1, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v50 : BitVec 1 := Scalar.cmpi .eq arg0 c63_i32
  let v51 : BitVec 32 := Scalar.extui v50
  let c0_i32_19 : BitVec 32 := 0#32
  let v52 : BitVec 1 := Scalar.cmpi .ne v51 c0_i32_19
  v52

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c32_i32 : BitVec 32 := 32#32
  let v0 : BitVec 1 := Scalar.cmpi .slt arg0 c32_i32
  let c32_i32_0 : BitVec 32 := 32#32
  let v1 : BitVec 32 := Scalar.addi arg0 c32_i32_0
  let c32_i32_1 : BitVec 32 := 32#32
  let v2 : BitVec 32 := Scalar.subi arg0 c32_i32_1
  let v3 : BitVec 32 := Scalar.select v0 v1 v2
  let c0_i32 : BitVec 32 := 0#32
  let c0_i32_2 : BitVec 32 := 0#32
  ![v3.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  concatenates_S4096x128_S4096x128_S8192x128_d0 : Shape.Concatenates [S4096x128, S4096x128] S8192x128 0
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  bitsLt_bf16_f32 : FTy.bits .bf16 < FTy.bits .f32
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S128x8192_S128 : S128x8192.Reduces [1] S128
  shapeCasts_S128_S128x1 : S128.ShapeCasts S128x1
  broadcasts_S128x1_S128x8192 : S128x1.Broadcasts S128x8192
  reduces_S128x128_S128 : S128x128.Reduces [1] S128
  shapeCasts_S128x1_S1x128x1 : S128x1.ShapeCasts S1x128x1
  reduces_S1x128x1_S1 : S1x128x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  dot_S128x128_S8192x128_S128x8192_1_1_0_0_n_n_wf : DotDims.WF S128x128 S8192x128 S128x8192 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .bf16 = 32 ∨ (Rect.block (s := S8192x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S8192x128.size a
  hwx0_1 : ∀ i : grid0.Coords, EltTy.bits .bf16 = 32 ∨ (Rect.block (s := S8192x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S8192x128.size a
  hwx0_2 : ∀ i : grid0.Coords, EltTy.bits .bf16 = 32 ∨ (Rect.block (s := S8192x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def dot_S128x128_S8192x128_S128x8192_1_1_0_0_n_n : DotDims S128x128 S8192x128 S128x8192 where
  lhsContracting := [1]
  rhsContracting := [1]
  lhsNonContracting := [0]
  rhsNonContracting := [0]
  lhsBatch := []
  rhsBatch := []
  wf := dot_S128x128_S8192x128_S128x8192_1_1_0_0_n_n_wf

abbrev win0_0 : Pipeline.Window sig grid0 :=
  Pipeline.Window.ofSpec (Memref.whole main_v6) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4096x128 : Shape := ⟨2, ![4096, 128]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S128x8192 : Shape := ⟨2, ![128, 8192]⟩
abbrev S8192x8192 : Shape := ⟨2, ![8192, 8192]⟩
abbrev S4096x4096 : Shape := ⟨2, ![4096, 4096]⟩
abbrev S1x4096x1x4096 : Shape := ⟨4, ![1, 4096, 1, 4096]⟩
abbrev S2x4096x2x4096 : Shape := ⟨4, ![2, 4096, 2, 4096]⟩

abbrev nBuf : Space → Nat
  | .hbm => 66
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S8192x128, .f32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x128, .f32⟩
  | .hbm, ⟨12, _⟩ => ⟨S8192x128, .f32⟩
  | .hbm, ⟨13, _⟩ => ⟨S128x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .i32⟩
  | .hbm, ⟨19, _⟩ => ⟨S8192x8192, .i32⟩
  | .hbm, ⟨20, _⟩ => ⟨S_, .i32⟩
  | .hbm, ⟨21, _⟩ => ⟨S8192x8192, .i32⟩
  | .hbm, ⟨22, _⟩ => ⟨S8192x8192, .i32⟩
  | .hbm, ⟨23, _⟩ => ⟨S8192x8192, .i1⟩
  | .hbm, ⟨24, _⟩ => ⟨S_, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192x1, .f32⟩
  | .hbm, ⟨34, _⟩ => ⟨S8192x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1, .f32⟩
  | .hbm, ⟨41, _⟩ => ⟨S8192x8192, .f32⟩
  | .hbm, ⟨42, _⟩ => ⟨S8192x8192, .f32⟩
  | .hbm, ⟨43, _⟩ => ⟨S4096x4096, .i32⟩
  | .hbm, ⟨44, _⟩ => ⟨S4096x4096, .i32⟩
  | .hbm, ⟨45, _⟩ => ⟨S_, .i32⟩
  | .hbm, ⟨46, _⟩ => ⟨S4096x4096, .i32⟩
  | .hbm, ⟨47, _⟩ => ⟨S4096x4096, .i32⟩
  | .hbm, ⟨48, _⟩ => ⟨S4096x4096, .i1⟩
  | .hbm, ⟨49, _⟩ => ⟨S1x4096x1x4096, .i1⟩
  | .hbm, ⟨50, _⟩ => ⟨S2x4096x2x4096, .i1⟩
  | .hbm, ⟨51, _⟩ => ⟨S8192x8192, .i1⟩
  | .hbm, ⟨52, _⟩ => ⟨S8192x8192, .i1⟩
  | .hbm, ⟨53, _⟩ => ⟨S8192x8192, .i1⟩
  | .hbm, ⟨54, _⟩ => ⟨S_, .f32⟩
  | .hbm, ⟨55, _⟩ => ⟨S_, .f32⟩
  | .hbm, ⟨56, _⟩ => ⟨S8192x8192, .f32⟩
  | .hbm, ⟨57, _⟩ => ⟨S8192x8192, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S8192x8192, .i32⟩
  | .hbm, ⟨62, _⟩ => ⟨S_, .i32⟩
  | .hbm, ⟨63, _⟩ => ⟨S_, .i32⟩
  | .hbm, ⟨64, _⟩ => ⟨S_, .f32⟩
  | .hbm, ⟨65, _⟩ => ⟨S_, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v15 : Ref sig .tc := ⟨.hbm, 27, rfl⟩
abbrev main_call2_cst : Ref sig .tc := ⟨.hbm, 28, rfl⟩
abbrev main_call2_v0 : Ref sig .tc := ⟨.hbm, 29, rfl⟩
abbrev main_call2_cst_0 : Ref sig .tc := ⟨.hbm, 30, rfl⟩
abbrev main_call2_v1 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_v6 : Ref sig .tc := ⟨.hbm, 36, rfl⟩
abbrev main_call2_cst_1 : Ref sig .tc := ⟨.hbm, 37, rfl⟩
abbrev main_call2_v7 : Ref sig .tc := ⟨.hbm, 38, rfl⟩
abbrev main_call2_v8 : Ref sig .tc := ⟨.hbm, 39, rfl⟩
abbrev main_call2_v9 : Ref sig .tc := ⟨.hbm, 40, rfl⟩
abbrev main_call2_v10 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_c_2 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_cst_3 : Ref sig .tc := ⟨.hbm, 54, rfl⟩
abbrev main_call3_v0 : Ref sig .tc := ⟨.hbm, 55, rfl⟩
abbrev main_call3_v1 : Ref sig .tc := ⟨.hbm, 56, rfl⟩
abbrev main_v27 : Ref sig .tc := ⟨.hbm, 57, rfl⟩
abbrev main_cst_4 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_c_5 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩

abbrev nD : Nat := 1
abbrev τ : Topo := Topo.v7x

variable {F : FTy → Type} [FloatOps F]

class Facts₀ : Prop where
  concatenates_S4096x128_S4096x128_S8192x128_d0 : Shape.Concatenates [S4096x128, S4096x128] S8192x128 0
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x128_0_1 : S8192x1.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  bcast_S8192x1_S8192x8192_0_1 : S8192x1.BroadcastsInDim S8192x8192 (![0, 1] : Fin 2 → Fin S8192x8192.rank)
  bcast_S_S4096x4096 : S_.BroadcastsInDim S4096x4096 (![] : Fin 0 → Fin S4096x4096.rank)
  shapeCasts_S4096x4096_S1x4096x1x4096 : S4096x4096.ShapeCasts S1x4096x1x4096
  bcast_S1x4096x1x4096_S2x4096x2x4096_0_1_2_3 : S1x4096x1x4096.BroadcastsInDim S2x4096x2x4096 (![0, 1, 2, 3] : Fin 4 → Fin S2x4096x2x4096.rank)
  shapeCasts_S2x4096x2x4096_S8192x8192 : S2x4096x2x4096.ShapeCasts S8192x8192
  reducesTo_S8192x8192_S_d0_1 : S8192x8192.ReducesTo [0, 1] S_
  natLt_1_32 : 1 < 32
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KB.Runs.lean ====
/-
  The frame of the kernel as printed, part 1: what the three case runs and the launch share.

  The computation runs over a grid of 64 points. Windows 0, 1 and 2 all stage the ONE array of normalised rows (8192 × 128): window 0
  the whole array (fetched once), window 1 the point's own tile of 128 rows, window 2 the partner tile (tile t ± 32). Window 3 is the
  1 × 1 result, stored only at the last point. A 1 × 1 scratch carries the running sum from point to point: zeroed at the first
  point, added to at every point, negated, scaled and stored to the result at the last.

  Here: the buffer contents when the region is entered (after the host lines that concatenate, normalise and convert the rows);
  @main reduced to "the region, then the reshape"; each window's block at a point; each input's staging buffer holding that
  block at every point; the two branch conditions in closed form over the grid; where the result window is idle.
-/
import proofs.«119228_j90692529422675_1_alg».proof.Proof.Gen.Kernel.Launch
import proofs.«119228_j90692529422675_1_alg».proof.Proof.Gen.Kernel.Skeleton
import proofs.«119228_j90692529422675_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host lines before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; rfl
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; rfl

/-- @main is the host lines, the region, the reshape: it reduces to the region continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole-array window's staging buffer holds the array at every point: fetched at the first, its index never moves. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The tile window's staging buffer holds the point's tile. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The partner window's staging buffer holds the partner tile. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "This is the first point" as the body computes it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)
/-- "This is the last point" as the body computes it. -/
abbrev cond0_1 (i : grid0.Coords) : Prop := k0_cond2 i = 1#1
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last point the result window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point it is live. -/
theorem liveAt0_3 : ∀ t : Fin cfg0.N, cond0_1 (grid0.coords t) → cfg0.idle 3 (grid0.coords t) = false := by decide +kernel

/-! ## The staging memrefs and the scratch -/

abbrev VO0_3 : View sig .tc .vmem S1x1 .f32 := (Memref.whole cc0_stg3_0 : Memref sig .tc .vmem S1x1 .f32).view
abbrev ms0_0 (t : Fin cfg0.N) : Memref sig .tc .vmem S8192x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The scratch that carries the running sum. -/
abbrev scM0_0 : Memref sig .tc .vmem S1x1 .f32 := Memref.whole cc0_scratch0
abbrev VS0_0 : View sig .tc .vmem S1x1 .f32 := scM0_0.view

/-- What the launch hands the region beside the windows: the scratch at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.KB.RunA.lean ====
/-
  The frame of the kernel as printed: the body at the FIRST point (the running sum is zeroed, then added to; nothing is stored to the result).
-/
import proofs.«119228_j90692529422675_1_alg».proof.Proof.KB.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first point, on whole staging memrefs: the three inputs at their contents and handed back as they were, the
    result's buffer handed back untouched, the scratch found at anything and left with the pieces the run finds. -/
noncomputable def kernelRun0_A (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x1 : Vec F S8192x128 .bf16) (x2 : Vec F S128x128 .bf16) (x3 : Vec F S128x128 .bf16) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare xi3 ∗ (∃ d, owns (c : Thread nD τ) arg5 fullShare d)
            ∗ (iprop(owns (c : Thread nD τ) arg1 fullShare x1 ∗ owns (c : Thread nD τ) arg2 fullShare x2 ∗ owns (c : Thread nD τ) arg3 fullShare x3 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__contrastive_kernel i arg1 harg1 arg2 harg2 arg3 harg3 arg4 harg4 arg5 harg5) K } := by
  refine ⟨[], ?_, fun xi3 E K => ?run⟩
  case run =>
    simp only [cc0__contrastive_kernel_eq_skeleton]; unfold cc0__contrastive_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%ds0, %fs0, -, HS0⟩, Hk⟩
    obtain rfl := harg1.eq_unread hf1; obtain rfl := harg2.eq_unread hf2; obtain rfl := harg3.eq_unread hf3; obtain rfl := harg4.eq_unread hf4
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact HS0

end Cert.Kernel.Hand

end
-- ==== Proof.KB.RunB.lean ====
/-
  The frame of the kernel as printed: the body at a MIDDLE point (the running sum is added to; nothing is stored to the result).
-/
import proofs.«119228_j90692529422675_1_alg».proof.Proof.KB.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a middle point: as at the first, but the scratch is found at what the point before left (`xs0`). -/
noncomputable def kernelRun0_B (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x1 : Vec F S8192x128 .bf16) (x2 : Vec F S128x128 .bf16) (x3 : Vec F S128x128 .bf16) (xs0 : Vec F S1x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare xi3 ∗ owns (c : Thread nD τ) arg5 fullShare xs0
            ∗ (iprop(owns (c : Thread nD τ) arg1 fullShare x1 ∗ owns (c : Thread nD τ) arg2 fullShare x2 ∗ owns (c : Thread nD τ) arg3 fullShare x3 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__contrastive_kernel i arg1 harg1 arg2 harg2 arg3 harg3 arg4 harg4 arg5 harg5) K } := by
  refine ⟨[], ?_, fun xi3 E K => ?run⟩
  case run =>
    simp only [cc0__contrastive_kernel_eq_skeleton]; unfold cc0__contrastive_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%fs0, %hfs0, HS0⟩, Hk⟩
    obtain rfl := harg1.eq_unread hf1; obtain rfl := harg2.eq_unread hf2; obtain rfl := harg3.eq_unread hf3; obtain rfl := harg4.eq_unread hf4; obtain rfl := harg5.eq_unread hfs0
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact HS0

end Cert.Kernel.Hand

end
-- ==== Proof.KB.RunC.lean ====
/-
  The frame of the kernel as printed: the body at the LAST point (the running sum is added to, then negated, scaled and stored to the result).
-/
import proofs.«119228_j90692529422675_1_alg».proof.Proof.KB.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last point: the scratch found at what the point before left, the result's buffer found at anything and left
    with the pieces the run finds. -/
noncomputable def kernelRun0_C (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x1 : Vec F S8192x128 .bf16) (x2 : Vec F S128x128 .bf16) (x3 : Vec F S128x128 .bf16) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ (∃ d, owns (c : Thread nD τ) arg4 fullShare d) ∗ owns (c : Thread nD τ) arg5 fullShare xs0
            ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0__contrastive_kernel i arg1 harg1 arg2 harg2 arg3 harg3 arg4 harg4 arg5 harg5) K } := by
  refine ⟨?_, ?_, fun E K => ?run⟩
  case run =>
    simp only [cc0__contrastive_kernel_eq_skeleton]; unfold cc0__contrastive_kernel_skel
    simp only [k0_part1_eq_skeleton]; unfold k0_part1_skel
    unfold owns
    iintro ⟨⟨%f1, %hf1, H1⟩, ⟨%f2, %hf2, H2⟩, ⟨%f3, %hf3, H3⟩, ⟨%d4, %f4, -, H4⟩, ⟨%fs0, %hfs0, HS0⟩, Hk⟩
    obtain rfl := harg1.eq_unread hf1; obtain rfl := harg2.eq_unread hf2; obtain rfl := harg3.eq_unread hf3; obtain rfl := harg5.eq_unread hfs0
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact HS0

end Cert.Kernel.Hand

end
-- ==== Proof.KB.Body.lean ====
/-
  The frame of the kernel as printed: what each point leaves, the proof data, and the body obligation at every point.
-/
import proofs.«119228_j90692529422675_1_alg».proof.Proof.KB.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- At the first point nothing is stored to the result: a placeholder nothing consults. -/
def out0_A_3 (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x1 : Vec F S8192x128 .bf16) (x2 : Vec F S128x128 .bf16) (x3 : Vec F S128x128 .bf16) : Vec F S1x1 .f32 :=
  VO0_3.read (Elt F) (VO0_3.writes (Elt F) VO0_3.junk (kernelRun0_A c i arg1 harg1 arg2 harg2 arg3 harg3 arg4 harg4 arg5 harg5 hc0 hc1 x1 x2 x3).1)
/-- The first point's stores cover the scratch. -/
theorem scover0_A_0 (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x1 : Vec F S8192x128 .bf16) (x2 : Vec F S128x128 .bf16) (x3 : Vec F S128x128 .bf16) (y : S1x1.Idx) :
    ∃ pc ∈ (kernelRun0_A c i arg1 harg1 arg2 harg2 arg3 harg3 arg4 harg4 arg5 harg5 hc0 hc1 x1 x2 x3).2.1, y ∈ pc.1.set :=
  View.cover_of_tiledL (kernelRun0_A c i arg1 harg1 arg2 harg2 arg3 harg3 arg4 harg4 arg5 harg5 hc0 hc1 x1 x2 x3).2.1 S1x1.size (by sl_kernel_rfl) y
/-- What the first point leaves in the scratch: the first partial sum. -/
def sout0_A_0 (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x1 : Vec F S8192x128 .bf16) (x2 : Vec F S128x128 .bf16) (x3 : Vec F S128x128 .bf16) : Vec F S1x1 .f32 :=
  VS0_0.read (Elt F) (VS0_0.writes (Elt F) VS0_0.junk (kernelRun0_A c i arg1 harg1 arg2 harg2 arg3 harg3 arg4 harg4 arg5 harg5 hc0 hc1 x1 x2 x3).2.1)

/-- At a middle point nothing is stored to the result either. -/
def out0_B_3 (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x1 : Vec F S8192x128 .bf16) (x2 : Vec F S128x128 .bf16) (x3 : Vec F S128x128 .bf16) (xs0 : Vec F S1x1 .f32) : Vec F S1x1 .f32 :=
  VO0_3.read (Elt F) (VO0_3.writes (Elt F) VO0_3.junk (kernelRun0_B c i arg1 harg1 arg2 harg2 arg3 harg3 arg4 harg4 arg5 harg5 hc0 hc1 x1 x2 x3 xs0).1)
theorem scover0_B_0 (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x1 : Vec F S8192x128 .bf16) (x2 : Vec F S128x128 .bf16) (x3 : Vec F S128x128 .bf16) (xs0 : Vec F S1x1 .f32) (y : S1x1.Idx) :
    ∃ pc ∈ (kernelRun0_B c i arg1 harg1 arg2 harg2 arg3 harg3 arg4 harg4 arg5 harg5 hc0 hc1 x1 x2 x3 xs0).2.1, y ∈ pc.1.set :=
  View.cover_of_tiledL (kernelRun0_B c i arg1 harg1 arg2 harg2 arg3 harg3 arg4 harg4 arg5 harg5 hc0 hc1 x1 x2 x3 xs0).2.1 S1x1.size (by sl_kernel_rfl) y
/-- What a middle point leaves in the scratch: the running sum so far plus this point's partial sum. -/
def sout0_B_0 (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x1 : Vec F S8192x128 .bf16) (x2 : Vec F S128x128 .bf16) (x3 : Vec F S128x128 .bf16) (xs0 : Vec F S1x1 .f32) : Vec F S1x1 .f32 :=
  VS0_0.read (Elt F) (VS0_0.writes (Elt F) VS0_0.junk (kernelRun0_B c i arg1 harg1 arg2 harg2 arg3 harg3 arg4 harg4 arg5 harg5 hc0 hc1 x1 x2 x3 xs0).2.1)

/-- The last point's store covers the result's block. -/
theorem cover0_C_3 (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x1 : Vec F S8192x128 .bf16) (x2 : Vec F S128x128 .bf16) (x3 : Vec F S128x128 .bf16) (xs0 : Vec F S1x1 .f32) (y : S1x1.Idx) :
    ∃ pc ∈ (kernelRun0_C c i arg1 harg1 arg2 harg2 arg3 harg3 arg4 harg4 arg5 harg5 hc0 hc1 x1 x2 x3 xs0).1, y ∈ pc.1.set :=
  View.cover_of_tiledL (kernelRun0_C c i arg1 harg1 arg2 harg2 arg3 harg3 arg4 harg4 arg5 harg5 hc0 hc1 x1 x2 x3 xs0).1 S1x1.size (by sl_kernel_rfl) y
/-- What the last point leaves in the result's buffer: the negated, scaled total. -/
def out0_C_3 (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x1 : Vec F S8192x128 .bf16) (x2 : Vec F S128x128 .bf16) (x3 : Vec F S128x128 .bf16) (xs0 : Vec F S1x1 .f32) : Vec F S1x1 .f32 :=
  VO0_3.read (Elt F) (VO0_3.writes (Elt F) VO0_3.junk (kernelRun0_C c i arg1 harg1 arg2 harg2 arg3 harg3 arg4 harg4 arg5 harg5 hc0 hc1 x1 x2 x3 xs0).1)
theorem scover0_C_0 (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x1 : Vec F S8192x128 .bf16) (x2 : Vec F S128x128 .bf16) (x3 : Vec F S128x128 .bf16) (xs0 : Vec F S1x1 .f32) (y : S1x1.Idx) :
    ∃ pc ∈ (kernelRun0_C c i arg1 harg1 arg2 harg2 arg3 harg3 arg4 harg4 arg5 harg5 hc0 hc1 x1 x2 x3 xs0).2.1, y ∈ pc.1.set :=
  View.cover_of_tiledL (kernelRun0_C c i arg1 harg1 arg2 harg2 arg3 harg3 arg4 harg4 arg5 harg5 hc0 hc1 x1 x2 x3 xs0).2.1 S1x1.size (by sl_kernel_rfl) y
def sout0_C_0 (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x1 : Vec F S8192x128 .bf16) (x2 : Vec F S128x128 .bf16) (x3 : Vec F S128x128 .bf16) (xs0 : Vec F S1x1 .f32) : Vec F S1x1 .f32 :=
  VS0_0.read (Elt F) (VS0_0.writes (Elt F) VS0_0.junk (kernelRun0_C c i arg1 harg1 arg2 harg2 arg3 harg3 arg4 harg4 arg5 harg5 hc0 hc1 x1 x2 x3 xs0).2.1)

/-! ## The accumulation -/

theorem not_first {n : ℕ} (hn : n + 1 < cfg0.N) : ¬cond0_0 (grid0.coords ⟨n + 1, hn⟩) := fun h => by
  have h' := (hcond0_0 ⟨n + 1, hn⟩).mp h
  have hN : n + 1 < 64 := lt_of_lt_of_eq hn (show cfg0.N = 64 from N_0)
  (try dsimp only at h'); omega
theorem not_last_zero (hn : 0 < cfg0.N) : ¬cond0_1 (grid0.coords ⟨0, hn⟩) := fun h => by
  have h' := (hcond0_1 ⟨0, hn⟩).mp h
  (try dsimp only at h'); omega

/-- What the result's staging buffer and the scratch hold after the body at position `n`: the case of the point, run at the point's
    memrefs and blocks, the scratch found at what position `n - 1` left. -/
def outsAt0 (c : Dev nD) : (n : ℕ) → n < cfg0.N → Vec F S1x1 .f32 × Vec F S1x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (not_last_zero hn) (iblk m c 0 ⟨0, hn⟩) (iblk m c 1 ⟨0, hn⟩) (iblk m c 2 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (not_last_zero hn) (iblk m c 0 ⟨0, hn⟩) (iblk m c 1 ⟨0, hn⟩) (iblk m c 2 ⟨0, hn⟩))
  | n + 1, hn =>
    if h1 : (n + 1) % 64 = 63 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first hn) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first hn) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first hn) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first hn) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

theorem outsAt0_A (c : Dev nD) (t : Fin cfg0.N) (hz : t.val = 0) (hc0 : cond0_0 (grid0.coords t)) (hc1 : ¬cond0_1 (grid0.coords t)) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t)) := by
  obtain ⟨n, hn⟩ := t
  cases n with
  | zero => exact rfl
  | succ n => exact absurd hz (Nat.succ_ne_zero n)

theorem outsAt0_B (c : Dev nD) (t : Fin cfg0.N) (hz : t.val ≠ 0) (h1 : ¬t.val % 64 = 63) (hc0 : ¬cond0_0 (grid0.coords t)) (hc1 : ¬cond0_1 (grid0.coords t)) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd rfl hz
  | succ n => exact (dif_neg h1).trans rfl

theorem outsAt0_C (c : Dev nD) (t : Fin cfg0.N) (hz : t.val ≠ 0) (h1 : t.val % 64 = 63) (hc0 : ¬cond0_0 (grid0.coords t)) (hc1 : cond0_1 (grid0.coords t)) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd rfl hz
  | succ n => exact (dif_pos h1).trans rfl

/-- The region invariant before position `n`: before the first point the scratch at anything; afterwards the scratch at what the
    point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The proof data on core `c`: the arrays as the region finds them; after the body each input's buffer at its block and the
    result's at `outsAt0`; the invariant `PhiS`; nothing owed. The three input windows read ONE array, so each holds a share of it:
    the left half, and the two halves of the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]

set_option maxHeartbeats 4800000 in
/-- The body at any point: the inputs' buffers hold their blocks; the closed forms say which case the point is in; the invariant
    hands the body the scratch at what the point before left (at anything at the first point) and takes it back at this point's
    contents; the result's buffer is handed back untouched off the last point and at the stored value at it; nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2]
  have hN : t.val < 64 := lt_of_lt_of_eq t.isLt (show cfg0.N = 64 from N_0)
  by_cases hz : t.val = 0
  · have hc0 : cond0_0 (grid0.coords t) := (hcond0_0 t).mpr (by rw [hz])
    have hc1 : ¬cond0_1 (grid0.coords t) := fun h => by have := (hcond0_1 t).mp h; omega
    rw [Dat.leavesExact_idle (dats m 0 c) 3 t (idleAt0_3 t hc1) (noFlush0_3 t hc1)]
    rw [outsAt0_A m c t hz hc0 hc1]
    unfold sout0_A_0; (try dsimp only)
    rw [PhiS_castSucc m c t, PhiS_zero m c _ _ hz, PhiA0_eq]
    iintro ⟨⟨HS0, Hg⟩, Ho, ⟨%d0, H0⟩, ⟨%d1, H1⟩, ⟨%d2, H2⟩, ⟨%d3, H3⟩⟩
    iapply ((kernelRun0_A c (grid0.coords t) _ _ _ _ _ _ _ _ _ _ hc0 hc1 (iblk m c 0 t) (iblk m c 1 t) (iblk m c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hc0 : ¬cond0_0 (grid0.coords t) := fun h => by have := (hcond0_0 t).mp h; omega
    by_cases h1 : t.val % 64 = 63
    · have hc1 : cond0_1 (grid0.coords t) := (hcond0_1 t).mpr h1
      rw [show (dats m 0 c).leavesExact 3 t = owns (c : Thread nD τ) (ms0_3 t) fullShare ((dats m 0 c).after 3 t) from by
        unfold Dat.leavesExact; rw [liveAt0_3 t hc1], after0_3]
      rw [outsAt0_C m c t hz h1 hc0 hc1]
      unfold out0_C_3 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ hc0 hc1 (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · have hc1 : ¬cond0_1 (grid0.coords t) := fun h => h1 ((hcond0_1 t).mp h)
      rw [Dat.leavesExact_idle (dats m 0 c) 3 t (idleAt0_3 t hc1) (noFlush0_3 t hc1)]
      rw [outsAt0_B m c t hz h1 hc0 hc1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ hc0 hc1 (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.Kernel.Hand

end
-- ==== Proof.KB.Frame.lean ====
/-
  The frame of the kernel as printed: the launch — the one array split among its three windows, the reshape after the region, and the run.
-/
import proofs.«119228_j90692529422675_1_alg».proof.Proof.KB.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-! ## The arrays at the windows' shares -/

/-- The windows' arrays as points-tos of the buffers behind them, each at its window's share. -/
theorem arrays_eq' (c : Dev nD) (Fa : (w : Fin cfg0.W) → Buf (Elt F) ((cfg0.win w).arr.view.loc (c.tc : Thread nD τ))) :
    ((dats m 0 c).arrays Fa : sProp 𝕄)
      = bigSep Finset.univ fun w : Fin cfg0.W => (((c.tc : Thread nD τ).loc (arrRef spec0 w)) ↦{(dats m 0 c).share w} Fa w : sProp 𝕄) := by
  unfold Dat.arrays
  exact bigSep_congr fun w _ => by rw [(arr_whole0 w).set_eq_univ]

theorem share0 (c : Dev nD) : (dats m 0 c).share 0 = fullShare.left := rfl
theorem share1 (c : Dev nD) : (dats m 0 c).share 1 = fullShare.right.left := rfl
theorem share2 (c : Dev nD) : (dats m 0 c).share 2 = fullShare.right.right := rfl
theorem share3 (c : Dev nD) : (dats m 0 c).share 3 = fullShare := rfl

/-- The same, the four windows written out: the array of rows at the left half, the left and the right quarter of the right half;
    the result's array whole. -/
theorem arrays_four (c : Dev nD) (Fa : (w : Fin cfg0.W) → Buf (Elt F) ((cfg0.win w).arr.view.loc (c.tc : Thread nD τ))) :
    ((dats m 0 c).arrays Fa : sProp 𝕄)
      = iprop((((c.tc : Thread nD τ).loc main_v6) ↦{fullShare.left} Fa 0) ∗ (((c.tc : Thread nD τ).loc main_v6) ↦{fullShare.right.left} Fa 1)
          ∗ (((c.tc : Thread nD τ).loc main_v6) ↦{fullShare.right.right} Fa 2) ∗ (((c.tc : Thread nD τ).loc main_v7) ↦{fullShare} Fa 3)) := by
  rw [arrays_eq', bigSep_W0, share0, share1, share2, share3]

/-- Entering the region: the array of rows, held whole, is split among the three windows that read it. -/
theorem arrBufs_eq (c : Dev nD) :
    (arrBufs spec0 c (V m c) : sProp 𝕄)
      = iprop((((c.tc : Thread nD τ).loc main_v6) ↦{fullShare} V m c main_v6) ∗ (((c.tc : Thread nD τ).loc main_v7) ↦{fullShare} V m c main_v7)) := by
  unfold arrBufs
  rw [show Finset.univ.image (arrRef spec0) = ({main_v6, main_v7} : Finset (Ref sig .tc)) from by decide,
    bigSep_insert (by decide), bigSep_singleton]
  rfl

theorem hsplit (c : Dev nD) : (arrBufs spec0 c (V m c) : sProp 𝕄) ⊢ (dats m 0 c).arrays ((dats m 0 c).arrAt · 0) := by
  rw [arrays_four, arrBufs_eq]
  iintro ⟨H6, H7⟩
  ihave H6 := (pointsTo_share (PosShare.mem_left_op_right fullShare)).1 $$ H6
  icases H6 with ⟨H6l, H6r⟩
  ihave H6r := (pointsTo_share (PosShare.mem_left_op_right fullShare.right)).1 $$ H6r
  icases H6r with ⟨H6rl, H6rr⟩
  isplitl [H6l]; · iexact H6l
  isplitl [H6rl]; · iexact H6rl
  isplitl [H6rr]; · iexact H6rr
  iexact H7

/-! ## The reshape after the region -/

/-- The result's array after the last write-back. -/
abbrev outN (c : Dev nD) : Buf (Elt F) ((c.tc : Thread nD τ).loc main_v7) := (dats m 0 c).arrAt 3 cfg0.N
/-- The buffer contents when the region is left: as entered, the result's array at what was written back. -/
def Wx (c : Dev nD) : Valuation τ sig (Elt F) := Function.update (V0 m c) (Proc.devRef .tc main_v7) (outN m c)
/-- The buffer contents at the end: after the reshape. -/
def Vz (c : Dev nD) (b : Ref sig .tc) : Buf (Elt F) ((c.tc : Thread nD τ).loc b) :=
  StableHlo.after (List.flatten [hostOps1]) (Wx m c) (Proc.devRef .tc b)

/-- The reshape: its one operation. -/
abbrev opR : HloOp τ sig (Elt F) := StableHlo.reshape main_v7 main_v8 rfl shapeCasts_S1x1_S_

theorem opR_bufs : (opR (F := F)).bufs = ({Proc.devRef .tc main_v7, Proc.devRef .tc main_v8} : Finset (DevRef τ sig)) := rfl

theorem Vz_of_ne (c : Dev nD) (b : Ref sig .tc) (h8 : b ≠ main_v8) (h7 : b ≠ main_v7) : Vz m c b = V m c b := by
  unfold Vz
  rw [StableHlo.after_of_forall_not_mem _ _ fun op hop => by
    simp only [List.flatten_cons, List.flatten_nil, List.append_nil, hostOps1, List.mem_singleton] at hop
    subst hop
    rw [StableHlo.reshape_writes, Finset.mem_singleton]; exact StableHlo.devRef_ne_of_ne h8]
  unfold Wx
  rw [Function.update_of_ne (fun e => h7 (Proc.devRef_injective (τ := τ) _ e))]

theorem Vz_v7 (c : Dev nD) : Vz m c main_v7 = outN m c := by
  unfold Vz
  rw [StableHlo.after_of_forall_not_mem _ _ fun op hop => by
    simp only [List.flatten_cons, List.flatten_nil, List.append_nil, hostOps1, List.mem_singleton] at hop
    subst hop
    rw [StableHlo.reshape_writes, Finset.mem_singleton]; exact StableHlo.devRef_ne_of_ne (by decide)]
  unfold Wx
  rw [Function.update_self]

/-- What the run keeps at the end: the two argument arrays and the reshaped result. -/
def Zx (c : Dev nD) : sProp 𝕄 :=
  bigSep ({main_arg0, main_arg1, main_v8} : Finset (Ref sig .tc)) fun b => (((c.tc : Thread nD τ).loc b) ↦{fullShare} Vz m c b : sProp 𝕄)

theorem Zx_eq (c : Dev nD) :
    Zx m c = iprop((((c.tc : Thread nD τ).loc main_arg0) ↦{fullShare} Vz m c main_arg0) ∗ (((c.tc : Thread nD τ).loc main_arg1) ↦{fullShare} Vz m c main_arg1)
      ∗ (((c.tc : Thread nD τ).loc main_v8) ↦{fullShare} Vz m c main_v8)) := by
  unfold Zx
  rw [bigSep_insert (by decide), bigSep_insert (by decide), bigSep_singleton]
  rfl

set_option backward.isDefEq.respectTransparency.types false in
/-- After the region the reshape runs on the result's array and its own buffer alone; the shares of the array of rows and
    every other buffer ride along. -/
theorem htail (c : Dev nD) (Q' : PUnit → sProp 𝕄) :
    iprop((iprop((dats m 0 c).arrays ((dats m 0 c).arrAt · cfg0.N) ∗ Zx m c) -∗ Q' ⟨⟩)
        ∗ boundary (c.tc : Thread nD τ) ∗ (dats m 0 c).arrays ((dats m 0 c).arrAt · cfg0.N)
        ∗ unscopedRest spec0 c (V m c))
      ⊢ wp frame (wpE (Pipeline.defs (fun q => (cfgs q).toPCfg (Val := Elt F)) (defs₀ (F := F))) (Variants.lift Variants.none) (c.tc : Thread nD τ) none) Set.univ
          (chain (([hostOps1] : List (List (HloOp τ sig (Elt F)))).map StableHlo.seq)) Q' := by
  rw [arrays_four, unscopedRest0_eq, Zx_eq]
  have hS : (StableHlo.held (c.tc : Thread nD τ) (opR (F := F)).bufs (Wx m c) : sProp 𝕄)
      = iprop((((c.tc : Thread nD τ).loc main_v7) ↦{fullShare} outN m c) ∗ (((c.tc : Thread nD τ).loc main_v8) ↦{fullShare} V m c main_v8)) := by
    unfold StableHlo.held
    rw [opR_bufs, bigSep_insert (by decide), bigSep_singleton]
    unfold Wx
    rw [Function.update_self, Function.update_of_ne (by decide)]
    rfl
  have hS' : (StableHlo.held (c.tc : Thread nD τ) (opR (F := F)).bufs (StableHlo.after (List.flatten [hostOps1]) (Wx m c)) : sProp 𝕄)
      = iprop((((c.tc : Thread nD τ).loc main_v7) ↦{fullShare} Vz m c main_v7) ∗ (((c.tc : Thread nD τ).loc main_v8) ↦{fullShare} Vz m c main_v8)) := by
    unfold StableHlo.held
    rw [opR_bufs, bigSep_insert (by decide), bigSep_singleton]
    rfl
  rw [← List.append_nil (([hostOps1] : List (List (HloOp τ sig (Elt F)))).map StableHlo.seq)]
  iintro ⟨Hk, Hb, ⟨Ha0, Ha1, Ha2, Ha3⟩, ⟨Hr0, Hr1, -, -, -, -, -, -, -, -, -, -, -, Hr8⟩⟩
  iapply (wp_seqs_then (fun q => (cfgs q).toPCfg (Val := Elt F)) (defs₀ (F := F)) Variants.none c (opR (F := F)).bufs [] [hostOps1]
    (fun ops hops op hop => by
      simp only [List.mem_singleton] at hops; subst hops
      simp only [hostOps1, List.mem_singleton] at hop; subst hop
      exact Finset.Subset.refl _)
    (fun ops hops op hop => by
      simp only [List.mem_singleton] at hops; subst hops
      exact (List.forall_iff_forall_mem.mp hostOps1_fresh) op hop)
    (Wx m c)) $$ [Hb Ha3 Hr8]
  · rw [hS]
    isplitl [Hb]; · iexact Hb
    isplitl [Ha3]; · iexact Ha3
    iexact Hr8
  iintro Hb
  rw [chain_nil, wp_pure, hS', Vz_v7]
  imodintro
  iapply Hk
  icases Hb with ⟨-, H7, H8⟩
  isplitl [Ha0 Ha1 Ha2 H7]
  · isplitl [Ha0]; · iexact Ha0
    isplitl [Ha1]; · iexact Ha1
    isplitl [Ha2]; · iexact Ha2
    iexact H7
  rw [Vz_of_ne m c main_arg0 (by decide) (by decide), Vz_of_ne m c main_arg1 (by decide) (by decide)]
  isplitl [Hr0]; · iexact Hr0
  isplitl [Hr1]; · iexact Hr1
  iexact H8

/-! ## The run -/

/-- The argument arrays are as launched when the region is entered: no host line writes them. -/
theorem V_main_arg0 (c : Dev nD) : V m c main_arg0 = m ((c.tc : Thread nD τ).loc main_arg0) := by
  dsimp only [V, V0]
  simp only [hostOps0, hostOps0_1, hostOps0_2, List.flatten_cons, List.flatten_nil, List.append_nil, List.cons_append, List.nil_append]
  after_results
theorem V_main_arg1 (c : Dev nD) : V m c main_arg1 = m ((c.tc : Thread nD τ).loc main_arg1) := by
  dsimp only [V, V0]
  simp only [hostOps0, hostOps0_1, hostOps0_2, List.flatten_cons, List.flatten_nil, List.append_nil, List.cons_append, List.nil_append]
  after_results

set_option backward.isDefEq.respectTransparency.types false in
/-- Every weakly fair execution of @main terminates, faults nowhere, and ends with the result buffer at the reshape of what the
    last point wrote back and the argument arrays as launched. -/
theorem run_main : θ_run (defs (F := F)) (onTc (τ := τ) (main (F := F))) ⟨m, fun _ => 0, ρ⟩ (fun r => ∀ c : Dev nD,
      r.2.mem ((c.tc : Thread nD τ).loc main_v8) = Vz m c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  θ_run_region_pf_tail (fun q => (cfgs q).toPCfg (Val := Elt F)) (fun q => (cfgs q).toPCfg_adm) (dats m) () cellOf_inj (0 : Fin 1)
    winFacts₀0 (OwnSemFacts.none _) (PreFacts.none _) emb₁ (defs₀ (F := F)) Variants.none m ρ main
    (fun _ => chain (([hostOps1] : List (List (HloOp τ sig (Elt F)))).map StableHlo.seq)) (fun c => (body_obligation m c).loose)
    block_pos0 arr_whole0 stage_whole0 (fun _ _ => rfl)
    (G := fun _ => iprop(emp)) (u₀ := initOf (cells cfgs cellOf_inj) (launchToks cfgs cellOf_inj))
    (hu₀ := by
      iintro Hu; imodintro
      isplitl [Hu]; · iapply (show (ownU _ : sProp 𝕄) ⊢ BI.own (emb₁ (initOf (cells cfgs cellOf_inj) (launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => unscopedRestP Prefetch.none spec0 c (V m c))
    (Z' := Zx m)
    (hX := fun c => by
      iintro ⟨HU, -, -, -, Hp, -⟩; imodintro
      isplitl [Hp]; · iexists _; iexact Hp
      iexact HU)
    (hin := fun c => (show _ ⊢ ΦA spec0 c by
      unfold ΦA; iintro ⟨Hp, -, Hr⟩
      isplitl [Hr] <;> iassumption).trans (hin m c))
    (hout := fun c => (hout m c).trans (by
      rw [ownSems0_none]; unfold ΦA
      iintro ⟨Hr, Hp⟩
      isplitl [Hp]; · iexact Hp
      isplitr; · iempintro
      iexact Hr))
    (htail := fun c Q' => by rw [unscopedRestP_none]; exact htail m c Q')
    (QY := fun c s => ∀ b ∈ ({main_arg0, main_arg1, main_v8} : Finset (Ref sig .tc)), s.mem ((c.tc : Thread nD τ).loc b) = Vz m c b)
    (hY := fun c s' => by
      iintro ⟨-, HU, HSI⟩
      unfold Zx
      imodintro
      iapply (pointsTo_read_all ({main_arg0, main_arg1, main_v8} : Finset (Ref sig .tc)) (fun b => (c.tc : Thread nD τ).loc b) (Vz m c) s')
      isplitl [HU] <;> iassumption)
    (hQ := fun s h c => ⟨(h c).2.2 main_v8 (by decide),
      ((h c).2.2 main_arg0 (by decide)).trans ((Vz_of_ne m c main_arg0 (by decide) (by decide)).trans (V_main_arg0 m c)),
      ((h c).2.2 main_arg1 (by decide)).trans ((Vz_of_ne m c main_arg1 (by decide) (by decide)).trans (V_main_arg1 m c))⟩)

/-- The frame: the run with the result dropped. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Hand

end
-- ==== Proof.KI.Runs.lean ====
/-
  The frame of the idealized kernel, part 1: what the three case runs and the launch share.

  The computation runs over a grid of 64 points. Windows 0, 1 and 2 all stage the ONE array of normalised rows (8192 × 128): window 0
  the whole array (fetched once), window 1 the point's own tile of 128 rows, window 2 the partner tile (tile t ± 32). Window 3 is the
  1 × 1 result, stored only at the last point. A 1 × 1 scratch carries the running sum from point to point: zeroed at the first
  point, added to at every point, negated, scaled and stored to the result at the last.

  Here: the buffer contents when the region is entered (after the host lines that concatenate, normalise and convert the rows);
  @main reduced to "the region, then the reshape"; each window's block at a point; each input's staging buffer holding that
  block at every point; the two branch conditions in closed form over the grid; where the result window is idle.
-/
import proofs.«119228_j90692529422675_1_alg».proof.Proof.Gen.KernelIdeal.Launch
import proofs.«119228_j90692529422675_1_alg».proof.Proof.Gen.KernelIdeal.Skeleton
import proofs.«119228_j90692529422675_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents after the host lines before it. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; rfl
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; rfl

/-- @main is the host lines, the region, the reshape: it reduces to the region continued by the reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    (by simp only [List.Forall]; exact ⟨hostOps0_sub, hostOps0_1_sub, hostOps0_2_sub⟩)
    (by simp only [List.Forall]; exact ⟨hostOps0_fresh, hostOps0_1_fresh, hostOps0_2_fresh⟩) main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The whole-array window's staging buffer holds the array at every point: fetched at the first, its index never moves. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The tile window's staging buffer holds the point's tile. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- The partner window's staging buffer holds the partner tile. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- "This is the first point" as the body computes it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 64 = 0 :=
  (by decide +kernel : ∀ t : Fin grid0.N, cond0_0 (grid0.coords t) ↔ t.val % 64 = 0)
/-- "This is the last point" as the body computes it. -/
abbrev cond0_1 (i : grid0.Coords) : Prop := k0_cond2 i = 1#1
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Off the last point the result window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point it is live. -/
theorem liveAt0_3 : ∀ t : Fin cfg0.N, cond0_1 (grid0.coords t) → cfg0.idle 3 (grid0.coords t) = false := by decide +kernel

/-! ## The staging memrefs and the scratch -/

abbrev VO0_3 : View sig .tc .vmem S1x1 .f32 := (Memref.whole cc0_stg3_0 : Memref sig .tc .vmem S1x1 .f32).view
abbrev ms0_0 (t : Fin cfg0.N) : Memref sig .tc .vmem S8192x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The scratch that carries the running sum. -/
abbrev scM0_0 : Memref sig .tc .vmem S1x1 .f32 := Memref.whole cc0_scratch0
abbrev VS0_0 : View sig .tc .vmem S1x1 .f32 := scM0_0.view

/-- What the launch hands the region beside the windows: the scratch at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The frame of the idealized kernel: the body at the FIRST point (the running sum is zeroed, then added to; nothing is stored to the result).
-/
import proofs.«119228_j90692529422675_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the first point, on whole staging memrefs: the three inputs at their contents and handed back as they were, the
    result's buffer handed back untouched, the scratch found at anything and left with the pieces the run finds. -/
noncomputable def kernelRun0_A (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x1 : Vec F S8192x128 .bf16) (x2 : Vec F S128x128 .bf16) (x3 : Vec F S128x128 .bf16) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare xi3 ∗ (∃ d, owns (c : Thread nD τ) arg5 fullShare d)
            ∗ (iprop(owns (c : Thread nD τ) arg1 fullShare x1 ∗ owns (c : Thread nD τ) arg2 fullShare x2 ∗ owns (c : Thread nD τ) arg3 fullShare x3 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__contrastive_kernel i arg1 harg1 arg2 harg2 arg3 harg3 arg4 harg4 arg5 harg5) K } := by
  refine ⟨[], ?_, fun xi3 E K => ?run⟩
  case run =>
    simp only [cc0__contrastive_kernel_eq_skeleton]; unfold cc0__contrastive_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%ds0, %fs0, -, HS0⟩, Hk⟩
    obtain rfl := harg1.eq_unread hf1; obtain rfl := harg2.eq_unread hf2; obtain rfl := harg3.eq_unread hf3; obtain rfl := harg4.eq_unread hf4
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact HS0

end Cert.KernelIdeal.Hand

end
-- ==== Proof.KI.RunB.lean ====
/-
  The frame of the idealized kernel: the body at a MIDDLE point (the running sum is added to; nothing is stored to the result).
-/
import proofs.«119228_j90692529422675_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a middle point: as at the first, but the scratch is found at what the point before left (`xs0`). -/
noncomputable def kernelRun0_B (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x1 : Vec F S8192x128 .bf16) (x2 : Vec F S128x128 .bf16) (x3 : Vec F S128x128 .bf16) (xs0 : Vec F S1x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare xi3 ∗ owns (c : Thread nD τ) arg5 fullShare xs0
            ∗ (iprop(owns (c : Thread nD τ) arg1 fullShare x1 ∗ owns (c : Thread nD τ) arg2 fullShare x2 ∗ owns (c : Thread nD τ) arg3 fullShare x3 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__contrastive_kernel i arg1 harg1 arg2 harg2 arg3 harg3 arg4 harg4 arg5 harg5) K } := by
  refine ⟨[], ?_, fun xi3 E K => ?run⟩
  case run =>
    simp only [cc0__contrastive_kernel_eq_skeleton]; unfold cc0__contrastive_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%fs0, %hfs0, HS0⟩, Hk⟩
    obtain rfl := harg1.eq_unread hf1; obtain rfl := harg2.eq_unread hf2; obtain rfl := harg3.eq_unread hf3; obtain rfl := harg4.eq_unread hf4; obtain rfl := harg5.eq_unread hfs0
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    iexists _; iexact HS0

end Cert.KernelIdeal.Hand

end
-- ==== Proof.KI.RunC.lean ====
/-
  The frame of the idealized kernel: the body at the LAST point (the running sum is added to, then negated, scaled and stored to the result).
-/
import proofs.«119228_j90692529422675_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at the last point: the scratch found at what the point before left, the result's buffer found at anything and left
    with the pieces the run finds. -/
noncomputable def kernelRun0_C (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x1 : Vec F S8192x128 .bf16) (x2 : Vec F S128x128 .bf16) (x3 : Vec F S128x128 .bf16) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ (∃ d, owns (c : Thread nD τ) arg4 fullShare d) ∗ owns (c : Thread nD τ) arg5 fullShare xs0
            ∗ (iprop(owns (c : Thread nD τ) arg1 fullShare x1 ∗ owns (c : Thread nD τ) arg2 fullShare x2 ∗ owns (c : Thread nD τ) arg3 fullShare x3 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0__contrastive_kernel i arg1 harg1 arg2 harg2 arg3 harg3 arg4 harg4 arg5 harg5) K } := by
  refine ⟨?_, ?_, fun E K => ?run⟩
  case run =>
    simp only [cc0__contrastive_kernel_eq_skeleton]; unfold cc0__contrastive_kernel_skel
    simp only [k0_part1_eq_skeleton]; unfold k0_part1_skel
    unfold owns
    iintro ⟨⟨%f1, %hf1, H1⟩, ⟨%f2, %hf2, H2⟩, ⟨%f3, %hf3, H3⟩, ⟨%d4, %f4, -, H4⟩, ⟨%fs0, %hfs0, HS0⟩, Hk⟩
    obtain rfl := harg1.eq_unread hf1; obtain rfl := harg2.eq_unread hf2; obtain rfl := harg3.eq_unread hf3; obtain rfl := harg5.eq_unread hfs0
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    iexists _; iexact HS0

end Cert.KernelIdeal.Hand

end
-- ==== Proof.KI.Body.lean ====
/-
  The frame of the idealized kernel: what each point leaves, the proof data, and the body obligation at every point.
-/
import proofs.«119228_j90692529422675_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each case leaves -/

/-- At the first point nothing is stored to the result: a placeholder nothing consults. -/
def out0_A_3 (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x1 : Vec F S8192x128 .bf16) (x2 : Vec F S128x128 .bf16) (x3 : Vec F S128x128 .bf16) : Vec F S1x1 .f32 :=
  VO0_3.read (Elt F) (VO0_3.writes (Elt F) VO0_3.junk (kernelRun0_A c i arg1 harg1 arg2 harg2 arg3 harg3 arg4 harg4 arg5 harg5 hc0 hc1 x1 x2 x3).1)
/-- The first point's stores cover the scratch. -/
theorem scover0_A_0 (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x1 : Vec F S8192x128 .bf16) (x2 : Vec F S128x128 .bf16) (x3 : Vec F S128x128 .bf16) (y : S1x1.Idx) :
    ∃ pc ∈ (kernelRun0_A c i arg1 harg1 arg2 harg2 arg3 harg3 arg4 harg4 arg5 harg5 hc0 hc1 x1 x2 x3).2.1, y ∈ pc.1.set :=
  View.cover_of_tiledL (kernelRun0_A c i arg1 harg1 arg2 harg2 arg3 harg3 arg4 harg4 arg5 harg5 hc0 hc1 x1 x2 x3).2.1 S1x1.size (by sl_kernel_rfl) y
/-- What the first point leaves in the scratch: the first partial sum. -/
def sout0_A_0 (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x1 : Vec F S8192x128 .bf16) (x2 : Vec F S128x128 .bf16) (x3 : Vec F S128x128 .bf16) : Vec F S1x1 .f32 :=
  VS0_0.read (Elt F) (VS0_0.writes (Elt F) VS0_0.junk (kernelRun0_A c i arg1 harg1 arg2 harg2 arg3 harg3 arg4 harg4 arg5 harg5 hc0 hc1 x1 x2 x3).2.1)

/-- At a middle point nothing is stored to the result either. -/
def out0_B_3 (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x1 : Vec F S8192x128 .bf16) (x2 : Vec F S128x128 .bf16) (x3 : Vec F S128x128 .bf16) (xs0 : Vec F S1x1 .f32) : Vec F S1x1 .f32 :=
  VO0_3.read (Elt F) (VO0_3.writes (Elt F) VO0_3.junk (kernelRun0_B c i arg1 harg1 arg2 harg2 arg3 harg3 arg4 harg4 arg5 harg5 hc0 hc1 x1 x2 x3 xs0).1)
theorem scover0_B_0 (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x1 : Vec F S8192x128 .bf16) (x2 : Vec F S128x128 .bf16) (x3 : Vec F S128x128 .bf16) (xs0 : Vec F S1x1 .f32) (y : S1x1.Idx) :
    ∃ pc ∈ (kernelRun0_B c i arg1 harg1 arg2 harg2 arg3 harg3 arg4 harg4 arg5 harg5 hc0 hc1 x1 x2 x3 xs0).2.1, y ∈ pc.1.set :=
  View.cover_of_tiledL (kernelRun0_B c i arg1 harg1 arg2 harg2 arg3 harg3 arg4 harg4 arg5 harg5 hc0 hc1 x1 x2 x3 xs0).2.1 S1x1.size (by sl_kernel_rfl) y
/-- What a middle point leaves in the scratch: the running sum so far plus this point's partial sum. -/
def sout0_B_0 (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x1 : Vec F S8192x128 .bf16) (x2 : Vec F S128x128 .bf16) (x3 : Vec F S128x128 .bf16) (xs0 : Vec F S1x1 .f32) : Vec F S1x1 .f32 :=
  VS0_0.read (Elt F) (VS0_0.writes (Elt F) VS0_0.junk (kernelRun0_B c i arg1 harg1 arg2 harg2 arg3 harg3 arg4 harg4 arg5 harg5 hc0 hc1 x1 x2 x3 xs0).2.1)

/-- The last point's store covers the result's block. -/
theorem cover0_C_3 (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x1 : Vec F S8192x128 .bf16) (x2 : Vec F S128x128 .bf16) (x3 : Vec F S128x128 .bf16) (xs0 : Vec F S1x1 .f32) (y : S1x1.Idx) :
    ∃ pc ∈ (kernelRun0_C c i arg1 harg1 arg2 harg2 arg3 harg3 arg4 harg4 arg5 harg5 hc0 hc1 x1 x2 x3 xs0).1, y ∈ pc.1.set :=
  View.cover_of_tiledL (kernelRun0_C c i arg1 harg1 arg2 harg2 arg3 harg3 arg4 harg4 arg5 harg5 hc0 hc1 x1 x2 x3 xs0).1 S1x1.size (by sl_kernel_rfl) y
/-- What the last point leaves in the result's buffer: the negated, scaled total. -/
def out0_C_3 (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x1 : Vec F S8192x128 .bf16) (x2 : Vec F S128x128 .bf16) (x3 : Vec F S128x128 .bf16) (xs0 : Vec F S1x1 .f32) : Vec F S1x1 .f32 :=
  VO0_3.read (Elt F) (VO0_3.writes (Elt F) VO0_3.junk (kernelRun0_C c i arg1 harg1 arg2 harg2 arg3 harg3 arg4 harg4 arg5 harg5 hc0 hc1 x1 x2 x3 xs0).1)
theorem scover0_C_0 (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x1 : Vec F S8192x128 .bf16) (x2 : Vec F S128x128 .bf16) (x3 : Vec F S128x128 .bf16) (xs0 : Vec F S1x1 .f32) (y : S1x1.Idx) :
    ∃ pc ∈ (kernelRun0_C c i arg1 harg1 arg2 harg2 arg3 harg3 arg4 harg4 arg5 harg5 hc0 hc1 x1 x2 x3 xs0).2.1, y ∈ pc.1.set :=
  View.cover_of_tiledL (kernelRun0_C c i arg1 harg1 arg2 harg2 arg3 harg3 arg4 harg4 arg5 harg5 hc0 hc1 x1 x2 x3 xs0).2.1 S1x1.size (by sl_kernel_rfl) y
def sout0_C_0 (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x1 : Vec F S8192x128 .bf16) (x2 : Vec F S128x128 .bf16) (x3 : Vec F S128x128 .bf16) (xs0 : Vec F S1x1 .f32) : Vec F S1x1 .f32 :=
  VS0_0.read (Elt F) (VS0_0.writes (Elt F) VS0_0.junk (kernelRun0_C c i arg1 harg1 arg2 harg2 arg3 harg3 arg4 harg4 arg5 harg5 hc0 hc1 x1 x2 x3 xs0).2.1)

/-! ## The accumulation -/

theorem not_first {n : ℕ} (hn : n + 1 < cfg0.N) : ¬cond0_0 (grid0.coords ⟨n + 1, hn⟩) := fun h => by
  have h' := (hcond0_0 ⟨n + 1, hn⟩).mp h
  have hN : n + 1 < 64 := lt_of_lt_of_eq hn (show cfg0.N = 64 from N_0)
  (try dsimp only at h'); omega
theorem not_last_zero (hn : 0 < cfg0.N) : ¬cond0_1 (grid0.coords ⟨0, hn⟩) := fun h => by
  have h' := (hcond0_1 ⟨0, hn⟩).mp h
  (try dsimp only at h'); omega

/-- What the result's staging buffer and the scratch hold after the body at position `n`: the case of the point, run at the point's
    memrefs and blocks, the scratch found at what position `n - 1` left. -/
def outsAt0 (c : Dev nD) : (n : ℕ) → n < cfg0.N → Vec F S1x1 .f32 × Vec F S1x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (not_last_zero hn) (iblk m c 0 ⟨0, hn⟩) (iblk m c 1 ⟨0, hn⟩) (iblk m c 2 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (not_last_zero hn) (iblk m c 0 ⟨0, hn⟩) (iblk m c 1 ⟨0, hn⟩) (iblk m c 2 ⟨0, hn⟩))
  | n + 1, hn =>
    if h1 : (n + 1) % 64 = 63 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first hn) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first hn) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first hn) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first hn) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

theorem outsAt0_A (c : Dev nD) (t : Fin cfg0.N) (hz : t.val = 0) (hc0 : cond0_0 (grid0.coords t)) (hc1 : ¬cond0_1 (grid0.coords t)) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t)) := by
  obtain ⟨n, hn⟩ := t
  cases n with
  | zero => exact rfl
  | succ n => exact absurd hz (Nat.succ_ne_zero n)

theorem outsAt0_B (c : Dev nD) (t : Fin cfg0.N) (hz : t.val ≠ 0) (h1 : ¬t.val % 64 = 63) (hc0 : ¬cond0_0 (grid0.coords t)) (hc1 : ¬cond0_1 (grid0.coords t)) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd rfl hz
  | succ n => exact (dif_neg h1).trans rfl

theorem outsAt0_C (c : Dev nD) (t : Fin cfg0.N) (hz : t.val ≠ 0) (h1 : t.val % 64 = 63) (hc0 : ¬cond0_0 (grid0.coords t)) (hc1 : cond0_1 (grid0.coords t)) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd rfl hz
  | succ n => exact (dif_pos h1).trans rfl

/-- The region invariant before position `n`: before the first point the scratch at anything; afterwards the scratch at what the
    point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The proof data on core `c`: the arrays as the region finds them; after the body each input's buffer at its block and the
    result's at `outsAt0`; the invariant `PhiS`; nothing owed. The three input windows read ONE array, so each holds a share of it:
    the left half, and the two halves of the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]

set_option maxHeartbeats 4800000 in
/-- The body at any point: the inputs' buffers hold their blocks; the closed forms say which case the point is in; the invariant
    hands the body the scratch at what the point before left (at anything at the first point) and takes it back at this point's
    contents; the result's buffer is handed back untouched off the last point and at the stored value at it; nothing is owed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2]
  have hN : t.val < 64 := lt_of_lt_of_eq t.isLt (show cfg0.N = 64 from N_0)
  by_cases hz : t.val = 0
  · have hc0 : cond0_0 (grid0.coords t) := (hcond0_0 t).mpr (by rw [hz])
    have hc1 : ¬cond0_1 (grid0.coords t) := fun h => by have := (hcond0_1 t).mp h; omega
    rw [Dat.leavesExact_idle (dats m 0 c) 3 t (idleAt0_3 t hc1) (noFlush0_3 t hc1)]
    rw [outsAt0_A m c t hz hc0 hc1]
    unfold sout0_A_0; (try dsimp only)
    rw [PhiS_castSucc m c t, PhiS_zero m c _ _ hz, PhiA0_eq]
    iintro ⟨⟨HS0, Hg⟩, Ho, ⟨%d0, H0⟩, ⟨%d1, H1⟩, ⟨%d2, H2⟩, ⟨%d3, H3⟩⟩
    iapply ((kernelRun0_A c (grid0.coords t) _ _ _ _ _ _ _ _ _ _ hc0 hc1 (iblk m c 0 t) (iblk m c 1 t) (iblk m c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hc0 : ¬cond0_0 (grid0.coords t) := fun h => by have := (hcond0_0 t).mp h; omega
    by_cases h1 : t.val % 64 = 63
    · have hc1 : cond0_1 (grid0.coords t) := (hcond0_1 t).mpr h1
      rw [show (dats m 0 c).leavesExact 3 t = owns (c : Thread nD τ) (ms0_3 t) fullShare ((dats m 0 c).after 3 t) from by
        unfold Dat.leavesExact; rw [liveAt0_3 t hc1], after0_3]
      rw [outsAt0_C m c t hz h1 hc0 hc1]
      unfold out0_C_3 sout0_C_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ hc0 hc1 (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · have hc1 : ¬cond0_1 (grid0.coords t) := fun h => h1 ((hcond0_1 t).mp h)
      rw [Dat.leavesExact_idle (dats m 0 c) 3 t (idleAt0_3 t hc1) (noFlush0_3 t hc1)]
      rw [outsAt0_B m c t hz h1 hc0 hc1]
      unfold sout0_B_0; (try dsimp only)
      rw [PhiS_castSucc m c t, PhiS_pos m c _ _ hz]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ hc0 hc1 (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

end Cert.KernelIdeal.Hand

end
-- ==== Proof.KI.Frame.lean ====
/-
  The frame of the idealized kernel: the launch — the one array split among its three windows, the reshape after the region, and the run.
-/
import proofs.«119228_j90692529422675_1_alg».proof.Proof.KI.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.ShloMosaic.Pipeline

/-! ## The arrays at the windows' shares -/

/-- The windows' arrays as points-tos of the buffers behind them, each at its window's share. -/
theorem arrays_eq' (c : Dev nD) (Fa : (w : Fin cfg0.W) → Buf (Elt F) ((cfg0.win w).arr.view.loc (c.tc : Thread nD τ))) :
    ((dats m 0 c).arrays Fa : sProp 𝕄)
      = bigSep Finset.univ fun w : Fin cfg0.W => (((c.tc : Thread nD τ).loc (arrRef spec0 w)) ↦{(dats m 0 c).share w} Fa w : sProp 𝕄) := by
  unfold Dat.arrays
  exact bigSep_congr fun w _ => by rw [(arr_whole0 w).set_eq_univ]

theorem share0 (c : Dev nD) : (dats m 0 c).share 0 = fullShare.left := rfl
theorem share1 (c : Dev nD) : (dats m 0 c).share 1 = fullShare.right.left := rfl
theorem share2 (c : Dev nD) : (dats m 0 c).share 2 = fullShare.right.right := rfl
theorem share3 (c : Dev nD) : (dats m 0 c).share 3 = fullShare := rfl

/-- The same, the four windows written out: the array of rows at the left half, the left and the right quarter of the right half;
    the result's array whole. -/
theorem arrays_four (c : Dev nD) (Fa : (w : Fin cfg0.W) → Buf (Elt F) ((cfg0.win w).arr.view.loc (c.tc : Thread nD τ))) :
    ((dats m 0 c).arrays Fa : sProp 𝕄)
      = iprop((((c.tc : Thread nD τ).loc main_v6) ↦{fullShare.left} Fa 0) ∗ (((c.tc : Thread nD τ).loc main_v6) ↦{fullShare.right.left} Fa 1)
          ∗ (((c.tc : Thread nD τ).loc main_v6) ↦{fullShare.right.right} Fa 2) ∗ (((c.tc : Thread nD τ).loc main_v7) ↦{fullShare} Fa 3)) := by
  rw [arrays_eq', bigSep_W0, share0, share1, share2, share3]

/-- Entering the region: the array of rows, held whole, is split among the three windows that read it. -/
theorem arrBufs_eq (c : Dev nD) :
    (arrBufs spec0 c (V m c) : sProp 𝕄)
      = iprop((((c.tc : Thread nD τ).loc main_v6) ↦{fullShare} V m c main_v6) ∗ (((c.tc : Thread nD τ).loc main_v7) ↦{fullShare} V m c main_v7)) := by
  unfold arrBufs
  rw [show Finset.univ.image (arrRef spec0) = ({main_v6, main_v7} : Finset (Ref sig .tc)) from by decide,
    bigSep_insert (by decide), bigSep_singleton]
  rfl

theorem hsplit (c : Dev nD) : (arrBufs spec0 c (V m c) : sProp 𝕄) ⊢ (dats m 0 c).arrays ((dats m 0 c).arrAt · 0) := by
  rw [arrays_four, arrBufs_eq]
  iintro ⟨H6, H7⟩
  ihave H6 := (pointsTo_share (PosShare.mem_left_op_right fullShare)).1 $$ H6
  icases H6 with ⟨H6l, H6r⟩
  ihave H6r := (pointsTo_share (PosShare.mem_left_op_right fullShare.right)).1 $$ H6r
  icases H6r with ⟨H6rl, H6rr⟩
  isplitl [H6l]; · iexact H6l
  isplitl [H6rl]; · iexact H6rl
  isplitl [H6rr]; · iexact H6rr
  iexact H7

/-! ## The reshape after the region -/

/-- The result's array after the last write-back. -/
abbrev outN (c : Dev nD) : Buf (Elt F) ((c.tc : Thread nD τ).loc main_v7) := (dats m 0 c).arrAt 3 cfg0.N
/-- The buffer contents when the region is left: as entered, the result's array at what was written back. -/
def Wx (c : Dev nD) : Valuation τ sig (Elt F) := Function.update (V0 m c) (Proc.devRef .tc main_v7) (outN m c)
/-- The buffer contents at the end: after the reshape. -/
def Vz (c : Dev nD) (b : Ref sig .tc) : Buf (Elt F) ((c.tc : Thread nD τ).loc b) :=
  StableHlo.after (List.flatten [hostOps1]) (Wx m c) (Proc.devRef .tc b)

/-- The reshape: its one operation. -/
abbrev opR : HloOp τ sig (Elt F) := StableHlo.reshape main_v7 main_v8 rfl shapeCasts_S1x1_S_

theorem opR_bufs : (opR (F := F)).bufs = ({Proc.devRef .tc main_v7, Proc.devRef .tc main_v8} : Finset (DevRef τ sig)) := rfl

theorem Vz_of_ne (c : Dev nD) (b : Ref sig .tc) (h8 : b ≠ main_v8) (h7 : b ≠ main_v7) : Vz m c b = V m c b := by
  unfold Vz
  rw [StableHlo.after_of_forall_not_mem _ _ fun op hop => by
    simp only [List.flatten_cons, List.flatten_nil, List.append_nil, hostOps1, List.mem_singleton] at hop
    subst hop
    rw [StableHlo.reshape_writes, Finset.mem_singleton]; exact StableHlo.devRef_ne_of_ne h8]
  unfold Wx
  rw [Function.update_of_ne (fun e => h7 (Proc.devRef_injective (τ := τ) _ e))]

theorem Vz_v7 (c : Dev nD) : Vz m c main_v7 = outN m c := by
  unfold Vz
  rw [StableHlo.after_of_forall_not_mem _ _ fun op hop => by
    simp only [List.flatten_cons, List.flatten_nil, List.append_nil, hostOps1, List.mem_singleton] at hop
    subst hop
    rw [StableHlo.reshape_writes, Finset.mem_singleton]; exact StableHlo.devRef_ne_of_ne (by decide)]
  unfold Wx
  rw [Function.update_self]

/-- What the run keeps at the end: the two argument arrays and the reshaped result. -/
def Zx (c : Dev nD) : sProp 𝕄 :=
  bigSep ({main_arg0, main_arg1, main_v8} : Finset (Ref sig .tc)) fun b => (((c.tc : Thread nD τ).loc b) ↦{fullShare} Vz m c b : sProp 𝕄)

theorem Zx_eq (c : Dev nD) :
    Zx m c = iprop((((c.tc : Thread nD τ).loc main_arg0) ↦{fullShare} Vz m c main_arg0) ∗ (((c.tc : Thread nD τ).loc main_arg1) ↦{fullShare} Vz m c main_arg1)
      ∗ (((c.tc : Thread nD τ).loc main_v8) ↦{fullShare} Vz m c main_v8)) := by
  unfold Zx
  rw [bigSep_insert (by decide), bigSep_insert (by decide), bigSep_singleton]
  rfl

set_option backward.isDefEq.respectTransparency.types false in
/-- After the region the reshape runs on the result's array and its own buffer alone; the shares of the array of rows and
    every other buffer ride along. -/
theorem htail (c : Dev nD) (Q' : PUnit → sProp 𝕄) :
    iprop((iprop((dats m 0 c).arrays ((dats m 0 c).arrAt · cfg0.N) ∗ Zx m c) -∗ Q' ⟨⟩)
        ∗ boundary (c.tc : Thread nD τ) ∗ (dats m 0 c).arrays ((dats m 0 c).arrAt · cfg0.N)
        ∗ unscopedRest spec0 c (V m c))
      ⊢ wp frame (wpE (Pipeline.defs (fun q => (cfgs q).toPCfg (Val := Elt F)) (defs₀ (F := F))) (Variants.lift Variants.none) (c.tc : Thread nD τ) none) Set.univ
          (chain (([hostOps1] : List (List (HloOp τ sig (Elt F)))).map StableHlo.seq)) Q' := by
  rw [arrays_four, unscopedRest0_eq, Zx_eq]
  have hS : (StableHlo.held (c.tc : Thread nD τ) (opR (F := F)).bufs (Wx m c) : sProp 𝕄)
      = iprop((((c.tc : Thread nD τ).loc main_v7) ↦{fullShare} outN m c) ∗ (((c.tc : Thread nD τ).loc main_v8) ↦{fullShare} V m c main_v8)) := by
    unfold StableHlo.held
    rw [opR_bufs, bigSep_insert (by decide), bigSep_singleton]
    unfold Wx
    rw [Function.update_self, Function.update_of_ne (by decide)]
    rfl
  have hS' : (StableHlo.held (c.tc : Thread nD τ) (opR (F := F)).bufs (StableHlo.after (List.flatten [hostOps1]) (Wx m c)) : sProp 𝕄)
      = iprop((((c.tc : Thread nD τ).loc main_v7) ↦{fullShare} Vz m c main_v7) ∗ (((c.tc : Thread nD τ).loc main_v8) ↦{fullShare} Vz m c main_v8)) := by
    unfold StableHlo.held
    rw [opR_bufs, bigSep_insert (by decide), bigSep_singleton]
    rfl
  rw [← List.append_nil (([hostOps1] : List (List (HloOp τ sig (Elt F)))).map StableHlo.seq)]
  iintro ⟨Hk, Hb, ⟨Ha0, Ha1, Ha2, Ha3⟩, ⟨Hr0, Hr1, -, -, -, -, -, -, -, -, -, -, -, Hr8⟩⟩
  iapply (wp_seqs_then (fun q => (cfgs q).toPCfg (Val := Elt F)) (defs₀ (F := F)) Variants.none c (opR (F := F)).bufs [] [hostOps1]
    (fun ops hops op hop => by
      simp only [List.mem_singleton] at hops; subst hops
      simp only [hostOps1, List.mem_singleton] at hop; subst hop
      exact Finset.Subset.refl _)
    (fun ops hops op hop => by
      simp only [List.mem_singleton] at hops; subst hops
      exact (List.forall_iff_forall_mem.mp hostOps1_fresh) op hop)
    (Wx m c)) $$ [Hb Ha3 Hr8]
  · rw [hS]
    isplitl [Hb]; · iexact Hb
    isplitl [Ha3]; · iexact Ha3
    iexact Hr8
  iintro Hb
  rw [chain_nil, wp_pure, hS', Vz_v7]
  imodintro
  iapply Hk
  icases Hb with ⟨-, H7, H8⟩
  isplitl [Ha0 Ha1 Ha2 H7]
  · isplitl [Ha0]; · iexact Ha0
    isplitl [Ha1]; · iexact Ha1
    isplitl [Ha2]; · iexact Ha2
    iexact H7
  rw [Vz_of_ne m c main_arg0 (by decide) (by decide), Vz_of_ne m c main_arg1 (by decide) (by decide)]
  isplitl [Hr0]; · iexact Hr0
  isplitl [Hr1]; · iexact Hr1
  iexact H8

/-! ## The run -/

/-- The argument arrays are as launched when the region is entered: no host line writes them. -/
theorem V_main_arg0 (c : Dev nD) : V m c main_arg0 = m ((c.tc : Thread nD τ).loc main_arg0) := by
  dsimp only [V, V0]
  simp only [hostOps0, hostOps0_1, hostOps0_2, List.flatten_cons, List.flatten_nil, List.append_nil, List.cons_append, List.nil_append]
  after_results
theorem V_main_arg1 (c : Dev nD) : V m c main_arg1 = m ((c.tc : Thread nD τ).loc main_arg1) := by
  dsimp only [V, V0]
  simp only [hostOps0, hostOps0_1, hostOps0_2, List.flatten_cons, List.flatten_nil, List.append_nil, List.cons_append, List.nil_append]
  after_results

set_option backward.isDefEq.respectTransparency.types false in
/-- Every weakly fair execution of @main terminates, faults nowhere, and ends with the result buffer at the reshape of what the
    last point wrote back and the argument arrays as launched. -/
theorem run_main : θ_run (defs (F := F)) (onTc (τ := τ) (main (F := F))) ⟨m, fun _ => 0, ρ⟩ (fun r => ∀ c : Dev nD,
      r.2.mem ((c.tc : Thread nD τ).loc main_v8) = Vz m c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  θ_run_region_pf_tail (fun q => (cfgs q).toPCfg (Val := Elt F)) (fun q => (cfgs q).toPCfg_adm) (dats m) () cellOf_inj (0 : Fin 1)
    winFacts₀0 (OwnSemFacts.none _) (PreFacts.none _) emb₁ (defs₀ (F := F)) Variants.none m ρ main
    (fun _ => chain (([hostOps1] : List (List (HloOp τ sig (Elt F)))).map StableHlo.seq)) (fun c => (body_obligation m c).loose)
    block_pos0 arr_whole0 stage_whole0 (fun _ _ => rfl)
    (G := fun _ => iprop(emp)) (u₀ := initOf (cells cfgs cellOf_inj) (launchToks cfgs cellOf_inj))
    (hu₀ := by
      iintro Hu; imodintro
      isplitl [Hu]; · iapply (show (ownU _ : sProp 𝕄) ⊢ BI.own (emb₁ (initOf (cells cfgs cellOf_inj) (launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => unscopedRestP Prefetch.none spec0 c (V m c))
    (Z' := Zx m)
    (hX := fun c => by
      iintro ⟨HU, -, -, -, Hp, -⟩; imodintro
      isplitl [Hp]; · iexists _; iexact Hp
      iexact HU)
    (hin := fun c => (show _ ⊢ ΦA spec0 c by
      unfold ΦA; iintro ⟨Hp, -, Hr⟩
      isplitl [Hr] <;> iassumption).trans (hin m c))
    (hout := fun c => (hout m c).trans (by
      rw [ownSems0_none]; unfold ΦA
      iintro ⟨Hr, Hp⟩
      isplitl [Hp]; · iexact Hp
      isplitr; · iempintro
      iexact Hr))
    (htail := fun c Q' => by rw [unscopedRestP_none]; exact htail m c Q')
    (QY := fun c s => ∀ b ∈ ({main_arg0, main_arg1, main_v8} : Finset (Ref sig .tc)), s.mem ((c.tc : Thread nD τ).loc b) = Vz m c b)
    (hY := fun c s' => by
      iintro ⟨-, HU, HSI⟩
      unfold Zx
      imodintro
      iapply (pointsTo_read_all ({main_arg0, main_arg1, main_v8} : Finset (Ref sig .tc)) (fun b => (c.tc : Thread nD τ).loc b) (Vz m c) s')
      isplitl [HU] <;> iassumption)
    (hQ := fun s h c => ⟨(h c).2.2 main_v8 (by decide),
      ((h c).2.2 main_arg0 (by decide)).trans ((Vz_of_ne m c main_arg0 (by decide) (by decide)).trans (V_main_arg0 m c)),
      ((h c).2.2 main_arg1 (by decide)).trans ((Vz_of_ne m c main_arg1 (by decide) (by decide)).trans (V_main_arg1 m c))⟩)

/-- The frame: the run with the result dropped. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Hand

end
-- ==== Proof.KI.Pieces.lean ====
/-
  The frame of the idealized kernel: what the found pieces are — each point's stores in terms of the body's arithmetic — and the running sum.
-/
import proofs.«119228_j90692529422675_1_alg».proof.Proof.KI.Body
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := by funext a; fin_cases a <;> rfl

/-- The first point leaves in the scratch: zero plus the first tile's sum. -/
theorem sout0_A_eq (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i) (x1 : Vec F S8192x128 .bf16) (x2 : Vec F S128x128 .bf16) (x3 : Vec F S128x128 .bf16) :
    sout0_A_0 c i arg1 harg1 arg2 harg2 arg3 harg3 arg4 harg4 arg5 harg5 hc0 hc1 x1 x2 x3 = k0_pay1 (k0_pay4 x2 x1 x3) (k0_pay3 (F := F)) := by
  unfold sout0_A_0
  rw [View.read_writes_eq_canon _ _ _ (scover0_A_0 c i arg1 harg1 arg2 harg2 arg3 harg3 arg4 harg4 arg5 harg5 hc0 hc1 x1 x2 x3)]
  unfold kernelRun0_A; dsimp only; sl_unfold_words
  rw [View.canon_cons_unit_zero hz2]
  simp only [View.readAt_eq_ld, harg1.read_unread, harg2.read_unread, harg3.read_unread,
    View.ld_unit_zero (S := S128x128) hz2, View.ld_unit_zero (S := S8192x128) hz2]
  rw [View.readCov_unit_zero (S := S1x1) arg5.view hz2]

/-- A middle point leaves in the scratch: what it found plus the tile's sum. -/
theorem sout0_B_eq (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i) (x1 : Vec F S8192x128 .bf16) (x2 : Vec F S128x128 .bf16) (x3 : Vec F S128x128 .bf16) (xs0 : Vec F S1x1 .f32) :
    sout0_B_0 c i arg1 harg1 arg2 harg2 arg3 harg3 arg4 harg4 arg5 harg5 hc0 hc1 x1 x2 x3 xs0 = k0_pay1 (k0_pay4 x2 x1 x3) xs0 := by
  unfold sout0_B_0
  rw [View.read_writes_eq_canon _ _ _ (scover0_B_0 c i arg1 harg1 arg2 harg2 arg3 harg3 arg4 harg4 arg5 harg5 hc0 hc1 x1 x2 x3 xs0)]
  unfold kernelRun0_B; dsimp only; sl_unfold_words
  rw [View.canon_unit_zero hz2]
  simp only [View.readAt_eq_ld, harg1.read_unread, harg2.read_unread, harg3.read_unread, harg5.read_unread,
    View.ld_unit_zero (S := S128x128) hz2, View.ld_unit_zero (S := S8192x128) hz2, View.ld_unit_zero (S := S1x1) hz2]
  try rfl

/-- The last point leaves in the scratch the same, -/
theorem sout0_C_eq (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x1 : Vec F S8192x128 .bf16) (x2 : Vec F S128x128 .bf16) (x3 : Vec F S128x128 .bf16) (xs0 : Vec F S1x1 .f32) :
    sout0_C_0 c i arg1 harg1 arg2 harg2 arg3 harg3 arg4 harg4 arg5 harg5 hc0 hc1 x1 x2 x3 xs0 = k0_pay1 (k0_pay4 x2 x1 x3) xs0 := by
  unfold sout0_C_0
  rw [View.read_writes_eq_canon _ _ _ (scover0_C_0 c i arg1 harg1 arg2 harg2 arg3 harg3 arg4 harg4 arg5 harg5 hc0 hc1 x1 x2 x3 xs0)]
  unfold kernelRun0_C; dsimp only; sl_unfold_words
  rw [View.canon_unit_zero hz2]
  simp only [View.readAt_eq_ld, harg1.read_unread, harg2.read_unread, harg3.read_unread, harg5.read_unread,
    View.ld_unit_zero (S := S128x128) hz2, View.ld_unit_zero (S := S8192x128) hz2, View.ld_unit_zero (S := S1x1) hz2]
  try rfl

/-- and in the result's buffer the negated, scaled total. -/
theorem out0_C_eq (c : Dev nD) (i : grid0.Coords) (arg1 : Memref sig .tc .vmem S8192x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i) (x1 : Vec F S8192x128 .bf16) (x2 : Vec F S128x128 .bf16) (x3 : Vec F S128x128 .bf16) (xs0 : Vec F S1x1 .f32) :
    out0_C_3 c i arg1 harg1 arg2 harg2 arg3 harg3 arg4 harg4 arg5 harg5 hc0 hc1 x1 x2 x3 xs0 = k0_pay2 (k0_pay1 (k0_pay4 x2 x1 x3) xs0) := by
  unfold out0_C_3
  rw [View.read_writes_eq_canon _ _ _ (cover0_C_3 c i arg1 harg1 arg2 harg2 arg3 harg3 arg4 harg4 arg5 harg5 hc0 hc1 x1 x2 x3 xs0)]
  unfold kernelRun0_C; dsimp only; sl_unfold_words
  rw [View.canon_unit_zero hz2]
  simp only [View.readAt_eq_ld, harg1.read_unread, harg2.read_unread, harg3.read_unread, harg5.read_unread,
    View.ld_unit_zero (S := S128x128) hz2, View.ld_unit_zero (S := S8192x128) hz2, View.ld_unit_zero (S := S1x1) hz2]
  rw [View.readCov_unit_zero (S := S1x1) arg5.view hz2]

/-- The running sum after position `n`: zero, then one tile's sum added per point. -/
def accAt (c : Dev nD) : (n : ℕ) → n < cfg0.N → FVec F S1x1 .f32
  | 0, hn => k0_pay1 (k0_pay4 (iblk m c 1 ⟨0, hn⟩) (iblk m c 0 ⟨0, hn⟩) (iblk m c 2 ⟨0, hn⟩)) (k0_pay3 (F := F))
  | n + 1, hn => k0_pay1 (k0_pay4 (iblk m c 1 ⟨n + 1, hn⟩) (iblk m c 0 ⟨n + 1, hn⟩) (iblk m c 2 ⟨n + 1, hn⟩)) (accAt c n (Nat.lt_of_succ_lt hn))

/-- The scratch holds the running sum after every point. -/
theorem outsAt0_snd (c : Dev nD) : ∀ (n : ℕ) (hn : n < cfg0.N), (outsAt0 m c n hn).2 = accAt m c n hn
  | 0, hn => by
    unfold outsAt0 accAt
    dsimp only
    exact sout0_A_eq (F := F) c _ _ _ _ _ _ _ _ _ _ _ _ _ _ _ _
  | n + 1, hn => by
    unfold outsAt0 accAt
    by_cases h1 : (n + 1) % 64 = 63
    · rw [dif_pos h1]; dsimp only
      rw [sout0_C_eq (F := F), outsAt0_snd c n (Nat.lt_of_succ_lt hn)]
    · rw [dif_neg h1]; dsimp only
      rw [sout0_B_eq (F := F), outsAt0_snd c n (Nat.lt_of_succ_lt hn)]

/-- At the last point the result's buffer holds the negated, scaled total. -/
theorem outsAt0_fst_last (c : Dev nD) (n : ℕ) (hn : n + 1 < cfg0.N) (h1 : (n + 1) % 64 = 63) :
    (outsAt0 m c (n + 1) hn).1 = k0_pay2 (accAt m c (n + 1) hn) := by
  unfold outsAt0 accAt
  rw [dif_pos h1]; dsimp only
  rw [out0_C_eq (F := F), outsAt0_snd m c n (Nat.lt_of_succ_lt hn)]

end Cert.KernelIdeal.Hand

end
-- ==== Proof.KI.Final.lean ====
/-
  The frame of the idealized kernel: what the result buffer holds at the end, in terms of the body's arithmetic.
-/
import proofs.«119228_j90692529422675_1_alg».proof.Proof.KI.Frame
import proofs.«119228_j90692529422675_1_alg».proof.Proof.KI.Pieces
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.ShloMosaic.ValueIdx

theorem lastN : (63 : ℕ) < cfg0.N := by have : cfg0.N = 64 := N_0; omega

/-- A 1 × 1 block has one index. -/
instance subsingleton_S1x1 : Subsingleton S1x1.Idx := ⟨fun a b => funext fun d => by
  match d with
  | ⟨0, _⟩ => exact Subsingleton.elim (α := Fin 1) _ _
  | ⟨1, _⟩ => exact Subsingleton.elim (α := Fin 1) _ _⟩

theorem outsAt0_fst_of_last (c : Dev nD) (n : ℕ) (hn : n < cfg0.N) (h1 : n % 64 = 63) :
    (outsAt0 m c n hn).1 = k0_pay2 (accAt m c n hn) := by
  cases n with
  | zero => exact absurd h1 (by norm_num)
  | succ k => exact outsAt0_fst_last m c k hn h1

/-- What the result's array ends holding: the total over all 64 tiles, negated and scaled. -/
def Gout (c : Dev nD) : Buf (Elt F) ((c.tc : Thread nD τ).loc main_v7) := k0_pay2 (accAt m c 63 lastN)

/-- The only point that writes back is the last, and it writes back that. -/
theorem flushed3_eq (c : Dev nD) (t : Fin cfg0.N) (hf : (cfg0.win 3).flush t = true) :
    (dats m 0 c).flushed 3 t = ((cfg0.win 3).blk t).view.read (Elt F) (Gout m c) := by
  have ht : t.val % 64 = 63 := (flush0_3 t).mp hf
  have hN : t.val < 64 := lt_of_lt_of_eq t.isLt (show cfg0.N = 64 from N_0)
  have ht63 : t.val = 63 := by omega
  show (cfg0.win 3).cut (grid0.coords t) ((dats m 0 c).after 3 t) = _
  rw [after0_3, outsAt0_fst_of_last m c t.val t.isLt ht]
  obtain ⟨n, hn⟩ := t
  dsimp only at ht63; subst ht63
  funext j
  show k0_pay2 (accAt m c 63 _) _ = k0_pay2 (accAt m c 63 _) _
  exact congrArg _ (Subsingleton.elim (α := S1x1.Idx) _ _)

theorem idx3 : ∀ t : Fin cfg0.N, win0_3.index t (0 : Fin 2) = 0 ∧ win0_3.index t (1 : Fin 2) = 0 :=
  (by decide +kernel : ∀ t : Fin grid0.N, _)

/-- The one block is the whole 1 × 1 array. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  refine ⟨⟨63, lastN⟩, (flush0_3 _).mpr (by norm_num), ?_⟩
  show i ∈ ((View.whole main_v7).slice (win0_3.rect ⟨63, lastN⟩)).set
  rw [View.set_slice_whole, Rect.mem_set_unit]
  obtain ⟨e0, e1⟩ := idx3 ⟨63, lastN⟩
  intro a
  match a with
  | ⟨0, _⟩ =>
    show win0_3.index ⟨63, lastN⟩ (0 : Fin 2) * 1 ≤ (i 0).val ∧ (i 0).val < win0_3.index ⟨63, lastN⟩ (0 : Fin 2) * 1 + 1
    have h0 : (i 0).val < 1 := (i 0).isLt
    omega
  | ⟨1, _⟩ =>
    show win0_3.index ⟨63, lastN⟩ (1 : Fin 2) * 1 ≤ (i 1).val ∧ (i 1).val < win0_3.index ⟨63, lastN⟩ (1 : Fin 2) * 1 + 1
    have h1 : (i 1).val < 1 := (i 1).isLt
    omega

/-- The result's array after the run. -/
theorem outN_eq (c : Dev nD) : outN m c = Gout m c :=
  (dats m 0 c).arrAt_eq_of_cover 3 (Gout m c) (fun t hf => flushed3_eq m c t hf) (cover3 c)

/-- The result buffer after the reshape: the same number, as a scalar. -/
theorem Vz_v8 (c : Dev nD) (i : S_.Idx) : Vz m c main_v8 i = Gout m c (ix2 (0 : Fin 1) (0 : Fin 1)) := by
  unfold Vz
  simp only [List.flatten_cons, List.flatten_nil, List.append_nil, hostOps1, StableHlo.after_cons, StableHlo.after_nil]
  rw [StableHlo.reshape_result']
  unfold Wx
  rw [Function.update_self, outN_eq]
  exact shapeCast_apply (Gout m c) shapeCasts_S1x1_S_ i (ix2 (0 : Fin 1) (0 : Fin 1)) rfl

end Cert.KernelIdeal.Hand

end
-- ==== Proof.KI.Blocks.lean ====
/-
  The frame of the idealized kernel: each window's block as a slice of the one array of rows.
-/
import proofs.«119228_j90692529422675_1_alg».proof.Proof.KI.Final
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

open Idealize.ShloMosaic.ValueIdx

/-- The three index maps over the grid: the whole array; tile t; the partner tile t ± 32. -/
theorem idxw : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = (if t.val < 32 then t.val + 32 else t.val - 32) ∧ win0_2.index t (1 : Fin 2) = 0 :=
  (by decide +kernel : ∀ t : Fin grid0.N, _)

/-- The partner of tile t. -/
def ptile (t : ℕ) : ℕ := if t < 32 then t + 32 else t - 32

theorem row_lt (t : Fin cfg0.N) (r : Fin 128) : 128 * t.val + r.val < 8192 := by
  have hN : t.val < 64 := lt_of_lt_of_eq t.isLt (show cfg0.N = 64 from N_0)
  have := r.isLt; omega
theorem prow_lt (t : Fin cfg0.N) (r : Fin 128) : 128 * ptile t.val + r.val < 8192 := by
  have hN : t.val < 64 := lt_of_lt_of_eq t.isLt (show cfg0.N = 64 from N_0)
  have := r.isLt; unfold ptile; split <;> omega

/-- Window 0's block is the whole array. -/
theorem blk0 (c : Dev nD) (t : Fin cfg0.N) (j : Fin 8192) (k : Fin 128) :
    iblk m c 0 t (ix2 j k) = V m c main_v6 (ix2 j k) := by
  obtain ⟨e00, e01, -, -, -, -⟩ := idxw t
  show V m c main_v6 (((cfg0.win 0).blk t).view.emb (ix2 j k)) = _
  refine congrArg (V m c main_v6) (funext fun a => Fin.ext ?_)
  match a with
  | ⟨0, _⟩ => show win0_0.index t (0 : Fin 2) * 8192 + 1 * j.val = j.val; omega
  | ⟨1, _⟩ => show win0_0.index t (1 : Fin 2) * 128 + 1 * k.val = k.val; omega

/-- Window 1's block at point t is rows 128 t … 128 t + 127. -/
theorem blk1 (c : Dev nD) (t : Fin cfg0.N) (r : Fin 128) (k : Fin 128) :
    iblk m c 1 t (ix2 r k) = V m c main_v6 (ix2 (⟨128 * t.val + r.val, row_lt t r⟩ : Fin 8192) k) := by
  obtain ⟨-, -, e10, e11, -, -⟩ := idxw t
  show V m c main_v6 (((cfg0.win 1).blk t).view.emb (ix2 r k)) = _
  refine congrArg (V m c main_v6) (funext fun a => Fin.ext ?_)
  match a with
  | ⟨0, _⟩ => show win0_1.index t (0 : Fin 2) * 128 + 1 * r.val = 128 * t.val + r.val; omega
  | ⟨1, _⟩ => show win0_1.index t (1 : Fin 2) * 128 + 1 * k.val = k.val; omega

/-- Window 2's block at point t is the same rows of the partner tile. -/
theorem blk2 (c : Dev nD) (t : Fin cfg0.N) (r : Fin 128) (k : Fin 128) :
    iblk m c 2 t (ix2 r k) = V m c main_v6 (ix2 (⟨128 * ptile t.val + r.val, prow_lt t r⟩ : Fin 8192) k) := by
  obtain ⟨-, -, -, -, e20, e21⟩ := idxw t
  show V m c main_v6 (((cfg0.win 2).blk t).view.emb (ix2 r k)) = _
  refine congrArg (V m c main_v6) (funext fun a => Fin.ext ?_)
  match a with
  | ⟨0, _⟩ =>
    show win0_2.index t (0 : Fin 2) * 128 + 1 * r.val = 128 * ptile t.val + r.val
    unfold ptile; rw [e20]; split <;> omega
  | ⟨1, _⟩ => show win0_2.index t (1 : Fin 2) * 128 + 1 * k.val = k.val; omega

end Cert.KernelIdeal.Hand

end
-- ==== Proof.LibColumn.lean ====
/- A per-row statistic laid out as a column and spread back over the row.

   A kernel that reduces each row of an [a, b] block to one number (a maximum, a sum) keeps the result as a
   vector of length a, re-lays it as an [a, 1] column and broadcasts the column over the b positions of each
   row.  Read at (p, c) the column and its broadcast are the statistic of row p. -/
import Idealize.ShloMosaic.Lib.Pipeline.Value
import Idealize.ShloMosaic.Lib.ValueIdx

namespace Cert.LibColumn

open Idealize.ShloMosaic Idealize.ShloMosaic.ValueIdx

variable {α : Type}

/-- A vector of length a re-laid as an [a, 1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An [a, 1] column broadcast to [a, b] reads, at (p, c), the column at row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Both steps at once: the statistic of row p, at every position of the row. -/
theorem broadcastTo_shapeCast_column_apply {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Cert.LibColumn
-- ==== Proof.KI.Rows.lean ====
/-
  The body's arithmetic, read at an index at the exact ("Ideal") instance.

  For the tile's row r (of 128), against all 8192 rows: the scores s_j = (Σ_k tile(r,k) · all(j,k)) · c with c the reciprocal of the
  temperature; their maximum M; the log-sum-exp L = M + log Σ_j exp (s_j − M); the row's own score and its partner's; and the row's
  term  partner − (L + log1p (0 − exp (own − L))).  The accumulator's update adds the 128 terms of a tile to what it held; the last
  point's store is (0 − total) · 2^-13.
-/
import proofs.«119228_j90692529422675_1_alg».proof.Proof.Gen.KernelIdeal.Skeleton
import proofs.«119228_j90692529422675_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rows

open Cert.KernelIdeal Cert.KernelIdeal.Gen
open Idealize.ShloMosaic Idealize.ShloMosaic.ValueIdx

/-- The kernel's product: tile rows against all rows, both contracted on the feature axis. -/
abbrev dK : DotDims S128x128 S8192x128 S128x8192 := dot_S128x128_S8192x128_S128x8192_1_1_0_0_n_n

theorem lhsK_0 (i : S128x8192.Idx) (q : dK.contr.Idx) : (dK.lhsIdx i q 0).val = (i 0).val := by
  unfold DotDims.lhsIdx
  rw [dif_neg (show ¬(0 : Fin S128x128.rank) ∈ dK.lhsBatch by decide), dif_pos (show (0 : Fin S128x128.rank) ∈ dK.lhsNonContracting by decide)]
  rfl
theorem lhsK_1 (i : S128x8192.Idx) (q : dK.contr.Idx) : (dK.lhsIdx i q 1).val = (q ⟨0, by decide⟩).val :=
  dK.lhsIdx_val_of_single rfl i q
theorem rhsK_0 (i : S128x8192.Idx) (q : dK.contr.Idx) : (dK.rhsIdx i q 0).val = (i 1).val := by
  unfold DotDims.rhsIdx
  rw [dif_neg (show ¬(0 : Fin S8192x128.rank) ∈ dK.rhsBatch by decide), dif_pos (show (0 : Fin S8192x128.rank) ∈ dK.rhsNonContracting by decide)]
  rfl
theorem rhsK_1 (i : S128x8192.Idx) (q : dK.contr.Idx) : (dK.rhsIdx i q 1).val = (q ⟨0, by decide⟩).val :=
  dK.rhsIdx_val_of_single rfl i q

/-- The product at (r, j): the inner product of tile row r and row j. -/
theorem mm_apply (a : FVec Ideal S128x128 .bf16) (b : FVec Ideal S8192x128 .bf16) (r : Fin 128) (j : Fin 8192) :
    matmul dK none a b (constant S128x8192 .f32 0x00000000#32) (ix2 r j) = ∑ k : Fin 128, a (ix2 r k) * b (ix2 j k) := by
  simp only [matmul]
  rw [Ideal.matmul_constant_zero_apply, ← Equiv.sum_comp (contrEquiv1 dK 128 rfl rfl).symm]
  refine Finset.sum_congr rfl fun k _ => ?_
  have hk := contrEquiv1_symm_val dK 128 rfl rfl k
  have el : dK.lhsIdx (ix2 r j) ((contrEquiv1 dK 128 rfl rfl).symm k) = ix2 r k := funext fun a => Fin.ext (by
    match a with
    | ⟨0, _⟩ => exact lhsK_0 _ _
    | ⟨1, _⟩ => exact (lhsK_1 _ _).trans hk)
  have er : dK.rhsIdx (ix2 r j) ((contrEquiv1 dK 128 rfl rfl).symm k) = ix2 j k := funext fun a => Fin.ext (by
    match a with
    | ⟨0, _⟩ => exact rhsK_0 _ _
    | ⟨1, _⟩ => exact (rhsK_1 _ _).trans hk)
  rw [el, er]

/-- A row sum over the 128 features. -/
theorem rowsum128 (v : FVec Ideal S128x128 .f32) (hφ : FKind.Formats .f32) (hacc : (0x00000000#32 : BitVec 32) = 0x00000000#32) (r : Fin 128) :
    multiReduction .add [1] S128 v 0x00000000#32 reduces_S128x128_S128 hφ hacc (ix1 r) = ∑ k : Fin 128, v (ix2 r k) := by
  refine (Ideal.multiReduction_add_single v 0x00000000#32 reduces_S128x128_S128 hφ hacc (ix1 r)).trans ?_
  show (∑ k : Fin 128, v (reduces_S128x128_S128.lift (ix1 r) k)) = _
  refine Finset.sum_congr rfl fun k _ => congrArg v (funext fun a => Fin.ext ?_)
  match a with
  | ⟨0, _⟩ => rfl
  | ⟨1, _⟩ => rfl

/-- A row sum over the 8192 columns. -/
theorem rowsum8192 (v : FVec Ideal S128x8192 .f32) (hφ : FKind.Formats .f32) (hacc : (0x00000000#32 : BitVec 32) = 0x00000000#32) (r : Fin 128) :
    multiReduction .add [1] S128 v 0x00000000#32 reduces_S128x8192_S128 hφ hacc (ix1 r) = ∑ j : Fin 8192, v (ix2 r j) := by
  refine (Ideal.multiReduction_add_single v 0x00000000#32 reduces_S128x8192_S128 hφ hacc (ix1 r)).trans ?_
  show (∑ j : Fin 8192, v (reduces_S128x8192_S128.lift (ix1 r) j)) = _
  refine Finset.sum_congr rfl fun j _ => congrArg v (funext fun a => Fin.ext ?_)
  match a with
  | ⟨0, _⟩ => rfl
  | ⟨1, _⟩ => rfl

/-- A row maximum over the 8192 columns, started from the word for −∞. -/
theorem rowmax8192 (v : FVec Ideal S128x8192 .f32) (hφ : FKind.Formats .f32) (hacc : (0xFF800000#32 : BitVec 32) = 0xFF800000#32) (r : Fin 128) :
    multiReduction .maximumf [1] S128 v 0xFF800000#32 reduces_S128x8192_S128 hφ hacc (ix1 r)
      = (Finset.univ : Finset (Fin 8192)).fold max (Ideal.ofBits .f32 0xFF800000#32) (fun j => v (ix2 r j)) := by
  refine (Ideal.multiReduction_maximumf_single v 0xFF800000#32 reduces_S128x8192_S128 hφ hacc (ix1 r)).trans ?_
  show (Finset.univ : Finset (Fin 8192)).fold max (Ideal.ofBits .f32 0xFF800000#32) (fun j => v (reduces_S128x8192_S128.lift (ix1 r) j)) = _
  refine congrArg (fun f => (Finset.univ : Finset (Fin 8192)).fold max (Ideal.ofBits .f32 0xFF800000#32) f) (funext fun j => congrArg v (funext fun a => Fin.ext ?_))
  match a with
  | ⟨0, _⟩ => rfl
  | ⟨1, _⟩ => rfl

theorem exp_apply' {s : Shape} {φ : FTy} (a : FVec Ideal s φ) (i : s.Idx) : exp a i = Ideal.exp (a i) := rfl
theorem log_apply' {s : Shape} {φ : FTy} (a : FVec Ideal s φ) (i : s.Idx) : log a i = Ideal.log (a i) := rfl
theorem log1p_apply' {s : Shape} {φ : FTy} (a : FVec Ideal s φ) (i : s.Idx) : log1p a i = Ideal.log1p (a i) := rfl

/-- The reciprocal of the temperature as the kernel names it. -/
abbrev invT : EReal := Named.named (F := Ideal) κ "inv_temp" (φ := .f32) 0x41200000#32

/-- The tile's row r: its term of the loss, as the body computes it. -/
def rowK (x2 : FVec Ideal S128x128 .bf16) (x1 : FVec Ideal S8192x128 .bf16) (x3 : FVec Ideal S128x128 .bf16) (r : Fin 128) : EReal :=
  (∑ k : Fin 128, x2 (ix2 r k) * x3 (ix2 r k)) * invT
    - ((((Finset.univ : Finset (Fin 8192)).fold max (Ideal.ofBits .f32 0xFF800000#32) (fun j => (∑ k : Fin 128, x2 (ix2 r k) * x1 (ix2 j k)) * invT))
          + Ideal.log (∑ j : Fin 8192, Ideal.exp ((∑ k : Fin 128, x2 (ix2 r k) * x1 (ix2 j k)) * invT
              - (Finset.univ : Finset (Fin 8192)).fold max (Ideal.ofBits .f32 0xFF800000#32) (fun j => (∑ k : Fin 128, x2 (ix2 r k) * x1 (ix2 j k)) * invT))))
        + Ideal.log1p (Ideal.ofBits .f32 0x00000000#32
            - Ideal.exp ((∑ k : Fin 128, x2 (ix2 r k) * x2 (ix2 r k)) * invT
                - (((Finset.univ : Finset (Fin 8192)).fold max (Ideal.ofBits .f32 0xFF800000#32) (fun j => (∑ k : Fin 128, x2 (ix2 r k) * x1 (ix2 j k)) * invT))
                    + Ideal.log (∑ j : Fin 8192, Ideal.exp ((∑ k : Fin 128, x2 (ix2 r k) * x1 (ix2 j k)) * invT
                        - (Finset.univ : Finset (Fin 8192)).fold max (Ideal.ofBits .f32 0xFF800000#32) (fun j => (∑ k : Fin 128, x2 (ix2 r k) * x1 (ix2 j k)) * invT)))))))

/-! ## The body's value in stages

The body's value for a tile is built from five small pieces, each a function of whole vectors; read at a row they are the
formulas of the header. -/

/-- The scaled scores of the tile's rows against all rows. -/
def stScores (x2 : FVec Ideal S128x128 .bf16) (x1 : FVec Ideal S8192x128 .bf16) : FVec Ideal S128x8192 .f32 :=
  mulf (matmul dot_S128x128_S8192x128_S128x8192_1_1_0_0_n_n none x2 x1 (constant S128x8192 .f32 0x00000000#32))
    (broadcast S128x8192 (Named.named κ "inv_temp" 0x41200000#32))

/-- Their row maxima, as a column. -/
def stMax (Sc : FVec Ideal S128x8192 .f32) : FVec Ideal S128x1 .f32 :=
  shapeCast S128x1 (multiReduction .maximumf [1] S128 Sc 0xFF800000#32 reduces_S128x8192_S128 (.inl rfl) rfl) shapeCasts_S128_S128x1

/-- The log-sum-exp of every row, shifted by the column M1. -/
def stLse (Sc : FVec Ideal S128x8192 .f32) (M1 : FVec Ideal S128x1 .f32) : FVec Ideal S128x1 .f32 :=
  addf M1 (log (shapeCast S128x1
    (multiReduction .add [1] S128 (exp (subf Sc (broadcastTo S128x8192 M1 broadcasts_S128x1_S128x8192))) 0x00000000#32 reduces_S128x8192_S128 (.inl rfl) rfl)
    shapeCasts_S128_S128x1))

/-- The scaled inner products of corresponding rows of two tiles, as a column. -/
def stDot (a b : FVec Ideal S128x128 .bf16) : FVec Ideal S128x1 .f32 :=
  mulf (shapeCast S128x1
      (multiReduction .add [1] S128 (mulf (extf .f32 a bitsLt_bf16_f32) (extf .f32 b bitsLt_bf16_f32)) 0x00000000#32 reduces_S128x128_S128 (.inl rfl) rfl)
      shapeCasts_S128_S128x1)
    (broadcast S128x1 (Named.named κ "inv_temp" 0x41200000#32))

/-- The rows' terms: the partner's score minus the log-sum-exp with the own term removed. -/
def stOut (L self pos : FVec Ideal S128x1 .f32) : FVec Ideal S1x128x1 .f32 :=
  shapeCast S1x128x1
    (subf pos (addf L (log1p (subf (broadcast S128x1 (Scalar.ofBits .f32 0x00000000#32)) (exp (subf self L))))))
    shapeCasts_S128x1_S1x128x1

/-- The body's value is the composition of the pieces. -/
theorem pay4_split (x2 : FVec Ideal S128x128 .bf16) (x1 : FVec Ideal S8192x128 .bf16) (x3 : FVec Ideal S128x128 .bf16) :
    k0_pay4 (F := Ideal) x2 x1 x3
      = stOut (stLse (stScores x2 x1) (stMax (stScores x2 x1))) (stDot x2 x2) (stDot x2 x3) := by
  unfold k0_pay4 stOut stLse stMax stDot stScores
  simp only [shapeCast_self]

theorem stScores_apply (x2 : FVec Ideal S128x128 .bf16) (x1 : FVec Ideal S8192x128 .bf16) (r : Fin 128) (j : Fin 8192) :
    stScores x2 x1 (ix2 r j) = (∑ k : Fin 128, x2 (ix2 r k) * x1 (ix2 j k)) * invT := by
  unfold stScores
  show matmul dot_S128x128_S8192x128_S128x8192_1_1_0_0_n_n none x2 x1 (constant S128x8192 .f32 0x00000000#32) (ix2 r j) * invT = _
  rw [mm_apply]

theorem stMax_apply (Sc : FVec Ideal S128x8192 .f32) (r : Fin 128) :
    stMax Sc (ix2 r (0 : Fin 1)) = (Finset.univ : Finset (Fin 8192)).fold max (Ideal.ofBits .f32 0xFF800000#32) (fun j => Sc (ix2 r j)) := by
  unfold stMax
  rw [Cert.LibColumn.shapeCast_a_a1_apply, rowmax8192]

theorem stLse_apply (Sc : FVec Ideal S128x8192 .f32) (M1 : FVec Ideal S128x1 .f32) (r : Fin 128) :
    stLse Sc M1 (ix2 r (0 : Fin 1))
      = M1 (ix2 r (0 : Fin 1)) + Ideal.log (∑ j : Fin 8192, Ideal.exp (Sc (ix2 r j) - M1 (ix2 r (0 : Fin 1)))) := by
  unfold stLse
  show M1 (ix2 r (0 : Fin 1)) + Ideal.log (shapeCast S128x1 _ shapeCasts_S128_S128x1 (ix2 r (0 : Fin 1))) = _
  rw [Cert.LibColumn.shapeCast_a_a1_apply, rowsum8192]
  refine congrArg (fun z => M1 (ix2 r (0 : Fin 1)) + Ideal.log z) (Finset.sum_congr rfl fun j _ => ?_)
  show Ideal.exp (Sc (ix2 r j) - broadcastTo S128x8192 M1 broadcasts_S128x1_S128x8192 (ix2 r j)) = _
  rw [Cert.LibColumn.broadcastTo_a1_ab_apply]

theorem stDot_apply (a b : FVec Ideal S128x128 .bf16) (r : Fin 128) :
    stDot a b (ix2 r (0 : Fin 1)) = (∑ k : Fin 128, a (ix2 r k) * b (ix2 r k)) * invT := by
  unfold stDot
  show shapeCast S128x1 _ shapeCasts_S128_S128x1 (ix2 r (0 : Fin 1)) * invT = _
  rw [Cert.LibColumn.shapeCast_a_a1_apply, rowsum128]
  rfl

theorem stOut_apply (L self pos : FVec Ideal S128x1 .f32) (r : Fin 128) :
    stOut L self pos (ix3 (0 : Fin 1) r (0 : Fin 1))
      = pos (ix2 r (0 : Fin 1)) - (L (ix2 r (0 : Fin 1))
          + Ideal.log1p (Ideal.ofBits .f32 0x00000000#32 - Ideal.exp (self (ix2 r (0 : Fin 1)) - L (ix2 r (0 : Fin 1))))) := by
  unfold stOut
  rw [shapeCast_ab_1ab_apply]
  rfl

/-- The body's value for the tile, at row r, is that term. -/
theorem pay4_apply (x2 : FVec Ideal S128x128 .bf16) (x1 : FVec Ideal S8192x128 .bf16) (x3 : FVec Ideal S128x128 .bf16) (r : Fin 128) :
    k0_pay4 (F := Ideal) x2 x1 x3 (ix3 (0 : Fin 1) r (0 : Fin 1)) = rowK x2 x1 x3 r := by
  rw [pay4_split, stOut_apply, stLse_apply, stMax_apply, stDot_apply, stDot_apply]
  simp only [stScores_apply]
  rfl

/-- A 1 × 128 × 1 index is its middle coordinate. -/
theorem eq_ix3_unit (i : (⟨3, ![1, 128, 1]⟩ : Shape).Idx) : i = ix3 (0 : Fin 1) (i 1) (0 : Fin 1) := by
  funext a
  match a with
  | ⟨0, _⟩ => exact Subsingleton.elim (α := Fin 1) _ _
  | ⟨1, _⟩ => rfl
  | ⟨2, _⟩ => exact Subsingleton.elim (α := Fin 1) _ _

def idxEquivUnit : (⟨3, ![1, 128, 1]⟩ : Shape).Idx ≃ Fin 128 where
  toFun i := i 1
  invFun r := ix3 (0 : Fin 1) r (0 : Fin 1)
  left_inv i := (eq_ix3_unit i).symm
  right_inv _ := rfl

/-- The accumulator's update: what it held plus the tile's 128 terms. -/
theorem pay1_apply (v40 : FVec Ideal S1x128x1 .f32) (v44 : FVec Ideal S1x1 .f32) :
    k0_pay1 (F := Ideal) v40 v44 (ix2 (0 : Fin 1) (0 : Fin 1)) = v44 (ix2 (0 : Fin 1) (0 : Fin 1)) + ∑ r : Fin 128, v40 (ix3 (0 : Fin 1) r (0 : Fin 1)) := by
  unfold k0_pay1
  dsimp only
  rw [shapeCast_self]
  show v44 (ix2 (0 : Fin 1) (0 : Fin 1)) + _ = _
  congr 1
  refine (shapeCast_apply _ shapeCasts_S1_S1x1x1 _ (ix1 (0 : Fin 1)) rfl).trans ?_
  refine (Ideal.multiReduction_add_total v40 0x00000000#32 reduces_S1x128x1_S1 (fun b => by match b with | ⟨0, _⟩ => rfl) _ _ (ix1 (0 : Fin 1))).trans ?_
  exact (Equiv.sum_comp idxEquivUnit.symm v40).symm.trans rfl

/-- The last point's store: the total negated and scaled. -/
theorem pay2_apply (v53 : FVec Ideal S1x1 .f32) :
    k0_pay2 (F := Ideal) v53 (ix2 (0 : Fin 1) (0 : Fin 1))
      = (Ideal.ofBits .f32 0x00000000#32 - v53 (ix2 (0 : Fin 1) (0 : Fin 1))) * Ideal.ofBits .f32 0x39000000#32 := rfl

/-- The first point's reset: zero. -/
theorem pay3_apply : k0_pay3 (F := Ideal) (ix2 (0 : Fin 1) (0 : Fin 1)) = Ideal.ofBits .f32 0x00000000#32 := by
  unfold k0_pay3
  rw [shapeCast_self]
  rfl

end Cert.KernelIdeal.Rows

end
-- ==== Proof.LibLogSumExp.lean ====
/-
  Log-sum-exp on the extended reals, at the exact ("Ideal") reading of exp, log and log1p.

  For finitely many REAL numbers x_j the quantity  M + log Σ_j exp (x_j − M)  does not depend on the real shift M:
  it is log Σ_j exp x_j.  Three consequences, each stated with the shift left arbitrary (so a row maximum never has
  to be identified, only known to be a real number):

  * `lse_shift`          M + log Σ_{j∈s} exp (x_j − M) = log Σ_{j∈s} exp x_j;
  * `lse_exclude`        with L = log Σ_{j∈s} exp x_j and i ∈ s:  L + log1p (0 − exp (x_i − L)) = log Σ_{j∈s, j≠i} exp x_j
                          (removing one term from a log-sum-exp: 1 − e^{x_i}/S = S'/S);
  * `log_softmax_masked` the log-softmax of the row whose i-th entry is replaced by −∞, read at p ≠ i:
                          (y_p − M) − log Σ_{j∈s} exp (y_j − M) = x_p − log Σ_{j∈s, j≠i} exp x_j   (exp (−∞) = 0).

  `row_eq` joins the last two: "score minus the log-sum-exp with the diagonal term removed analytically" equals "the
  masked log-softmax entry".
-/
import Idealize.ShloMosaic.PureOps.Ideal
import Mathlib.Analysis.SpecialFunctions.Log.Basic
import Mathlib.Data.EReal.Operations

noncomputable section

namespace Cert.Lib.LogSumExp

open Idealize.ShloMosaic

variable {ι : Type*}

/-- The inclusion of the reals in the extended reals commutes with finite sums. -/
theorem coe_finsum (s : Finset ι) (f : ι → ℝ) :
    ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The exponential of a difference of two reals. -/
theorem exp_coe_sub (x M : ℝ) : Ideal.exp ((x : EReal) - (M : EReal)) = ((Real.exp (x - M) : ℝ) : EReal) := by
  rw [← EReal.coe_sub, Ideal.exp_coe]

/-- A sum of shifted exponentials is a real number. -/
theorem sum_exp_shift (s : Finset ι) (x : ι → ℝ) (M : ℝ) :
    ∑ j ∈ s, Ideal.exp ((x j : EReal) - (M : EReal)) = ((∑ j ∈ s, Real.exp (x j - M) : ℝ) : EReal) := by
  rw [coe_finsum]; exact Finset.sum_congr rfl fun j _ => exp_coe_sub (x j) M

/-- The shift factors out of the sum: Σ e^{x_j − M} = e^{−M} · Σ e^{x_j}. -/
theorem real_sum_exp_shift (s : Finset ι) (x : ι → ℝ) (M : ℝ) :
    ∑ j ∈ s, Real.exp (x j - M) = Real.exp (-M) * ∑ j ∈ s, Real.exp (x j) := by
  rw [Finset.mul_sum]
  exact Finset.sum_congr rfl fun j _ => by rw [sub_eq_add_neg, Real.exp_add, mul_comm]

/-- A nonempty sum of exponentials is positive. -/
theorem sum_exp_pos (s : Finset ι) (hs : s.Nonempty) (x : ι → ℝ) : 0 < ∑ j ∈ s, Real.exp (x j) :=
  Finset.sum_pos (fun j _ => Real.exp_pos _) hs

/-- The logarithm of a sum of shifted exponentials: log Σ e^{x_j − M} = −M + log Σ e^{x_j}. -/
theorem log_sum_exp_shift (s : Finset ι) (hs : s.Nonempty) (x : ι → ℝ) (M : ℝ) :
    Ideal.log (∑ j ∈ s, Ideal.exp ((x j : EReal) - (M : EReal)))
      = ((-M + Real.log (∑ j ∈ s, Real.exp (x j)) : ℝ) : EReal) := by
  have hpos := sum_exp_pos s hs x
  have hpos' : 0 < ∑ j ∈ s, Real.exp (x j - M) := by
    rw [real_sum_exp_shift]; exact mul_pos (Real.exp_pos _) hpos
  rw [sum_exp_shift, Ideal.log_coe, if_neg (not_le.mpr hpos'), real_sum_exp_shift,
    Real.log_mul (Real.exp_pos _).ne' hpos.ne', Real.log_exp]

/-- Log-sum-exp does not depend on the real shift. -/
theorem lse_shift (s : Finset ι) (hs : s.Nonempty) (x : ι → ℝ) (M : ℝ) :
    (M : EReal) + Ideal.log (∑ j ∈ s, Ideal.exp ((x j : EReal) - (M : EReal)))
      = ((Real.log (∑ j ∈ s, Real.exp (x j)) : ℝ) : EReal) := by
  rw [log_sum_exp_shift s hs x M, ← EReal.coe_add]
  congr 1; ring

/-- Removing the i-th term from a log-sum-exp: with S = Σ_{j∈s} e^{x_j}, L = log S and S' = S − e^{x_i},
    L + log (1 + (0 − e^{x_i − L})) = log S', because 1 − e^{x_i}/S = S'/S. -/
theorem lse_exclude [DecidableEq ι] (s : Finset ι) (i : ι) (hi : i ∈ s) (hs' : (s.erase i).Nonempty) (x : ι → ℝ) :
    ((Real.log (∑ j ∈ s, Real.exp (x j)) : ℝ) : EReal)
        + Ideal.log1p ((0 : EReal) - Ideal.exp ((x i : EReal) - ((Real.log (∑ j ∈ s, Real.exp (x j)) : ℝ) : EReal)))
      = ((Real.log (∑ j ∈ s.erase i, Real.exp (x j)) : ℝ) : EReal) := by
  have hS := sum_exp_pos s ⟨i, hi⟩ x
  have hS' := sum_exp_pos (s.erase i) hs' x
  have hsplit : Real.exp (x i) + ∑ j ∈ s.erase i, Real.exp (x j) = ∑ j ∈ s, Real.exp (x j) :=
    Finset.add_sum_erase s (fun j => Real.exp (x j)) hi
  set S := ∑ j ∈ s, Real.exp (x j) with hSdef
  set S' := ∑ j ∈ s.erase i, Real.exp (x j) with hS'def
  have he : Real.exp (x i - Real.log S) = Real.exp (x i) / S := by
    rw [Real.exp_sub, Real.exp_log hS]
  have hq : (1 : ℝ) + (0 - Real.exp (x i - Real.log S)) = S' / S := by
    rw [he]; field_simp; linarith
  have hqpos : 0 < (1 : ℝ) + (0 - Real.exp (x i - Real.log S)) := by rw [hq]; exact div_pos hS' hS
  rw [exp_coe_sub, Ideal.log1p, ← EReal.coe_zero, ← EReal.coe_sub, ← EReal.coe_one, ← EReal.coe_add,
    Ideal.log_coe, if_neg (not_le.mpr hqpos), ← EReal.coe_add, hq, Real.log_div hS'.ne' hS.ne']
  congr 1; ring

/-- The masked log-softmax entry: the row y with y_i = −∞ and y_j = x_j elsewhere, shifted by any real M, at p ≠ i. -/
theorem log_softmax_masked [DecidableEq ι] (s : Finset ι) (i p : ι) (hi : i ∈ s) (hp : p ∈ s) (hpi : p ≠ i)
    (x : ι → ℝ) (M : ℝ) :
    ((if p = i then (⊥ : EReal) else (x p : EReal)) - (M : EReal))
        - Ideal.log (∑ j ∈ s, Ideal.exp ((if j = i then (⊥ : EReal) else (x j : EReal)) - (M : EReal)))
      = (x p : EReal) - ((Real.log (∑ j ∈ s.erase i, Real.exp (x j)) : ℝ) : EReal) := by
  have hs' : (s.erase i).Nonempty := ⟨p, Finset.mem_erase.mpr ⟨hpi, hp⟩⟩
  have hsum : ∑ j ∈ s, Ideal.exp ((if j = i then (⊥ : EReal) else (x j : EReal)) - (M : EReal))
      = ∑ j ∈ s.erase i, Ideal.exp ((x j : EReal) - (M : EReal)) := by
    rw [← Finset.add_sum_erase s _ hi, if_pos rfl, EReal.bot_sub, Ideal.exp_bot, zero_add]
    exact Finset.sum_congr rfl fun j hj => by rw [if_neg (Finset.mem_erase.mp hj).1]
  rw [hsum, log_sum_exp_shift (s.erase i) hs' x M, if_neg hpi, ← EReal.coe_sub, ← EReal.coe_sub, ← EReal.coe_sub]
  congr 1; ring

/-- One row of the loss, two ways: the score at p minus the log-sum-exp over all columns with the i-th term removed
    analytically (any real shift M for the full log-sum-exp), and the log-softmax of the row masked at i, read at p
    (any real shift M'). Both are x_p − log Σ_{j≠i} e^{x_j}. -/
theorem row_eq [DecidableEq ι] (s : Finset ι) (i p : ι) (hi : i ∈ s) (hp : p ∈ s) (hpi : p ≠ i) (x : ι → ℝ) (M M' : ℝ) :
    (x p : EReal)
        - (((M : EReal) + Ideal.log (∑ j ∈ s, Ideal.exp ((x j : EReal) - (M : EReal))))
            + Ideal.log1p ((0 : EReal) - Ideal.exp ((x i : EReal)
                - ((M : EReal) + Ideal.log (∑ j ∈ s, Ideal.exp ((x j : EReal) - (M : EReal)))))))
      = ((if p = i then (⊥ : EReal) else (x p : EReal)) - (M' : EReal))
        - Ideal.log (∑ j ∈ s, Ideal.exp ((if j = i then (⊥ : EReal) else (x j : EReal)) - (M' : EReal))) := by
  have hs' : (s.erase i).Nonempty := ⟨p, Finset.mem_erase.mpr ⟨hpi, hp⟩⟩
  rw [lse_shift s ⟨i, hi⟩ x M, lse_exclude s i hi hs' x, log_softmax_masked s i p hi hp hpi x M']

end Cert.Lib.LogSumExp

end
-- ==== Proof.Algebra.lean ====
/-
  The mathematics that joins the two programs, over REAL rows.

  For rows Z_i (real vectors) and the reciprocal c of the temperature, the score of i against j is s(i, j) = ⟨Z_i, Z_j⟩ · c. The term of
  row i with partner p ≠ i is  t(i) = s(i, p) − log Σ_{j ≠ i} exp s(i, j).

  The kernel reaches t(i) as  s(i, p) − (L + log1p (0 − exp (s(i, i) − L))),  L = M + log Σ_j exp (s(i, j) − M), M the maximum of the
  row folded from −∞; the reference as the log-softmax of the row with −∞ on the diagonal, read at p. Both are shift-invariant
  (the log-sum-exp lemmas), so all that is needed of either maximum is that it is a real number, which a maximum of finitely many
  reals folded from −∞ is.
-/
import Idealize.ShloMosaic.PureOps.Ideal
import proofs.«119228_j90692529422675_1_alg».proof.Proof.LibLogSumExp
import Mathlib.Algebra.BigOperators.Fin
import Mathlib.Analysis.SpecialFunctions.Log.Basic
import Mathlib.Data.EReal.Operations

noncomputable section

namespace Cert.Algebra

open Idealize.ShloMosaic Cert.Lib.LogSumExp

variable {ι κ : Type} [Fintype ι] [DecidableEq ι] [Fintype κ]

/-- The reciprocal of the temperature: of the f32 nearest 0.1, exactly. -/
def cT : ℝ := 134217728 / 13421773

/-- The score of row i against row j. -/
def sc (Z : ι → κ → ℝ) (i j : ι) : ℝ := (∑ k, Z i k * Z j k) * cT

theorem coe_sc (Z : ι → κ → ℝ) (i j : ι) :
    (∑ k, (Z i k : EReal) * (Z j k : EReal)) * (cT : EReal) = ((sc Z i j : ℝ) : EReal) := by
  unfold sc
  rw [EReal.coe_mul, coe_finsum]
  congr 1

theorem coe_max (a b : ℝ) : ((max a b : ℝ) : EReal) = max (a : EReal) (b : EReal) :=
  EReal.coe_strictMono.monotone.map_max

/-- The maximum of finitely many reals, folded from −∞, is a real. -/
theorem fold_max_real {α : Type} (s : Finset α) (hs : s.Nonempty) (f : α → ℝ) :
    ∃ M : ℝ, s.fold max (⊥ : EReal) (fun j => (f j : EReal)) = (M : EReal) := by
  classical
  induction s using Finset.induction_on with
  | empty => exact absurd hs Finset.not_nonempty_empty
  | insert a s ha ih =>
    rw [Finset.fold_insert ha]
    by_cases hne : s.Nonempty
    · obtain ⟨M, hM⟩ := ih hne
      exact ⟨max (f a) M, by rw [hM, coe_max]⟩
    · rw [Finset.not_nonempty_iff_eq_empty.mp hne, Finset.fold_empty]
      exact ⟨f a, max_bot_right _⟩

/-- So is the maximum of a row whose i-th entry is −∞, when the row has another entry. -/
theorem fold_max_masked_real (x : ι → ℝ) (i p : ι) (hpi : p ≠ i) :
    ∃ M : ℝ, Finset.univ.fold max (⊥ : EReal) (fun j => if j = i then (⊥ : EReal) else (x j : EReal)) = (M : EReal) := by
  have hs : (Finset.univ.erase i).Nonempty := ⟨p, Finset.mem_erase.mpr ⟨hpi, Finset.mem_univ p⟩⟩
  obtain ⟨M, hM⟩ := fold_max_real (Finset.univ.erase i) hs x
  refine ⟨M, ?_⟩
  rw [← Finset.insert_erase (Finset.mem_univ i), Finset.fold_insert (Finset.notMem_erase i _), if_pos rfl, max_bot_left, ← hM]
  exact Finset.fold_congr fun j hj => by rw [if_neg (Finset.mem_erase.mp hj).1]

/-- The term of row i with partner p. -/
def rowv (Z : ι → κ → ℝ) (i p : ι) : ℝ := sc Z i p - Real.log (∑ j ∈ Finset.univ.erase i, Real.exp (sc Z i j))

/-- As the kernel computes it. -/
theorem kernel_row (Z : ι → κ → ℝ) (i p : ι) (hpi : p ≠ i) :
    (sc Z i p : EReal)
      - (((Finset.univ.fold max (⊥ : EReal) (fun j => (sc Z i j : EReal)))
            + Ideal.log (∑ j, Ideal.exp ((sc Z i j : EReal) - Finset.univ.fold max (⊥ : EReal) (fun j => (sc Z i j : EReal)))))
          + Ideal.log1p ((0 : EReal) - Ideal.exp ((sc Z i i : EReal)
              - ((Finset.univ.fold max (⊥ : EReal) (fun j => (sc Z i j : EReal)))
                  + Ideal.log (∑ j, Ideal.exp ((sc Z i j : EReal) - Finset.univ.fold max (⊥ : EReal) (fun j => (sc Z i j : EReal))))))))
      = ((rowv Z i p : ℝ) : EReal) := by
  obtain ⟨M, hM⟩ := fold_max_real Finset.univ ⟨i, Finset.mem_univ i⟩ (fun j => sc Z i j)
  have h1 := lse_shift Finset.univ ⟨i, Finset.mem_univ i⟩ (fun j => sc Z i j) M
  have h2 := lse_exclude Finset.univ i (Finset.mem_univ i) ⟨p, Finset.mem_erase.mpr ⟨hpi, Finset.mem_univ p⟩⟩ (fun j => sc Z i j)
  rw [hM, h1, h2, ← EReal.coe_sub]
  rfl

/-- As the reference computes it: the log-softmax of the row masked at i, shifted by any real, read at p. -/
theorem ref_row (Z : ι → κ → ℝ) (i p : ι) (hpi : p ≠ i) (M' : ℝ) :
    ((if p = i then (⊥ : EReal) else (sc Z i p : EReal)) - (M' : EReal))
      - Ideal.log (∑ j, Ideal.exp ((if j = i then (⊥ : EReal) else (sc Z i j : EReal)) - (M' : EReal)))
      = ((rowv Z i p : ℝ) : EReal) := by
  have h := log_softmax_masked Finset.univ i p (Finset.mem_univ i) (Finset.mem_univ p) hpi (fun j => sc Z i j) M'
  rw [h, ← EReal.coe_sub]
  rfl

/-- A sum over the 8192 rows, tile by tile: row 128 t + r is row r of tile t. -/
theorem sum_tiles (f : Fin 8192 → ℝ) (h : ∀ (t : Fin 64) (r : Fin 128), 128 * t.val + r.val < 8192) :
    ∑ i : Fin 8192, f i = ∑ t : Fin 64, ∑ r : Fin 128, f ⟨128 * t.val + r.val, h t r⟩ := by
  rw [← Equiv.sum_comp (finProdFinEquiv (m := 64) (n := 128)) f, Fintype.sum_prod_type]
  refine Finset.sum_congr rfl fun t _ => Finset.sum_congr rfl fun r _ => congrArg f (Fin.ext ?_)
  show r.val + 128 * t.val = 128 * t.val + r.val
  omega

/-- The partner of row i: the same sample in the other view. -/
def partner (i : Fin 8192) : Fin 8192 :=
  if h : i.val < 4096 then ⟨i.val + 4096, by omega⟩ else ⟨i.val - 4096, by have := i.isLt; omega⟩

theorem partner_ne (i : Fin 8192) : partner i ≠ i := by
  intro h
  have hv := congrArg Fin.val h
  unfold partner at hv
  split_ifs at hv <;> simp only [Fin.val_mk] at hv <;> omega

/-- Row r of tile t has its partner at row r of the partner tile. -/
theorem partner_tile (t : ℕ) (ht : t < 64) (r : Fin 128) (h1 : 128 * t + r.val < 8192)
    (h2 : 128 * (if t < 32 then t + 32 else t - 32) + r.val < 8192) :
    partner ⟨128 * t + r.val, h1⟩ = ⟨128 * (if t < 32 then t + 32 else t - 32) + r.val, h2⟩ := by
  have hr := r.isLt
  apply Fin.ext
  unfold partner
  dsimp only
  split_ifs <;> (try simp only [Fin.val_mk]) <;> omega

/-- The loss over real rows. -/
def loss (Z : Fin 8192 → Fin 128 → ℝ) : ℝ := -(∑ i, rowv Z i (partner i)) / 8192

end Cert.Algebra

end
-- ==== Proof.Consts.lean ====
/-
  The float constants the two programs spell, as the extended reals their words denote: the reference's divisor (the temperature,
  the f32 nearest 0.1, exactly 13421773 / 2^27), the norm floor ε (exactly 11258999 / 2^50, positive), the kernel's final scale
  2^-13 = 1 / 8192, and the word for −∞. The kernel's reciprocal of the temperature is a NAMED constant: it denotes
  134217728 / 13421773, the exact reciprocal of the reference's divisor.
-/
import Idealize.ShloMosaic.PureOps.Ideal
import Idealize.ShloMosaic.PureOps.IdealRules

noncomputable section

namespace Cert.Consts

open Idealize.ShloMosaic

/-- The temperature as the reference divides by it. -/
theorem ofBits_temp : Ideal.ofBits .f32 0x3DCCCCCD#32 = ((13421773 / 134217728 : ℝ) : EReal) := by
  simp [Ideal.ofBits, Ideal.ieee, -EReal.coe_mul]; norm_num

/-- The norm floor. -/
theorem ofBits_eps : Ideal.ofBits .f32 0x322BCC77#32 = ((11258999 / 1125899906842624 : ℝ) : EReal) := by
  simp [Ideal.ofBits, Ideal.ieee, -EReal.coe_mul]; norm_num

/-- The final scale 1 / 8192. -/
theorem ofBits_inv_n : Ideal.ofBits .f32 0x39000000#32 = ((1 / 8192 : ℝ) : EReal) := by
  simp [Ideal.ofBits, Ideal.ieee, -EReal.coe_mul]; norm_num

/-- The word for −∞. -/
theorem ofBits_neg_inf : Ideal.ofBits .f32 0xFF800000#32 = ⊥ := by
  simp [Ideal.ofBits, Ideal.ieee]

end Cert.Consts

end
-- ==== Proof.KI.Value.lean ====
/-
  The frame of the idealized kernel: the result over real rows — every tile's rows contribute their terms; the last point negates and scales the total.
-/
import proofs.«119228_j90692529422675_1_alg».proof.Proof.KI.Blocks
import proofs.«119228_j90692529422675_1_alg».proof.Proof.KI.Rows
import proofs.«119228_j90692529422675_1_alg».proof.Proof.Algebra
import proofs.«119228_j90692529422675_1_alg».proof.Proof.Consts

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

open Idealize.ShloMosaic.ValueIdx Cert.Algebra Cert.KernelIdeal.Rows

/-- The kernel's name for the reciprocal of the temperature denotes it. -/
theorem invT_eq : invT = ((cT : ℝ) : EReal) := by
  unfold invT cT
  exact IdealRules.named_const.ideal_named_scalar _ _ _ _ rfl

variable (Z : Fin 8192 → Fin 128 → ℝ)

/-- The term of row r of tile t (zero off the grid). -/
def G (t : ℕ) (r : Fin 128) : ℝ :=
  if h : t < 64 then rowv Z ⟨128 * t + r.val, by have := r.isLt; omega⟩ (partner ⟨128 * t + r.val, by have := r.isLt; omega⟩) else 0

/-- One tile's row, as the body computes it over the blocks, is that term. -/
theorem row_at (c : Dev nD) (hZ : ∀ i k, V (F := Ideal) m c main_v6 (ix2 i k) = ((Z i k : ℝ) : EReal)) (t : Fin cfg0.N) (r : Fin 128) :
    k0_pay4 (F := Ideal) (iblk m c 1 t) (iblk m c 0 t) (iblk m c 2 t) (ix3 (0 : Fin 1) r (0 : Fin 1)) = ((G Z t.val r : ℝ) : EReal) := by
  have hN : t.val < 64 := lt_of_lt_of_eq t.isLt (show cfg0.N = 64 from N_0)
  rw [pay4_apply]
  unfold rowK
  simp only [blk0, blk1, blk2, hZ, invT_eq, coe_sc, Cert.Consts.ofBits_neg_inf, Ideal.ofBits_zero_f32]
  unfold G
  rw [dif_pos hN, partner_tile t.val hN r (row_lt t r) (prow_lt t r)]
  refine kernel_row Z _ _ (fun e => ?_)
  have hv := congrArg Fin.val e
  have hr := r.isLt
  simp only [Fin.val_mk] at hv
  unfold ptile at hv
  split_ifs at hv <;> omega

/-- The running sum after position n is the sum of the terms of tiles 0 … n. -/
theorem acc_at (c : Dev nD) (hZ : ∀ i k, V (F := Ideal) m c main_v6 (ix2 i k) = ((Z i k : ℝ) : EReal)) :
    ∀ (n : ℕ) (hn : n < cfg0.N), accAt (F := Ideal) m c n hn (ix2 (0 : Fin 1) (0 : Fin 1))
      = ((∑ t ∈ Finset.range (n + 1), ∑ r : Fin 128, G Z t r : ℝ) : EReal)
  | 0, hn => by
    unfold accAt
    rw [pay1_apply, pay3_apply, Ideal.ofBits_zero_f32, zero_add, Finset.range_one, Finset.sum_singleton, Cert.Lib.LogSumExp.coe_finsum]
    exact Finset.sum_congr rfl fun r _ => row_at m Z c hZ ⟨0, hn⟩ r
  | n + 1, hn => by
    unfold accAt
    rw [pay1_apply, acc_at c hZ n (Nat.lt_of_succ_lt hn), Finset.sum_range_succ _ (n + 1), EReal.coe_add, Cert.Lib.LogSumExp.coe_finsum (Finset.univ) (fun r => G Z (n + 1) r)]
    congr 1
    exact Finset.sum_congr rfl fun r _ => row_at m Z c hZ ⟨n + 1, hn⟩ r

/-- All 64 tiles: the sum over the 8192 rows. -/
theorem sum_G : (∑ t ∈ Finset.range 64, ∑ r : Fin 128, G Z t r) = ∑ i : Fin 8192, rowv Z i (partner i) := by
  rw [sum_tiles (fun i => rowv Z i (partner i)) (fun t r => by have := t.isLt; have := r.isLt; omega), Finset.sum_range]
  refine Finset.sum_congr rfl fun t _ => Finset.sum_congr rfl fun r _ => ?_
  unfold G
  rw [dif_pos t.isLt]

/-- THE KERNEL'S RESULT over real rows: the loss. -/
theorem result_eq (c : Dev nD) (hZ : ∀ i k, V (F := Ideal) m c main_v6 (ix2 i k) = ((Z i k : ℝ) : EReal)) (i : S_.Idx) :
    Vz (F := Ideal) m c main_v8 i = ((loss Z : ℝ) : EReal) := by
  rw [Vz_v8]
  unfold Gout
  rw [pay2_apply, acc_at m Z c hZ 63 lastN, Ideal.ofBits_zero_f32, Cert.Consts.ofBits_inv_n, sum_G, ← EReal.coe_zero, ← EReal.coe_sub, ← EReal.coe_mul]
  congr 1
  unfold loss
  ring

end Cert.KernelIdeal.Hand

end
-- ==== Proof.RefStagesA.lean ====
/-
  What the reference's result buffer holds, as the composition of its operations' stages — the rows, the scores, the masked scores.
  Each lemma evaluates one short stretch of the 64 host operations from an arbitrary valuation that holds the few buffers the stretch
  reads at their stages; the intermediate values, which the program reads several times each, are never written out more than once.
-/
import proofs.«119228_j90692529422675_1_alg».proof.Proof.RefRead

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- the rows: concatenate, norms, floor, divide. -/
theorem seg0_v5 (W : Valuation τ sig (Elt F)) (x0 x1 : (⟨S4096x128, .f32⟩ : BufTy).Contents (Elt F)) (h_arg0 : W (Proc.devRef .tc main_arg0) = x0) (h_arg1 : W (Proc.devRef .tc main_arg1) = x1) :
    after (List.take 11 (ops (F := F))) W (Proc.devRef .tc main_v5) = val_main_v5 (F := F) x0 x1 := by
  simp only [ops, List.drop_succ_cons, List.drop_zero, List.take_succ_cons, List.take_zero]
  after_results_simp <;> (try rw [h_arg0, h_arg1]) <;> (try dsimp only [TRef.toBuf, TRef.ofBuf]) <;> (try simp only [cast_eq]) <;> (try rfl)

/-- the scores (rows times their transpose, over the temperature) and the diagonal mask. -/
theorem seg1_v9 (W : Valuation τ sig (Elt F)) (x0 x1 : (⟨S4096x128, .f32⟩ : BufTy).Contents (Elt F)) (h_v5 : W (Proc.devRef .tc main_v5) = val_main_v5 (F := F) x0 x1) :
    after (List.take 11 (List.drop 11 (ops (F := F)))) W (Proc.devRef .tc main_v9) = val_main_v9 (F := F) x0 x1 := by
  simp only [ops, List.drop_succ_cons, List.drop_zero, List.take_succ_cons, List.take_zero]
  after_results_simp <;> (try rw [h_v5]) <;> (try dsimp only [TRef.toBuf, TRef.ofBuf]) <;> (try simp only [cast_eq]) <;> (try rfl)

/-- the scores (rows times their transpose, over the temperature) and the diagonal mask. -/
theorem seg1_v14 (W : Valuation τ sig (Elt F)) (x0 x1 : (⟨S4096x128, .f32⟩ : BufTy).Contents (Elt F))  :
    after (List.take 11 (List.drop 11 (ops (F := F)))) W (Proc.devRef .tc main_v14) = val_main_v14 (F := F) := by
  simp only [ops, List.drop_succ_cons, List.drop_zero, List.take_succ_cons, List.take_zero]
  after_results_simp <;> (try dsimp only [TRef.toBuf, TRef.ofBuf]) <;> (try simp only [cast_eq]) <;> (try rfl)

/-- the diagonal masked by −∞. -/
theorem seg2_v15 (W : Valuation τ sig (Elt F)) (x0 x1 : (⟨S4096x128, .f32⟩ : BufTy).Contents (Elt F)) (h_v9 : W (Proc.devRef .tc main_v9) = val_main_v9 (F := F) x0 x1) (h_v14 : W (Proc.devRef .tc main_v14) = val_main_v14 (F := F)) :
    after (List.take 4 (List.drop 11 (List.drop 11 (ops (F := F))))) W (Proc.devRef .tc main_v15) = val_main_v15 (F := F) x0 x1 := by
  simp only [ops, List.drop_succ_cons, List.drop_zero, List.take_succ_cons, List.take_zero]
  after_results_simp <;> (try rw [h_v9, h_v14]) <;> (try dsimp only [TRef.toBuf, TRef.ofBuf]) <;> (try simp only [cast_eq]) <;> (try rfl)

theorem seg2_keep_v14 (W : Valuation τ sig (Elt F)) (x0 x1 : (⟨S4096x128, .f32⟩ : BufTy).Contents (Elt F)) (h_v14 : W (Proc.devRef .tc main_v14) = val_main_v14 (F := F)) :
    after (List.take 4 (List.drop 11 (List.drop 11 (ops (F := F))))) W (Proc.devRef .tc main_v14) = val_main_v14 (F := F) := by
  simp only [ops, List.drop_succ_cons, List.drop_zero, List.take_succ_cons, List.take_zero]
  after_results_simp
  exact h_v14

end Cert.ReferenceIdeal.Stages

end
-- ==== Proof.RefStagesB.lean ====
/-
  What the reference's result buffer holds, as the composition of its operations' stages — the log-softmax: maxima and shift.
  Each lemma evaluates one short stretch of the 64 host operations from an arbitrary valuation that holds the few buffers the stretch
  reads at their stages; the intermediate values, which the program reads several times each, are never written out more than once.
-/
import proofs.«119228_j90692529422675_1_alg».proof.Proof.RefRead

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- log-softmax: the row maxima. -/
theorem seg3_c2v0 (W : Valuation τ sig (Elt F)) (x0 x1 : (⟨S4096x128, .f32⟩ : BufTy).Contents (Elt F)) (h_v15 : W (Proc.devRef .tc main_v15) = val_main_v15 (F := F) x0 x1) :
    after (List.take 2 (List.drop 4 (List.drop 11 (List.drop 11 (ops (F := F)))))) W (Proc.devRef .tc main_call2_v0) = val_main_call2_v0 (F := F) x0 x1 := by
  simp only [ops, List.drop_succ_cons, List.drop_zero, List.take_succ_cons, List.take_zero]
  after_results_simp
  rw [h_v15]
  unfold val_main_call2_v0 val_main_call2_cst
  dsimp only [TRef.toBuf, TRef.ofBuf]
  simp only [cast_eq]

theorem seg3_keep_v15 (W : Valuation τ sig (Elt F)) (x0 x1 : (⟨S4096x128, .f32⟩ : BufTy).Contents (Elt F)) (h_v15 : W (Proc.devRef .tc main_v15) = val_main_v15 (F := F) x0 x1) :
    after (List.take 2 (List.drop 4 (List.drop 11 (List.drop 11 (ops (F := F)))))) W (Proc.devRef .tc main_v15) = val_main_v15 (F := F) x0 x1 := by
  simp only [ops, List.drop_succ_cons, List.drop_zero, List.take_succ_cons, List.take_zero]
  after_results_simp
  exact h_v15

theorem seg3_keep_v14 (W : Valuation τ sig (Elt F)) (x0 x1 : (⟨S4096x128, .f32⟩ : BufTy).Contents (Elt F)) (h_v14 : W (Proc.devRef .tc main_v14) = val_main_v14 (F := F)) :
    after (List.take 2 (List.drop 4 (List.drop 11 (List.drop 11 (ops (F := F)))))) W (Proc.devRef .tc main_v14) = val_main_v14 (F := F) := by
  simp only [ops, List.drop_succ_cons, List.drop_zero, List.take_succ_cons, List.take_zero]
  after_results_simp
  exact h_v14

/-- log-softmax: the maxima against the initial −∞. -/
theorem seg4_c2v2 (W : Valuation τ sig (Elt F)) (x0 x1 : (⟨S4096x128, .f32⟩ : BufTy).Contents (Elt F)) (h_c2v0 : W (Proc.devRef .tc main_call2_v0) = val_main_call2_v0 (F := F) x0 x1) :
    after (List.take 3 (List.drop 2 (List.drop 4 (List.drop 11 (List.drop 11 (ops (F := F))))))) W (Proc.devRef .tc main_call2_v2) = val_main_call2_v2 (F := F) x0 x1 := by
  simp only [ops, List.drop_succ_cons, List.drop_zero, List.take_succ_cons, List.take_zero]
  after_results_simp
  rw [h_c2v0]
  unfold val_main_call2_v2 val_main_call2_v1 val_main_call2_cst_0
  dsimp only [TRef.toBuf, TRef.ofBuf]
  repeat rw [cast_eq]

theorem seg4_keep_v15 (W : Valuation τ sig (Elt F)) (x0 x1 : (⟨S4096x128, .f32⟩ : BufTy).Contents (Elt F)) (h_v15 : W (Proc.devRef .tc main_v15) = val_main_v15 (F := F) x0 x1) :
    after (List.take 3 (List.drop 2 (List.drop 4 (List.drop 11 (List.drop 11 (ops (F := F))))))) W (Proc.devRef .tc main_v15) = val_main_v15 (F := F) x0 x1 := by
  simp only [ops, List.drop_succ_cons, List.drop_zero, List.take_succ_cons, List.take_zero]
  after_results_simp
  exact h_v15

theorem seg4_keep_v14 (W : Valuation τ sig (Elt F)) (x0 x1 : (⟨S4096x128, .f32⟩ : BufTy).Contents (Elt F)) (h_v14 : W (Proc.devRef .tc main_v14) = val_main_v14 (F := F)) :
    after (List.take 3 (List.drop 2 (List.drop 4 (List.drop 11 (List.drop 11 (ops (F := F))))))) W (Proc.devRef .tc main_v14) = val_main_v14 (F := F) := by
  simp only [ops, List.drop_succ_cons, List.drop_zero, List.take_succ_cons, List.take_zero]
  after_results_simp
  exact h_v14

/-- log-softmax: the maxima spread over the rows. -/
theorem seg5_c2v4 (W : Valuation τ sig (Elt F)) (x0 x1 : (⟨S4096x128, .f32⟩ : BufTy).Contents (Elt F)) (h_c2v2 : W (Proc.devRef .tc main_call2_v2) = val_main_call2_v2 (F := F) x0 x1) :
    after (List.take 2 (List.drop 3 (List.drop 2 (List.drop 4 (List.drop 11 (List.drop 11 (ops (F := F)))))))) W (Proc.devRef .tc main_call2_v4) = val_main_call2_v4 (F := F) x0 x1 := by
  simp only [ops, List.drop_succ_cons, List.drop_zero, List.take_succ_cons, List.take_zero]
  after_results_simp
  rw [h_c2v2]
  unfold val_main_call2_v4 val_main_call2_v3
  dsimp only [TRef.toBuf, TRef.ofBuf]
  simp only [cast_eq]

theorem seg5_keep_v15 (W : Valuation τ sig (Elt F)) (x0 x1 : (⟨S4096x128, .f32⟩ : BufTy).Contents (Elt F)) (h_v15 : W (Proc.devRef .tc main_v15) = val_main_v15 (F := F) x0 x1) :
    after (List.take 2 (List.drop 3 (List.drop 2 (List.drop 4 (List.drop 11 (List.drop 11 (ops (F := F)))))))) W (Proc.devRef .tc main_v15) = val_main_v15 (F := F) x0 x1 := by
  simp only [ops, List.drop_succ_cons, List.drop_zero, List.take_succ_cons, List.take_zero]
  after_results_simp
  exact h_v15

theorem seg5_keep_v14 (W : Valuation τ sig (Elt F)) (x0 x1 : (⟨S4096x128, .f32⟩ : BufTy).Contents (Elt F)) (h_v14 : W (Proc.devRef .tc main_v14) = val_main_v14 (F := F)) :
    after (List.take 2 (List.drop 3 (List.drop 2 (List.drop 4 (List.drop 11 (List.drop 11 (ops (F := F)))))))) W (Proc.devRef .tc main_v14) = val_main_v14 (F := F) := by
  simp only [ops, List.drop_succ_cons, List.drop_zero, List.take_succ_cons, List.take_zero]
  after_results_simp
  exact h_v14

/-- log-softmax: the shifted scores. -/
theorem seg6_c2v5 (W : Valuation τ sig (Elt F)) (x0 x1 : (⟨S4096x128, .f32⟩ : BufTy).Contents (Elt F)) (h_v15 : W (Proc.devRef .tc main_v15) = val_main_v15 (F := F) x0 x1) (h_c2v4 : W (Proc.devRef .tc main_call2_v4) = val_main_call2_v4 (F := F) x0 x1) :
    after (List.take 1 (List.drop 2 (List.drop 3 (List.drop 2 (List.drop 4 (List.drop 11 (List.drop 11 (ops (F := F))))))))) W (Proc.devRef .tc main_call2_v5) = val_main_call2_v5 (F := F) x0 x1 := by
  simp only [ops, List.drop_succ_cons, List.drop_zero, List.take_succ_cons, List.take_zero]
  after_results_simp
  rw [h_v15, h_c2v4]
  unfold val_main_call2_v5
  dsimp only [TRef.toBuf, TRef.ofBuf]
  simp only [cast_eq]

theorem seg6_keep_v14 (W : Valuation τ sig (Elt F)) (x0 x1 : (⟨S4096x128, .f32⟩ : BufTy).Contents (Elt F)) (h_v14 : W (Proc.devRef .tc main_v14) = val_main_v14 (F := F)) :
    after (List.take 1 (List.drop 2 (List.drop 3 (List.drop 2 (List.drop 4 (List.drop 11 (List.drop 11 (ops (F := F))))))))) W (Proc.devRef .tc main_v14) = val_main_v14 (F := F) := by
  simp only [ops, List.drop_succ_cons, List.drop_zero, List.take_succ_cons, List.take_zero]
  after_results_simp
  exact h_v14

end Cert.ReferenceIdeal.Stages

end
-- ==== Proof.RefStagesC.lean ====
/-
  What the reference's result buffer holds, as the composition of its operations' stages — the log-softmax: row sums and the result.
  Each lemma evaluates one short stretch of the 64 host operations from an arbitrary valuation that holds the few buffers the stretch
  reads at their stages; the intermediate values, which the program reads several times each, are never written out more than once.
-/
import proofs.«119228_j90692529422675_1_alg».proof.Proof.RefRead

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- log-softmax: the row sums of the exponentials. -/
theorem seg7_c2v7 (W : Valuation τ sig (Elt F)) (x0 x1 : (⟨S4096x128, .f32⟩ : BufTy).Contents (Elt F)) (h_c2v5 : W (Proc.devRef .tc main_call2_v5) = val_main_call2_v5 (F := F) x0 x1) :
    after (List.take 3 (List.drop 1 (List.drop 2 (List.drop 3 (List.drop 2 (List.drop 4 (List.drop 11 (List.drop 11 (ops (F := F)))))))))) W (Proc.devRef .tc main_call2_v7) = val_main_call2_v7 (F := F) x0 x1 := by
  simp only [ops, List.drop_succ_cons, List.drop_zero, List.take_succ_cons, List.take_zero]
  after_results_simp <;> (try rw [h_c2v5]) <;> (try dsimp only [TRef.toBuf, TRef.ofBuf]) <;> (try simp only [cast_eq]) <;> (try rfl)

theorem seg7_keep_c2v5 (W : Valuation τ sig (Elt F)) (x0 x1 : (⟨S4096x128, .f32⟩ : BufTy).Contents (Elt F)) (h_c2v5 : W (Proc.devRef .tc main_call2_v5) = val_main_call2_v5 (F := F) x0 x1) :
    after (List.take 3 (List.drop 1 (List.drop 2 (List.drop 3 (List.drop 2 (List.drop 4 (List.drop 11 (List.drop 11 (ops (F := F)))))))))) W (Proc.devRef .tc main_call2_v5) = val_main_call2_v5 (F := F) x0 x1 := by
  simp only [ops, List.drop_succ_cons, List.drop_zero, List.take_succ_cons, List.take_zero]
  after_results_simp
  exact h_c2v5

theorem seg7_keep_v14 (W : Valuation τ sig (Elt F)) (x0 x1 : (⟨S4096x128, .f32⟩ : BufTy).Contents (Elt F)) (h_v14 : W (Proc.devRef .tc main_v14) = val_main_v14 (F := F)) :
    after (List.take 3 (List.drop 1 (List.drop 2 (List.drop 3 (List.drop 2 (List.drop 4 (List.drop 11 (List.drop 11 (ops (F := F)))))))))) W (Proc.devRef .tc main_v14) = val_main_v14 (F := F) := by
  simp only [ops, List.drop_succ_cons, List.drop_zero, List.take_succ_cons, List.take_zero]
  after_results_simp
  exact h_v14

/-- log-softmax: their logarithms spread over the rows. -/
theorem seg8_c2v10 (W : Valuation τ sig (Elt F)) (x0 x1 : (⟨S4096x128, .f32⟩ : BufTy).Contents (Elt F)) (h_c2v7 : W (Proc.devRef .tc main_call2_v7) = val_main_call2_v7 (F := F) x0 x1) :
    after (List.take 3 (List.drop 3 (List.drop 1 (List.drop 2 (List.drop 3 (List.drop 2 (List.drop 4 (List.drop 11 (List.drop 11 (ops (F := F))))))))))) W (Proc.devRef .tc main_call2_v10) = val_main_call2_v10 (F := F) x0 x1 := by
  simp only [ops, List.drop_succ_cons, List.drop_zero, List.take_succ_cons, List.take_zero]
  after_results_simp <;> (try rw [h_c2v7]) <;> (try dsimp only [TRef.toBuf, TRef.ofBuf]) <;> (try simp only [cast_eq]) <;> (try rfl)

theorem seg8_keep_c2v5 (W : Valuation τ sig (Elt F)) (x0 x1 : (⟨S4096x128, .f32⟩ : BufTy).Contents (Elt F)) (h_c2v5 : W (Proc.devRef .tc main_call2_v5) = val_main_call2_v5 (F := F) x0 x1) :
    after (List.take 3 (List.drop 3 (List.drop 1 (List.drop 2 (List.drop 3 (List.drop 2 (List.drop 4 (List.drop 11 (List.drop 11 (ops (F := F))))))))))) W (Proc.devRef .tc main_call2_v5) = val_main_call2_v5 (F := F) x0 x1 := by
  simp only [ops, List.drop_succ_cons, List.drop_zero, List.take_succ_cons, List.take_zero]
  after_results_simp
  exact h_c2v5

theorem seg8_keep_v14 (W : Valuation τ sig (Elt F)) (x0 x1 : (⟨S4096x128, .f32⟩ : BufTy).Contents (Elt F)) (h_v14 : W (Proc.devRef .tc main_v14) = val_main_v14 (F := F)) :
    after (List.take 3 (List.drop 3 (List.drop 1 (List.drop 2 (List.drop 3 (List.drop 2 (List.drop 4 (List.drop 11 (List.drop 11 (ops (F := F))))))))))) W (Proc.devRef .tc main_v14) = val_main_v14 (F := F) := by
  simp only [ops, List.drop_succ_cons, List.drop_zero, List.take_succ_cons, List.take_zero]
  after_results_simp
  exact h_v14

/-- log-softmax: shifted score minus log row sum. -/
theorem seg9_v16 (W : Valuation τ sig (Elt F)) (x0 x1 : (⟨S4096x128, .f32⟩ : BufTy).Contents (Elt F)) (h_c2v5 : W (Proc.devRef .tc main_call2_v5) = val_main_call2_v5 (F := F) x0 x1) (h_c2v10 : W (Proc.devRef .tc main_call2_v10) = val_main_call2_v10 (F := F) x0 x1) :
    after (List.take 1 (List.drop 3 (List.drop 3 (List.drop 1 (List.drop 2 (List.drop 3 (List.drop 2 (List.drop 4 (List.drop 11 (List.drop 11 (ops (F := F)))))))))))) W (Proc.devRef .tc main_v16) = val_main_v16 (F := F) x0 x1 := by
  simp only [ops, List.drop_succ_cons, List.drop_zero, List.take_succ_cons, List.take_zero]
  after_results_simp <;> (try rw [h_c2v5, h_c2v10]) <;> (try dsimp only [TRef.toBuf, TRef.ofBuf]) <;> (try simp only [cast_eq]) <;> (try rfl)

theorem seg9_keep_v14 (W : Valuation τ sig (Elt F)) (x0 x1 : (⟨S4096x128, .f32⟩ : BufTy).Contents (Elt F)) (h_v14 : W (Proc.devRef .tc main_v14) = val_main_v14 (F := F)) :
    after (List.take 1 (List.drop 3 (List.drop 3 (List.drop 1 (List.drop 2 (List.drop 3 (List.drop 2 (List.drop 4 (List.drop 11 (List.drop 11 (ops (F := F)))))))))))) W (Proc.devRef .tc main_v14) = val_main_v14 (F := F) := by
  simp only [ops, List.drop_succ_cons, List.drop_zero, List.take_succ_cons, List.take_zero]
  after_results_simp
  exact h_v14

end Cert.ReferenceIdeal.Stages

end
-- ==== Proof.RefStagesD.lean ====
/-
  What the reference's result buffer holds, as the composition of its operations' stages — the masks, the kept entries, the total and the count.
  Each lemma evaluates one short stretch of the 64 host operations from an arbitrary valuation that holds the few buffers the stretch
  reads at their stages; the intermediate values, which the program reads several times each, are never written out more than once.
-/
import proofs.«119228_j90692529422675_1_alg».proof.Proof.RefRead

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- the positive mask: same sample, other view, off the diagonal. -/
theorem seg10_v26 (W : Valuation τ sig (Elt F)) (x0 x1 : (⟨S4096x128, .f32⟩ : BufTy).Contents (Elt F)) (h_v14 : W (Proc.devRef .tc main_v14) = val_main_v14 (F := F)) :
    after (List.take 11 (List.drop 1 (List.drop 3 (List.drop 3 (List.drop 1 (List.drop 2 (List.drop 3 (List.drop 2 (List.drop 4 (List.drop 11 (List.drop 11 (ops (F := F))))))))))))) W (Proc.devRef .tc main_v26) = val_main_v26 (F := F) := by
  simp only [ops, List.drop_succ_cons, List.drop_zero, List.take_succ_cons, List.take_zero]
  after_results_simp <;> (try rw [h_v14]) <;> (try dsimp only [TRef.toBuf, TRef.ofBuf]) <;> (try simp only [cast_eq]) <;> (try rfl)

theorem seg10_keep_v16 (W : Valuation τ sig (Elt F)) (x0 x1 : (⟨S4096x128, .f32⟩ : BufTy).Contents (Elt F)) (h_v16 : W (Proc.devRef .tc main_v16) = val_main_v16 (F := F) x0 x1) :
    after (List.take 11 (List.drop 1 (List.drop 3 (List.drop 3 (List.drop 1 (List.drop 2 (List.drop 3 (List.drop 2 (List.drop 4 (List.drop 11 (List.drop 11 (ops (F := F))))))))))))) W (Proc.devRef .tc main_v16) = val_main_v16 (F := F) x0 x1 := by
  simp only [ops, List.drop_succ_cons, List.drop_zero, List.take_succ_cons, List.take_zero]
  after_results_simp
  exact h_v16

/-- the log-softmax kept at the positives, zero elsewhere. -/
theorem seg11_v27 (W : Valuation τ sig (Elt F)) (x0 x1 : (⟨S4096x128, .f32⟩ : BufTy).Contents (Elt F)) (h_v26 : W (Proc.devRef .tc main_v26) = val_main_v26 (F := F)) (h_v16 : W (Proc.devRef .tc main_v16) = val_main_v16 (F := F) x0 x1) :
    after (List.take 4 (List.drop 11 (List.drop 1 (List.drop 3 (List.drop 3 (List.drop 1 (List.drop 2 (List.drop 3 (List.drop 2 (List.drop 4 (List.drop 11 (List.drop 11 (ops (F := F)))))))))))))) W (Proc.devRef .tc main_v27) = val_main_v27 (F := F) x0 x1 := by
  simp only [ops, List.drop_succ_cons, List.drop_zero, List.take_succ_cons, List.take_zero]
  after_results_simp <;> (try rw [h_v26, h_v16]) <;> (try dsimp only [TRef.toBuf, TRef.ofBuf]) <;> (try simp only [cast_eq]) <;> (try rfl)

theorem seg11_keep_v26 (W : Valuation τ sig (Elt F)) (x0 x1 : (⟨S4096x128, .f32⟩ : BufTy).Contents (Elt F)) (h_v26 : W (Proc.devRef .tc main_v26) = val_main_v26 (F := F)) :
    after (List.take 4 (List.drop 11 (List.drop 1 (List.drop 3 (List.drop 3 (List.drop 1 (List.drop 2 (List.drop 3 (List.drop 2 (List.drop 4 (List.drop 11 (List.drop 11 (ops (F := F)))))))))))))) W (Proc.devRef .tc main_v26) = val_main_v26 (F := F) := by
  simp only [ops, List.drop_succ_cons, List.drop_zero, List.take_succ_cons, List.take_zero]
  after_results_simp
  exact h_v26

/-- its total, negated. -/
theorem seg12_v29 (W : Valuation τ sig (Elt F)) (x0 x1 : (⟨S4096x128, .f32⟩ : BufTy).Contents (Elt F)) (h_v27 : W (Proc.devRef .tc main_v27) = val_main_v27 (F := F) x0 x1) :
    after (List.take 3 (List.drop 4 (List.drop 11 (List.drop 1 (List.drop 3 (List.drop 3 (List.drop 1 (List.drop 2 (List.drop 3 (List.drop 2 (List.drop 4 (List.drop 11 (List.drop 11 (ops (F := F))))))))))))))) W (Proc.devRef .tc main_v29) = val_main_v29 (F := F) x0 x1 := by
  simp only [ops, List.drop_succ_cons, List.drop_zero, List.take_succ_cons, List.take_zero]
  after_results_simp <;> (try rw [h_v27]) <;> (try dsimp only [TRef.toBuf, TRef.ofBuf]) <;> (try simp only [cast_eq]) <;> (try rfl)

theorem seg12_keep_v26 (W : Valuation τ sig (Elt F)) (x0 x1 : (⟨S4096x128, .f32⟩ : BufTy).Contents (Elt F)) (h_v26 : W (Proc.devRef .tc main_v26) = val_main_v26 (F := F)) :
    after (List.take 3 (List.drop 4 (List.drop 11 (List.drop 1 (List.drop 3 (List.drop 3 (List.drop 1 (List.drop 2 (List.drop 3 (List.drop 2 (List.drop 4 (List.drop 11 (List.drop 11 (ops (F := F))))))))))))))) W (Proc.devRef .tc main_v26) = val_main_v26 (F := F) := by
  simp only [ops, List.drop_succ_cons, List.drop_zero, List.take_succ_cons, List.take_zero]
  after_results_simp
  exact h_v26

/-- the count of the positives, as a float. -/
theorem seg13_v32 (W : Valuation τ sig (Elt F)) (x0 x1 : (⟨S4096x128, .f32⟩ : BufTy).Contents (Elt F)) (h_v26 : W (Proc.devRef .tc main_v26) = val_main_v26 (F := F)) :
    after (List.take 4 (List.drop 3 (List.drop 4 (List.drop 11 (List.drop 1 (List.drop 3 (List.drop 3 (List.drop 1 (List.drop 2 (List.drop 3 (List.drop 2 (List.drop 4 (List.drop 11 (List.drop 11 (ops (F := F)))))))))))))))) W (Proc.devRef .tc main_v32) = val_main_v32 (F := F) := by
  simp only [ops, List.drop_succ_cons, List.drop_zero, List.take_succ_cons, List.take_zero]
  after_results_simp <;> (try rw [h_v26]) <;> (try dsimp only [TRef.toBuf, TRef.ofBuf]) <;> (try simp only [cast_eq]) <;> (try rfl)

theorem seg13_keep_v29 (W : Valuation τ sig (Elt F)) (x0 x1 : (⟨S4096x128, .f32⟩ : BufTy).Contents (Elt F)) (h_v29 : W (Proc.devRef .tc main_v29) = val_main_v29 (F := F) x0 x1) :
    after (List.take 4 (List.drop 3 (List.drop 4 (List.drop 11 (List.drop 1 (List.drop 3 (List.drop 3 (List.drop 1 (List.drop 2 (List.drop 3 (List.drop 2 (List.drop 4 (List.drop 11 (List.drop 11 (ops (F := F)))))))))))))))) W (Proc.devRef .tc main_v29) = val_main_v29 (F := F) x0 x1 := by
  simp only [ops, List.drop_succ_cons, List.drop_zero, List.take_succ_cons, List.take_zero]
  after_results_simp
  exact h_v29

/-- the negated total over the count. -/
theorem seg_last (W : Valuation τ sig (Elt F)) (x0 x1 : (⟨S4096x128, .f32⟩ : BufTy).Contents (Elt F)) (h_v29 : W (Proc.devRef .tc main_v29) = val_main_v29 (F := F) x0 x1) (h_v32 : W (Proc.devRef .tc main_v32) = val_main_v32 (F := F)) :
    after (List.drop 4 (List.drop 3 (List.drop 4 (List.drop 11 (List.drop 1 (List.drop 3 (List.drop 3 (List.drop 1 (List.drop 2 (List.drop 3 (List.drop 2 (List.drop 4 (List.drop 11 (List.drop 11 (ops (F := F)))))))))))))))) W (Proc.devRef .tc main_v33) = val_main_v33 (F := F) x0 x1 := by
  simp only [ops, List.drop_succ_cons, List.drop_zero]
  after_results_simp
  rw [h_v29, h_v32]; rfl

end Cert.ReferenceIdeal.Stages

end
-- ==== Proof.RefStages.lean ====
/-
  What the reference's result buffer holds, as the composition of its operations' stages — the chain of all stretches.
  Each lemma evaluates one short stretch of the 64 host operations from an arbitrary valuation that holds the few buffers the stretch
  reads at their stages; the intermediate values, which the program reads several times each, are never written out more than once.
-/
import proofs.«119228_j90692529422675_1_alg».proof.Proof.RefStagesA
import proofs.«119228_j90692529422675_1_alg».proof.Proof.RefStagesB
import proofs.«119228_j90692529422675_1_alg».proof.Proof.RefStagesC
import proofs.«119228_j90692529422675_1_alg».proof.Proof.RefStagesD

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The result buffer after the 64 operations is the last stage of the two argument arrays. -/
theorem result_eq (m : (ℓ : Loc nD τ sig) → Buf (Elt F) ℓ) (c : Dev nD) :
    after (ops (F := F)) (launchContents m c) (Proc.devRef .tc main_v33)
      = val_main_v33 (F := F) (m ((c.tc : Thread nD τ).loc main_arg0)) (m ((c.tc : Thread nD τ).loc main_arg1)) := by
  -- the rows: concatenate, norms, floor, divide
  rw [← List.take_append_drop 11 (ops (F := F)), after_append]
  have h_v5_0 := seg0_v5 (launchContents m c) (m ((c.tc : Thread nD τ).loc main_arg0)) (m ((c.tc : Thread nD τ).loc main_arg1)) rfl rfl
  generalize after (List.take 11 (ops (F := F))) (launchContents m c) = W1 at h_v5_0 ⊢
  -- the scores (rows times their transpose, over the temperature) and the diagonal mask
  rw [← List.take_append_drop 11 (List.drop 11 (ops (F := F))), after_append]
  have h_v9_1 := seg1_v9 W1 (m ((c.tc : Thread nD τ).loc main_arg0)) (m ((c.tc : Thread nD τ).loc main_arg1)) h_v5_0
  have h_v14_1 := seg1_v14 W1 (m ((c.tc : Thread nD τ).loc main_arg0)) (m ((c.tc : Thread nD τ).loc main_arg1))
  generalize after (List.take 11 (List.drop 11 (ops (F := F)))) W1 = W2 at h_v9_1 h_v14_1 ⊢
  -- the diagonal masked by −∞
  rw [← List.take_append_drop 4 (List.drop 11 (List.drop 11 (ops (F := F)))), after_append]
  have h_v15_2 := seg2_v15 W2 (m ((c.tc : Thread nD τ).loc main_arg0)) (m ((c.tc : Thread nD τ).loc main_arg1)) h_v9_1 h_v14_1
  have h_v14_2 := seg2_keep_v14 W2 (m ((c.tc : Thread nD τ).loc main_arg0)) (m ((c.tc : Thread nD τ).loc main_arg1)) h_v14_1
  generalize after (List.take 4 (List.drop 11 (List.drop 11 (ops (F := F))))) W2 = W3 at h_v15_2 h_v14_2 ⊢
  -- log-softmax: the row maxima
  rw [← List.take_append_drop 2 (List.drop 4 (List.drop 11 (List.drop 11 (ops (F := F))))), after_append]
  have h_c2v0_3 := seg3_c2v0 W3 (m ((c.tc : Thread nD τ).loc main_arg0)) (m ((c.tc : Thread nD τ).loc main_arg1)) h_v15_2
  have h_v15_3 := seg3_keep_v15 W3 (m ((c.tc : Thread nD τ).loc main_arg0)) (m ((c.tc : Thread nD τ).loc main_arg1)) h_v15_2
  have h_v14_3 := seg3_keep_v14 W3 (m ((c.tc : Thread nD τ).loc main_arg0)) (m ((c.tc : Thread nD τ).loc main_arg1)) h_v14_2
  generalize after (List.take 2 (List.drop 4 (List.drop 11 (List.drop 11 (ops (F := F)))))) W3 = W4 at h_c2v0_3 h_v15_3 h_v14_3 ⊢
  -- log-softmax: the maxima against the initial −∞
  rw [← List.take_append_drop 3 (List.drop 2 (List.drop 4 (List.drop 11 (List.drop 11 (ops (F := F)))))), after_append]
  have h_c2v2_4 := seg4_c2v2 W4 (m ((c.tc : Thread nD τ).loc main_arg0)) (m ((c.tc : Thread nD τ).loc main_arg1)) h_c2v0_3
  have h_v15_4 := seg4_keep_v15 W4 (m ((c.tc : Thread nD τ).loc main_arg0)) (m ((c.tc : Thread nD τ).loc main_arg1)) h_v15_3
  have h_v14_4 := seg4_keep_v14 W4 (m ((c.tc : Thread nD τ).loc main_arg0)) (m ((c.tc : Thread nD τ).loc main_arg1)) h_v14_3
  generalize after (List.take 3 (List.drop 2 (List.drop 4 (List.drop 11 (List.drop 11 (ops (F := F))))))) W4 = W5 at h_c2v2_4 h_v15_4 h_v14_4 ⊢
  -- log-softmax: the maxima spread over the rows
  rw [← List.take_append_drop 2 (List.drop 3 (List.drop 2 (List.drop 4 (List.drop 11 (List.drop 11 (ops (F := F))))))), after_append]
  have h_c2v4_5 := seg5_c2v4 W5 (m ((c.tc : Thread nD τ).loc main_arg0)) (m ((c.tc : Thread nD τ).loc main_arg1)) h_c2v2_4
  have h_v15_5 := seg5_keep_v15 W5 (m ((c.tc : Thread nD τ).loc main_arg0)) (m ((c.tc : Thread nD τ).loc main_arg1)) h_v15_4
  have h_v14_5 := seg5_keep_v14 W5 (m ((c.tc : Thread nD τ).loc main_arg0)) (m ((c.tc : Thread nD τ).loc main_arg1)) h_v14_4
  generalize after (List.take 2 (List.drop 3 (List.drop 2 (List.drop 4 (List.drop 11 (List.drop 11 (ops (F := F)))))))) W5 = W6 at h_c2v4_5 h_v15_5 h_v14_5 ⊢
  -- log-softmax: the shifted scores
  rw [← List.take_append_drop 1 (List.drop 2 (List.drop 3 (List.drop 2 (List.drop 4 (List.drop 11 (List.drop 11 (ops (F := F)))))))), after_append]
  have h_c2v5_6 := seg6_c2v5 W6 (m ((c.tc : Thread nD τ).loc main_arg0)) (m ((c.tc : Thread nD τ).loc main_arg1)) h_v15_5 h_c2v4_5
  have h_v14_6 := seg6_keep_v14 W6 (m ((c.tc : Thread nD τ).loc main_arg0)) (m ((c.tc : Thread nD τ).loc main_arg1)) h_v14_5
  generalize after (List.take 1 (List.drop 2 (List.drop 3 (List.drop 2 (List.drop 4 (List.drop 11 (List.drop 11 (ops (F := F))))))))) W6 = W7 at h_c2v5_6 h_v14_6 ⊢
  -- log-softmax: the row sums of the exponentials
  rw [← List.take_append_drop 3 (List.drop 1 (List.drop 2 (List.drop 3 (List.drop 2 (List.drop 4 (List.drop 11 (List.drop 11 (ops (F := F))))))))), after_append]
  have h_c2v7_7 := seg7_c2v7 W7 (m ((c.tc : Thread nD τ).loc main_arg0)) (m ((c.tc : Thread nD τ).loc main_arg1)) h_c2v5_6
  have h_c2v5_7 := seg7_keep_c2v5 W7 (m ((c.tc : Thread nD τ).loc main_arg0)) (m ((c.tc : Thread nD τ).loc main_arg1)) h_c2v5_6
  have h_v14_7 := seg7_keep_v14 W7 (m ((c.tc : Thread nD τ).loc main_arg0)) (m ((c.tc : Thread nD τ).loc main_arg1)) h_v14_6
  generalize after (List.take 3 (List.drop 1 (List.drop 2 (List.drop 3 (List.drop 2 (List.drop 4 (List.drop 11 (List.drop 11 (ops (F := F)))))))))) W7 = W8 at h_c2v7_7 h_c2v5_7 h_v14_7 ⊢
  -- log-softmax: their logarithms spread over the rows
  rw [← List.take_append_drop 3 (List.drop 3 (List.drop 1 (List.drop 2 (List.drop 3 (List.drop 2 (List.drop 4 (List.drop 11 (List.drop 11 (ops (F := F)))))))))), after_append]
  have h_c2v10_8 := seg8_c2v10 W8 (m ((c.tc : Thread nD τ).loc main_arg0)) (m ((c.tc : Thread nD τ).loc main_arg1)) h_c2v7_7
  have h_c2v5_8 := seg8_keep_c2v5 W8 (m ((c.tc : Thread nD τ).loc main_arg0)) (m ((c.tc : Thread nD τ).loc main_arg1)) h_c2v5_7
  have h_v14_8 := seg8_keep_v14 W8 (m ((c.tc : Thread nD τ).loc main_arg0)) (m ((c.tc : Thread nD τ).loc main_arg1)) h_v14_7
  generalize after (List.take 3 (List.drop 3 (List.drop 1 (List.drop 2 (List.drop 3 (List.drop 2 (List.drop 4 (List.drop 11 (List.drop 11 (ops (F := F))))))))))) W8 = W9 at h_c2v10_8 h_c2v5_8 h_v14_8 ⊢
  -- log-softmax: shifted score minus log row sum
  rw [← List.take_append_drop 1 (List.drop 3 (List.drop 3 (List.drop 1 (List.drop 2 (List.drop 3 (List.drop 2 (List.drop 4 (List.drop 11 (List.drop 11 (ops (F := F))))))))))), after_append]
  have h_v16_9 := seg9_v16 W9 (m ((c.tc : Thread nD τ).loc main_arg0)) (m ((c.tc : Thread nD τ).loc main_arg1)) h_c2v5_8 h_c2v10_8
  have h_v14_9 := seg9_keep_v14 W9 (m ((c.tc : Thread nD τ).loc main_arg0)) (m ((c.tc : Thread nD τ).loc main_arg1)) h_v14_8
  generalize after (List.take 1 (List.drop 3 (List.drop 3 (List.drop 1 (List.drop 2 (List.drop 3 (List.drop 2 (List.drop 4 (List.drop 11 (List.drop 11 (ops (F := F)))))))))))) W9 = W10 at h_v16_9 h_v14_9 ⊢
  -- the positive mask: same sample, other view, off the diagonal
  rw [← List.take_append_drop 11 (List.drop 1 (List.drop 3 (List.drop 3 (List.drop 1 (List.drop 2 (List.drop 3 (List.drop 2 (List.drop 4 (List.drop 11 (List.drop 11 (ops (F := F)))))))))))), after_append]
  have h_v26_10 := seg10_v26 W10 (m ((c.tc : Thread nD τ).loc main_arg0)) (m ((c.tc : Thread nD τ).loc main_arg1)) h_v14_9
  have h_v16_10 := seg10_keep_v16 W10 (m ((c.tc : Thread nD τ).loc main_arg0)) (m ((c.tc : Thread nD τ).loc main_arg1)) h_v16_9
  generalize after (List.take 11 (List.drop 1 (List.drop 3 (List.drop 3 (List.drop 1 (List.drop 2 (List.drop 3 (List.drop 2 (List.drop 4 (List.drop 11 (List.drop 11 (ops (F := F))))))))))))) W10 = W11 at h_v26_10 h_v16_10 ⊢
  -- the log-softmax kept at the positives, zero elsewhere
  rw [← List.take_append_drop 4 (List.drop 11 (List.drop 1 (List.drop 3 (List.drop 3 (List.drop 1 (List.drop 2 (List.drop 3 (List.drop 2 (List.drop 4 (List.drop 11 (List.drop 11 (ops (F := F))))))))))))), after_append]
  have h_v27_11 := seg11_v27 W11 (m ((c.tc : Thread nD τ).loc main_arg0)) (m ((c.tc : Thread nD τ).loc main_arg1)) h_v26_10 h_v16_10
  have h_v26_11 := seg11_keep_v26 W11 (m ((c.tc : Thread nD τ).loc main_arg0)) (m ((c.tc : Thread nD τ).loc main_arg1)) h_v26_10
  generalize after (List.take 4 (List.drop 11 (List.drop 1 (List.drop 3 (List.drop 3 (List.drop 1 (List.drop 2 (List.drop 3 (List.drop 2 (List.drop 4 (List.drop 11 (List.drop 11 (ops (F := F)))))))))))))) W11 = W12 at h_v27_11 h_v26_11 ⊢
  -- its total, negated
  rw [← List.take_append_drop 3 (List.drop 4 (List.drop 11 (List.drop 1 (List.drop 3 (List.drop 3 (List.drop 1 (List.drop 2 (List.drop 3 (List.drop 2 (List.drop 4 (List.drop 11 (List.drop 11 (ops (F := F)))))))))))))), after_append]
  have h_v29_12 := seg12_v29 W12 (m ((c.tc : Thread nD τ).loc main_arg0)) (m ((c.tc : Thread nD τ).loc main_arg1)) h_v27_11
  have h_v26_12 := seg12_keep_v26 W12 (m ((c.tc : Thread nD τ).loc main_arg0)) (m ((c.tc : Thread nD τ).loc main_arg1)) h_v26_11
  generalize after (List.take 3 (List.drop 4 (List.drop 11 (List.drop 1 (List.drop 3 (List.drop 3 (List.drop 1 (List.drop 2 (List.drop 3 (List.drop 2 (List.drop 4 (List.drop 11 (List.drop 11 (ops (F := F))))))))))))))) W12 = W13 at h_v29_12 h_v26_12 ⊢
  -- the count of the positives, as a float
  rw [← List.take_append_drop 4 (List.drop 3 (List.drop 4 (List.drop 11 (List.drop 1 (List.drop 3 (List.drop 3 (List.drop 1 (List.drop 2 (List.drop 3 (List.drop 2 (List.drop 4 (List.drop 11 (List.drop 11 (ops (F := F))))))))))))))), after_append]
  have h_v32_13 := seg13_v32 W13 (m ((c.tc : Thread nD τ).loc main_arg0)) (m ((c.tc : Thread nD τ).loc main_arg1)) h_v26_12
  have h_v29_13 := seg13_keep_v29 W13 (m ((c.tc : Thread nD τ).loc main_arg0)) (m ((c.tc : Thread nD τ).loc main_arg1)) h_v29_12
  generalize after (List.take 4 (List.drop 3 (List.drop 4 (List.drop 11 (List.drop 1 (List.drop 3 (List.drop 3 (List.drop 1 (List.drop 2 (List.drop 3 (List.drop 2 (List.drop 4 (List.drop 11 (List.drop 11 (ops (F := F)))))))))))))))) W13 = W14 at h_v32_13 h_v29_13 ⊢
  -- the negated total over the count
  exact seg_last W14 (m ((c.tc : Thread nD τ).loc main_arg0)) (m ((c.tc : Thread nD τ).loc main_arg1)) h_v29_13 h_v32_13

end Cert.ReferenceIdeal.Stages

end
-- ==== Proof.RefValue.lean ====
/-
  The reference's result over real rows.

  With the rows Z real: the scores are s(i, j) = ⟨Z_i, Z_j⟩ · (1/T) (the quotient by T is the product with its reciprocal); the diagonal
  mask is i = j, the positive mask is i ≡ j mod 4096 off the diagonal, that is j = partner i; the row maximum of the masked scores is a
  real; the log-softmax entry at (i, partner i) is the row's term; the masked total keeps exactly those entries; and the mask has 8192 ones.
-/
import proofs.«119228_j90692529422675_1_alg».proof.Proof.RefRead
import proofs.«119228_j90692529422675_1_alg».proof.Proof.Algebra
import proofs.«119228_j90692529422675_1_alg».proof.Proof.Consts
import Idealize.ShloMosaic.Lib.ValueIdx
import Idealize.ShloMosaic.Lib.Affine
import Idealize.ShloMosaic.PureOps.Ideal.Laws
import Idealize.ShloMosaic.PureOps.Reduce

set_option maxRecDepth 16384

noncomputable section

namespace Cert.ReferenceIdeal.RefValue

open Cert.ReferenceIdeal Cert.ReferenceIdeal.Gen Cert.ReferenceIdeal.ReadP
open Idealize.ShloMosaic Idealize.ShloMosaic.ValueIdx Cert.Algebra

variable (x0 x1 : (⟨S4096x128, .f32⟩ : BufTy).Contents (Elt Ideal)) (Z : Fin 8192 → Fin 128 → ℝ)

/-! ## Bits -/

theorem bit_cases (b : BitVec 1) : b = 1#1 ∨ b = 0#1 := by revert b; decide

theorem ofNat_inj {a b : ℕ} (ha : a < 8192) (hb : b < 8192) : BitVec.ofNat 32 a = BitVec.ofNat 32 b ↔ a = b := by
  constructor
  · intro h
    have h' := congrArg BitVec.toNat h
    simp only [BitVec.toNat_ofNat] at h'
    omega
  · rintro rfl; rfl

/-- `iota + 0 == iota'` on 32-bit words below 8192 is equality of the numbers. -/
theorem eq_bit (a b : ℕ) (ha : a < 8192) (hb : b < 8192) :
    IntOp.cmpi .eq (IntOp.addi (BitVec.ofNat 32 a) 0#32) (BitVec.ofNat 32 b) = 1#1 ↔ a = b := by
  rw [IntOp.cmpi_eq]
  show BitVec.ofNat 32 a + 0#32 = BitVec.ofNat 32 b ↔ _
  rw [BitVec.add_zero]
  exact ofNat_inj ha hb

theorem select_one {α : Type} {c : BitVec 1} (h : c = 1#1) (a b : α) : Scalar.select c a b = a := by
  subst h; rfl
theorem select_ne {α : Type} {c : BitVec 1} (h : ¬c = 1#1) (a b : α) : Scalar.select c a b = b := by
  rcases bit_cases c with rfl | rfl
  · exact absurd rfl h
  · rfl

/-! ## The scores -/

theorem v9_at (hZ : ∀ i k, val_main_v5 (F := Ideal) x0 x1 (ix2 i k) = ((Z i k : ℝ) : EReal)) (i j : Fin 8192) :
    val_main_v9 (F := Ideal) x0 x1 (ix2 i j) = ((sc Z i j : ℝ) : EReal) := by
  have e1 : ∀ k : Fin 128, lidx_main_v7 (ix2 i j) k = ix2 i k := fun k => funext fun a => Fin.ext (by
    match a with
    | ⟨0, _⟩ => rfl
    | ⟨1, _⟩ => rfl)
  have e2 : ∀ k : Fin 128, idx_main_v6 (ridx_main_v7 (ix2 i j) k) = ix2 j k := fun k => funext fun a => Fin.ext (by
    match a with
    | ⟨0, _⟩ => rfl
    | ⟨1, _⟩ => rfl)
  rw [val_main_v9_apply, val_main_v7_apply, val_main_v8_apply, val_main_cst_0_apply]
  simp only [val_main_v6_apply, e1, e2, hZ]
  rw [Ideal.hostDivf_def, Ideal.ofBits_def, Cert.Consts.ofBits_temp, Ideal.div_coe (by norm_num : (13421773 / 134217728 : ℝ) ≠ 0),
    show ((1 / (13421773 / 134217728 : ℝ) : ℝ)) = cT from by unfold cT; norm_num]
  exact coe_sc Z i j

/-- The diagonal mask. -/
theorem v14_at (i j : Fin 8192) : val_main_v14 (F := Ideal) (ix2 i j) = 1#1 ↔ i = j := by
  rw [val_main_v14_apply, val_main_v13_apply, val_main_v10_apply, val_main_v11_apply, val_main_v12_apply, val_main_c_apply]
  exact (eq_bit i.val j.val i.isLt j.isLt).trans Fin.val_inj

/-- The masked scores: −∞ on the diagonal. -/
theorem v15_at (hZ : ∀ i k, val_main_v5 (F := Ideal) x0 x1 (ix2 i k) = ((Z i k : ℝ) : EReal)) (i j : Fin 8192) :
    val_main_v15 (F := Ideal) x0 x1 (ix2 i j) = if j = i then (⊥ : EReal) else ((sc Z i j : ℝ) : EReal) := by
  rw [val_main_v15_apply, v9_at x0 x1 Z hZ, val_main_call1_v1_apply, val_main_call1_v0_apply, val_main_cst_1_apply]
  by_cases h : i = j
  · rw [select_one ((v14_at i j).mpr h), if_pos h.symm]
    exact Cert.Consts.ofBits_neg_inf
  · rw [select_ne (fun h1 => h ((v14_at i j).mp h1)), if_neg (fun e => h e.symm)]

/-! ## The row maxima of the masked scores -/

theorem lift_ix1 (i : Fin 8192) (k : Fin 8192) (h : S8192x8192.Reduces [1] S8192) : h.lift (ix1 i) k = ix2 i k := by
  funext a
  apply Fin.ext
  match a with
  | ⟨0, _⟩ => rfl
  | ⟨1, _⟩ => rfl

theorem max_real (hZ : ∀ i k, val_main_v5 (F := Ideal) x0 x1 (ix2 i k) = ((Z i k : ℝ) : EReal)) (i : Fin 8192) :
    ∃ M : ℝ, val_main_call2_v2 (F := Ideal) x0 x1 (ix1 i) = (M : EReal) := by
  obtain ⟨M, hM⟩ := fold_max_masked_real (fun j => sc Z i j) i (partner i) (partner_ne i)
  refine ⟨M, ?_⟩
  have hred : S8192x8192.Reduces [1] S8192 := by decide
  rw [val_main_call2_v2_apply, val_main_call2_v1_apply, val_main_call2_cst_0_apply]
  unfold val_main_call2_v0
  rw [Host.reduce_eq_fold_single FloatOps.maximumf _ _ reducesTo_S8192x8192_S8192_d1 hred h_S_ (ix1 i)]
  have hfold : (Finset.univ : Finset (Fin 8192)).fold max (Ideal.ofBits .f32 0xFF800000#32)
        (fun k : Fin 8192 => val_main_v15 (F := Ideal) x0 x1 (hred.lift (ix1 i) k))
      = (Finset.univ : Finset (Fin 8192)).fold max (⊥ : EReal) (fun j : Fin 8192 => if j = i then (⊥ : EReal) else ((sc Z i j : ℝ) : EReal)) := by
    rw [Cert.Consts.ofBits_neg_inf]
    refine Finset.fold_congr fun (j : Fin 8192) _ => ?_
    have e := lift_ix1 i j hred
    rw [e, v15_at x0 x1 Z hZ]
  show max (Ideal.ofBits .f32 0xFF800000#32)
      ((Finset.univ : Finset (Fin 8192)).fold max (Ideal.ofBits .f32 0xFF800000#32) (fun k : Fin 8192 => val_main_v15 (F := Ideal) x0 x1 (hred.lift (ix1 i) k))) = _
  rw [hfold, hM, Cert.Consts.ofBits_neg_inf, max_bot_left]

/-! ## The log-softmax entry -/

theorem v16_at (hZ : ∀ i k, val_main_v5 (F := Ideal) x0 x1 (ix2 i k) = ((Z i k : ℝ) : EReal)) (i p : Fin 8192) (hpi : p ≠ i) :
    val_main_v16 (F := Ideal) x0 x1 (ix2 i p) = ((rowv Z i p : ℝ) : EReal) := by
  obtain ⟨M, hM⟩ := max_real x0 x1 Z hZ i
  have e4 : ∀ q : Fin 8192, idx_main_call2_v3 (idx_main_call2_v4 (ix2 i q)) = ix1 i := fun q => funext fun a => Fin.ext (by
    match a with
    | ⟨0, _⟩ => rfl)
  have e10 : idx_main_call2_v8 (idx_main_call2_v10 (ix2 i p)) = ix1 i := funext fun a => Fin.ext (by
    match a with
    | ⟨0, _⟩ => rfl)
  have e7 : ∀ k : Fin 8192, idx_main_call2_v7 (ix1 i) k = ix2 i k := fun k => funext fun a => Fin.ext (by
    match a with
    | ⟨0, _⟩ => rfl
    | ⟨1, _⟩ => rfl)
  have h5 : ∀ q : Fin 8192, val_main_call2_v5 (F := Ideal) x0 x1 (ix2 i q)
      = (if q = i then (⊥ : EReal) else ((sc Z i q : ℝ) : EReal)) - (M : EReal) := fun q => by
    rw [val_main_call2_v5_apply, val_main_call2_v4_apply, val_main_call2_v3_apply, e4, hM, v15_at x0 x1 Z hZ]
    rfl
  rw [val_main_v16_apply, h5, val_main_call2_v10_apply, val_main_call2_v9_apply, val_main_call2_v8_apply, e10, val_main_call2_v7_apply,
    val_main_call2_cst_1_apply]
  simp only [e7, val_main_call2_v6_apply, h5]
  show ((if p = i then (⊥ : EReal) else ((sc Z i p : ℝ) : EReal)) - (M : EReal))
      - Ideal.log (Ideal.ofBits .f32 0x00000000#32 + ∑ k : Fin 8192, Ideal.exp ((if k = i then (⊥ : EReal) else ((sc Z i k : ℝ) : EReal)) - (M : EReal))) = _
  rw [Ideal.ofBits_zero_f32, zero_add]
  exact ref_row Z i p hpi M

/-! ## The positive mask -/

theorem partner_iff (i j : Fin 8192) : (i.val % 4096 = j.val % 4096 ∧ ¬i = j) ↔ j = partner i := by
  have hi := i.isLt
  have hj := j.isLt
  unfold partner
  constructor
  · rintro ⟨h1, h2⟩
    have h2' : i.val ≠ j.val := fun e => h2 (Fin.ext e)
    apply Fin.ext
    split_ifs <;> (try simp only [Fin.val_mk]) <;> omega
  · intro h
    have hv := congrArg Fin.val h
    split_ifs at hv <;> simp only [Fin.val_mk] at hv <;> refine ⟨by omega, fun e => ?_⟩ <;> (have := congrArg Fin.val e; omega)

theorem v24_at (i j : Fin 8192) : val_main_v24 (F := Ideal) (ix2 i j) = 1#1 ↔ i.val % 4096 = j.val % 4096 := by
  have hi := i.isLt
  have hj := j.isLt
  rw [val_main_v24_apply, val_main_v23_apply, val_main_v22_apply, val_main_v21_apply, val_main_v20_apply, val_main_v17_apply, val_main_v18_apply,
    val_main_v19_apply, val_main_c_2_apply]
  have ha : (idx_main_v22 (idx_main_v23 (idx_main_v24 (ix2 i j))) 0).val = i.val % 4096 := by
    show ((((0 * 4096 + (i.val * 8192 + j.val) / 8192 % 4096) * 1 + 0) * 4096 + (i.val * 8192 + j.val) % 4096) / 4096) = _
    omega
  have hb : (idx_main_v22 (idx_main_v23 (idx_main_v24 (ix2 i j))) 1).val = j.val % 4096 := by
    show ((((0 * 4096 + (i.val * 8192 + j.val) / 8192 % 4096) * 1 + 0) * 4096 + (i.val * 8192 + j.val) % 4096) % 4096) = _
    omega
  rw [ha, hb]
  exact eq_bit _ _ (by omega) (by omega)

theorem v26_at (i j : Fin 8192) : val_main_v26 (F := Ideal) (ix2 i j) = 1#1 ↔ j = partner i := by
  rw [val_main_v26_apply, val_main_v25_apply, IntOp.andi_eq_one, IntOp.not_eq_one, v24_at, v14_at]
  exact partner_iff i j

/-! ## The masked total and the count -/

theorem v27_at (hZ : ∀ i k, val_main_v5 (F := Ideal) x0 x1 (ix2 i k) = ((Z i k : ℝ) : EReal)) (i j : Fin 8192) :
    val_main_v27 (F := Ideal) x0 x1 (ix2 i j) = if j = partner i then ((rowv Z i (partner i) : ℝ) : EReal) else 0 := by
  rw [val_main_v27_apply]
  by_cases h : j = partner i
  · rw [select_one ((v26_at i j).mpr h), if_pos h, h, v16_at x0 x1 Z hZ i (partner i) (partner_ne i)]
  · rw [select_ne (fun h1 => h ((v26_at i j).mp h1)), if_neg h, val_main_call3_v1_apply, val_main_call3_v0_apply, val_main_cst_3_apply]
    exact Ideal.ofBits_zero_f32

theorem total_at (hZ : ∀ i k, val_main_v5 (F := Ideal) x0 x1 (ix2 i k) = ((Z i k : ℝ) : EReal)) (i0 : S_.Idx) :
    val_main_v28 (F := Ideal) x0 x1 i0 = ((∑ i : Fin 8192, rowv Z i (partner i) : ℝ) : EReal) := by
  rw [val_main_v28_apply, val_main_cst_4_apply, sum_idx2]
  simp only [v27_at x0 x1 Z hZ, Finset.sum_ite_eq', Finset.mem_univ, if_true]
  show Ideal.ofBits .f32 0x00000000#32 + _ = _
  rw [Ideal.ofBits_zero_f32, zero_add, Cert.Lib.LogSumExp.coe_finsum]

theorem fold_addi {α : Type} [DecidableEq α] (s : Finset α) (f : α → BitVec 32) :
    s.fold IntOp.addi 0#32 f = BitVec.ofNat 32 (∑ x ∈ s, (f x).toNat) := by
  induction s using Finset.induction_on with
  | empty => rfl
  | insert a s ha ih =>
    rw [Finset.fold_insert ha, Finset.sum_insert ha, ih]
    show f a + BitVec.ofNat 32 _ = _
    rw [BitVec.ofNat_add, BitVec.ofNat_toNat, BitVec.setWidth_eq]

theorem count_at (i0 : S_.Idx) : val_main_v32 (F := Ideal) i0 = ((8192 : ℝ) : EReal) := by
  have hcount : val_main_v31 (F := Ideal) i0 = BitVec.ofNat 32 8192 := by
    unfold val_main_v31
    rw [Host.reduce_eq_fold IntOp.addi _ _ reducesTo_S8192x8192_S_d0_1 h_S_ i0,
      Finset.filter_true_of_mem (fun i _ => funext fun a => a.elim0), val_main_c_5_apply, fold_addi, sum_idx2]
    refine congrArg (BitVec.ofNat 32) ?_
    have hrow : ∀ i : Fin 8192, (∑ j : Fin 8192, (val_main_v30 (F := Ideal) (ix2 i j)).toNat) = 1 := fun i => by
      rw [Finset.sum_eq_single (partner i)]
      · rw [val_main_v30_apply, (v26_at i (partner i)).mpr rfl]; rfl
      · intro j _ hj
        rw [val_main_v30_apply]
        rcases bit_cases (val_main_v26 (F := Ideal) (ix2 i j)) with h | h
        · exact absurd ((v26_at i j).mp h) hj
        · rw [h]; rfl
      · intro h; exact absurd (Finset.mem_univ _) h
    rw [Finset.sum_congr rfl fun i _ => hrow i]
    simp only [Finset.sum_const, Finset.card_univ, Fintype.card_fin, smul_eq_mul, mul_one]
  rw [val_main_v32_apply, hcount]
  show (((BitVec.ofNat 32 8192).toInt : ℝ) : EReal) = _
  have hi : (BitVec.ofNat 32 8192).toInt = 8192 := by decide
  rw [hi]
  norm_num

/-- THE REFERENCE'S RESULT over real rows: the loss. -/
theorem result_eq (hZ : ∀ i k, val_main_v5 (F := Ideal) x0 x1 (ix2 i k) = ((Z i k : ℝ) : EReal)) (i0 : S_.Idx) :
    val_main_v33 (F := Ideal) x0 x1 i0 = ((loss Z : ℝ) : EReal) := by
  rw [val_main_v33_apply, val_main_v29_apply, total_at x0 x1 Z hZ, count_at]
  show Ideal.div (-((∑ i : Fin 8192, rowv Z i (partner i) : ℝ) : EReal)) ((8192 : ℝ) : EReal) = _
  rw [Ideal.div_coe (by norm_num : (8192 : ℝ) ≠ 0), ← EReal.coe_neg, ← EReal.coe_mul]
  congr 1
  unfold loss
  ring

/-! ## The normalised rows are real numbers -/

/-- An entry of the concatenated array is an entry of one of the two views. -/
theorem v0_real (h0 : ∀ i, ∃ r : ℝ, x0 i = (r : EReal)) (h1 : ∀ i, ∃ r : ℝ, x1 i = (r : EReal)) (i : Fin 8192) (k : Fin 128) :
    ∃ r : ℝ, val_main_v0 (F := Ideal) x0 x1 (ix2 i k) = (r : EReal) := by
  unfold val_main_v0
  by_cases hi : i.val < 4096
  · rw [concatenate_pair_apply_left (0 : Fin S8192x128.rank) x0 x1 concatenates_S4096x128_S4096x128_S8192x128_d0 (ix2 i k) rfl
      (ix2 (⟨i.val, hi⟩ : Fin 4096) k) (fun b => by
        match b with
        | ⟨0, _⟩ => rfl
        | ⟨1, _⟩ => rfl)]
    exact h0 _
  · rw [concatenate_pair_apply_right (0 : Fin S8192x128.rank) x0 x1 concatenates_S4096x128_S4096x128_S8192x128_d0 (ix2 i k) rfl rfl
      (ix2 (⟨i.val - 4096, by have := i.isLt; omega⟩ : Fin 4096) k)
      (fun b hb => by
        match b with
        | ⟨0, _⟩ => exact absurd rfl hb
        | ⟨1, _⟩ => rfl)
      (by show i.val - 4096 + 4096 = i.val; omega)]
    exact h1 _

/-- An entry of a normalised row: the entry over max(‖row‖, ε), a real since ε > 0. -/
theorem v5_real (h0 : ∀ i, ∃ r : ℝ, x0 i = (r : EReal)) (h1 : ∀ i, ∃ r : ℝ, x1 i = (r : EReal)) (i : Fin 8192) (k : Fin 128) :
    ∃ r : ℝ, val_main_v5 (F := Ideal) x0 x1 (ix2 i k) = (r : EReal) := by
  choose f hf using fun k' : Fin 128 => v0_real x0 x1 h0 h1 i k'
  have e4 : idx_main_v4 (ix2 i k) = ix2 i (0 : Fin 1) := funext fun a => Fin.ext (by
    match a with
    | ⟨0, _⟩ => rfl
    | ⟨1, _⟩ => rfl)
  have ec : idx_main_call0_v2 (ix2 i (0 : Fin 1)) = ix1 i := funext fun a => Fin.ext (by
    match a with
    | ⟨0, _⟩ => rfl)
  have e1 : ∀ k' : Fin 128, idx_main_call0_v1 (ix1 i) k' = ix2 i k' := fun k' => funext fun a => Fin.ext (by
    match a with
    | ⟨0, _⟩ => rfl
    | ⟨1, _⟩ => rfl)
  have hs : val_main_call0_v1 (F := Ideal) x0 x1 (ix1 i) = ((∑ k' : Fin 128, f k' * f k' : ℝ) : EReal) := by
    rw [val_main_call0_v1_apply, val_main_call0_cst_apply]
    simp only [e1, val_main_call0_v0_apply, hf]
    show Ideal.ofBits .f32 0x00000000#32 + ∑ k' : Fin 128, ((f k' : ℝ) : EReal) * ((f k' : ℝ) : EReal) = _
    rw [Ideal.ofBits_zero_f32, zero_add, Cert.Lib.LogSumExp.coe_finsum]
    exact Finset.sum_congr rfl fun k' _ => (EReal.coe_mul _ _).symm
  have hnn : 0 ≤ ∑ k' : Fin 128, f k' * f k' := Finset.sum_nonneg fun k' _ => mul_self_nonneg _
  have hd : val_main_v4 (F := Ideal) x0 x1 (ix2 i k)
      = ((max (Real.sqrt (∑ k' : Fin 128, f k' * f k')) (11258999 / 1125899906842624) : ℝ) : EReal) := by
    rw [val_main_v4_apply, e4, val_main_v3_apply, val_main_v1_apply, val_main_call0_v2_apply, ec, hs, val_main_v2_apply, val_main_cst_apply]
    show max (Ideal.sqrt ((∑ k' : Fin 128, f k' * f k' : ℝ) : EReal)) (Ideal.ofBits .f32 0x322BCC77#32) = _
    rw [Ideal.sqrt_coe, if_neg (not_lt.mpr hnn), Cert.Consts.ofBits_eps, coe_max]
  have hpos : (max (Real.sqrt (∑ k' : Fin 128, f k' * f k')) (11258999 / 1125899906842624) : ℝ) ≠ 0 :=
    ne_of_gt (lt_of_lt_of_le (by norm_num) (le_max_right _ _))
  refine ⟨f k * (1 / max (Real.sqrt (∑ k' : Fin 128, f k' * f k')) (11258999 / 1125899906842624)), ?_⟩
  rw [val_main_v5_apply, hf k, hd]
  show Ideal.div _ _ = _
  rw [Ideal.div_coe hpos, ← EReal.coe_mul]

/-- The rows as reals. -/
def rowsZ (i : Fin 8192) (k : Fin 128) : ℝ := (val_main_v5 (F := Ideal) x0 x1 (ix2 i k)).toReal

theorem rowsZ_spec (h0 : ∀ i, ∃ r : ℝ, x0 i = (r : EReal)) (h1 : ∀ i, ∃ r : ℝ, x1 i = (r : EReal)) (i : Fin 8192) (k : Fin 128) :
    val_main_v5 (F := Ideal) x0 x1 (ix2 i k) = ((rowsZ x0 x1 i k : ℝ) : EReal) := by
  obtain ⟨r, hr⟩ := v5_real x0 x1 h0 h1 i k
  unfold rowsZ
  rw [hr, EReal.toReal_coe]

end Cert.ReferenceIdeal.RefValue

end
-- ==== Proof.Finite.lean ====
/-
  Finite inputs are real numbers.

  The precondition is "every entry of both views has absolute value below +∞". Over the extended reals that says each entry is a real
  number: |x| < +∞ fails exactly at x = ±∞.
-/
import proofs.«119228_j90692529422675_1_alg».proof.Pre_finite_inputs
import proofs.«119228_j90692529422675_1_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Finite

open Idealize.ShloMosaic Cert.Pre_finite_inputs

instance subsingleton_S_ : Subsingleton S_.Idx := ⟨fun a b => funext fun d => d.elim0⟩

theorem ofBits_inf : Ideal.ofBits .f32 0x7F800000#32 = ⊤ := by simp [Ideal.ofBits, Ideal.ieee]

/-- An extended real whose absolute value is below +∞ is a real. -/
theorem real_of_abs_lt_top (x : EReal) (h : Ideal.cmp .olt (max x (-x)) (Ideal.ofBits .f32 0x7F800000#32) = 1#1) :
    ∃ r : ℝ, x = (r : EReal) := by
  rw [ofBits_inf] at h
  have hlt : max x (-x) < ⊤ := by
    unfold Ideal.cmp at h
    have hb : ∀ b : Bool, BitVec.ofBool b = 1#1 → b = true := by decide
    exact of_decide_eq_true (hb _ h)
  induction x using EReal.rec
  all_goals first | exact ⟨_, rfl⟩ | (exfalso; simp at hlt)

/-- Under the precondition every entry of both argument arrays is a real number. -/
theorem finite_of_pre (a0 a1 : FVec Ideal S4096x128 .f32) (h : fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨h3, h7⟩ := IntOp.andi_eq_one.1 h0
  refine ⟨fun i => real_of_abs_lt_top _ ?_, fun i => real_of_abs_lt_top _ ?_⟩
  · have e := Host.reduce_andi_all _ _ _ _ _ h3 i
    rw [show (cmpf .olt (Host.absf a0) (broadcastInDim S4096x128 ![] Facts.bcast_S_S4096x128 (constant (F := Ideal) S_ .f32 0x7F800000#32))) i
        = Ideal.cmp .olt (max (a0 i) (-(a0 i))) (broadcastInDim S4096x128 ![] Facts.bcast_S_S4096x128 (constant (F := Ideal) S_ .f32 0x7F800000#32) i) from rfl,
      broadcastInDim_apply _ Facts.bcast_S_S4096x128 _ i ValueIdx.ix0 (fun a => a.elim0)] at e
    exact e
  · have e := Host.reduce_andi_all _ _ _ _ _ h7 i
    rw [show (cmpf .olt (Host.absf a1) (broadcastInDim S4096x128 ![] Facts.bcast_S_S4096x128 (constant (F := Ideal) S_ .f32 0x7F800000#32))) i
        = Ideal.cmp .olt (max (a1 i) (-(a1 i))) (broadcastInDim S4096x128 ![] Facts.bcast_S_S4096x128 (constant (F := Ideal) S_ .f32 0x7F800000#32) i) from rfl,
      broadcastInDim_apply _ Facts.bcast_S_S4096x128 _ i ValueIdx.ix0 (fun a => a.elim0)] at e
    exact e

end Cert.Finite

end
-- ==== Proof.Link.lean ====
/-
  The kernel's host lines before the region — concatenate the two views, divide every row by max(‖row‖, ε), convert to the narrower
  float format — compute the reference's normalised rows: the same operations, and the conversion is the identity on exact values.
-/
import proofs.«119228_j90692529422675_1_alg».proof.Proof.KI.Frame
import proofs.«119228_j90692529422675_1_alg».proof.Proof.RefRead

set_option maxRecDepth 16384

noncomputable section

namespace Cert.Link

open Cert.KernelIdeal Cert.KernelIdeal.Gen
open Idealize.ShloMosaic Idealize.ShloMosaic.TcCoe Idealize.SL.Sem Idealize.ShloMosaic.StableHlo

set_option maxHeartbeats 2000000 in
/-- The array of rows the region reads is the reference's array of normalised rows of the same two views. -/
theorem rows_eq (m : (ℓ : Loc nD τ sig) → Buf (Elt Ideal) ℓ) (c : Dev nD) :
    Cert.KernelIdeal.Hand.V (F := Ideal) m c main_v6
      = fun i => Cert.ReferenceIdeal.ReadP.val_main_v5 (F := Ideal)
          (m ((c.tc : Thread nD τ).loc main_arg0)) (m ((c.tc : Thread nD τ).loc main_arg1)) i := by
  dsimp only [Cert.KernelIdeal.Hand.V, Cert.KernelIdeal.Hand.V0]
  simp only [hostOps0, hostOps0_1, hostOps0_2, List.flatten_cons, List.flatten_nil, List.append_nil, List.cons_append, List.nil_append]
  after_results_simp <;> (try dsimp only [TRef.toBuf, TRef.ofBuf]) <;> (try simp only [cast_eq]) <;> (try rfl)

end Cert.Link

end
-- ==== Proof.lean ====
/-
  The certificate of the contrastive-loss kernel against its jnp reference.

  Both programs concatenate the two views into 8192 rows of 128 numbers, divide each row by max(‖row‖, ε), and form the scores
  s(i, j) = ⟨row i, row j⟩ / T with T the temperature. The loss is  −(1/8192) · Σ_i [ s(i, p(i)) − log Σ_{j ≠ i} exp s(i, j) ],
  p(i) = i ± 4096 the same sample in the other view.

  The reference masks the diagonal by −∞, takes a log-softmax of every row, keeps the entry at p(i) and divides the negated total by
  the number of kept entries. The kernel visits the rows in 64 tiles of 128: per row it takes the log-sum-exp over ALL columns
  (shifted by the row maximum), removes the diagonal term analytically by  L + log(1 − exp(s(i, i) − L)), and accumulates
  s(i, p(i)) minus that in a 1 × 1 scratch, which it negates and scales by 1/8192 at the last tile. The kernel multiplies by the
  folded reciprocal of the temperature where the reference divides by it; the reciprocal is named with the reference's own
  divisor, so that both read 1/T for the same T.

  Under the precondition (finite inputs) every normalised entry is a real number, both log-sum-exps are shift-invariant, and both
  programs return the loss of the same real rows.
-/
import proofs.«119228_j90692529422675_1_alg».proof.Defs
import proofs.«119228_j90692529422675_1_alg».proof.Proof.KB.Frame
import proofs.«119228_j90692529422675_1_alg».proof.Proof.KI.Value
import proofs.«119228_j90692529422675_1_alg».proof.Proof.RefStages
import proofs.«119228_j90692529422675_1_alg».proof.Proof.RefValue
import proofs.«119228_j90692529422675_1_alg».proof.Proof.Finite
import proofs.«119228_j90692529422675_1_alg».proof.Proof.Link
import proofs.«119228_j90692529422675_1_alg».proof.Proof.Gen.ReferenceIdeal
import proofs.«119228_j90692529422675_1_alg».proof.Proof.Gen.Pre_finite_inputs
import Idealize.ShloMosaic.Adequacy
import Idealize.ShloMosaic.Init

noncomputable section

namespace Cert.Proof

open Idealize.ShloMosaic Idealize.SL.Sem Idealize.ShloMosaic.ValueIdx

/-- The kernel as printed runs to the end, faults nowhere, and leaves its argument arrays as it found them. -/
theorem frame_k : Cert.frame_Kernel := fun m ρ _ => Cert.Kernel.Hand.frame (F := Bits) m ρ
/-- So does its idealization. -/
theorem frame_ki : Cert.frame_KernelIdeal := fun m ρ _ => Cert.KernelIdeal.Hand.frame (F := Ideal) m ρ
/-- So does the reference: a straight line of host operations. -/
theorem frame_ri : Cert.frame_ReferenceIdeal := fun m ρ _ =>
  (θ_run Cert.ReferenceIdeal.defs _ _).mono (fun _ h c => (h c).2) (Cert.ReferenceIdeal.ValueP.run (F := Ideal) m ρ)

/-- The three places where the kernel multiplies by the reciprocal of the temperature: the name denotes 1 / T, T the
    reference's divisor, at each. -/
theorem preserves : Cert.preserves_Kernel_KernelIdeal :=
  ⟨IdealRules.named_const.statement Cert.KernelIdeal.κ "inv_temp" .f32 0x41200000#32 ((134217728 / 13421773 : ℝ) : EReal) rfl,
   IdealRules.named_const.statement Cert.KernelIdeal.κ "inv_temp" .f32 0x41200000#32 ((134217728 / 13421773 : ℝ) : EReal) rfl,
   IdealRules.named_const.statement Cert.KernelIdeal.κ "inv_temp" .f32 0x41200000#32 ((134217728 / 13421773 : ℝ) : EReal) rfl⟩

/-- Over the exact values both programs return the loss of the same real rows. -/
theorem algebraic : Cert.algebraic_KernelIdeal_ReferenceIdeal := by
  intro m ρ m' ρ' hpre hagree
  -- per core: the two views are real, hence the normalised rows
  have hfin := fun c : Dev Cert.KernelIdeal.nD => Cert.Finite.finite_of_pre _ _ (hpre c)
  have hZ := fun c : Dev Cert.KernelIdeal.nD =>
    Cert.ReferenceIdeal.RefValue.rowsZ_spec
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) (hfin c).1 (hfin c).2
  refine ⟨fun c => fun _ => ((Cert.Algebra.loss (Cert.ReferenceIdeal.RefValue.rowsZ
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))) : ℝ) : EReal), ?_, ?_⟩
  · -- the kernel
    refine (θ_run Cert.KernelIdeal.defs _ _).mono (fun r h c => ⟨?_, (h c).2.1, (h c).2.2⟩) (Cert.KernelIdeal.Hand.run_main (F := Ideal) m ρ)
    rw [(h c).1]
    funext i
    refine Cert.KernelIdeal.Hand.result_eq m _ c (fun i k => ?_) i
    rw [Cert.Link.rows_eq m c]
    exact hZ c i k
  · -- the reference, on the same views
    refine (θ_run Cert.ReferenceIdeal.defs _ _).mono
      (fun r h c => ⟨?_, (h c).2.1, (h c).2.2⟩) (Cert.ReferenceIdeal.ValueP.run (F := Ideal) m' ρ')
    rw [(h c).1, Cert.ReferenceIdeal.Stages.result_eq m' c, (hagree c).1, (hagree c).2]
    funext i
    exact Cert.ReferenceIdeal.RefValue.result_eq _ _ _ (hZ c) i

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
